-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x512 : Shape := ⟨2, ![5000, 512]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S1x40 : Shape := ⟨2, ![1, 40]⟩
abbrev S5000 : Shape := ⟨1, ![5000]⟩

abbrev nBuf : Space → Nat
  | .hbm => 60
  | .vmem => 26
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x16, .f32⟩
  | .hbm, ⟨38, _⟩ => ⟨S_, .f32⟩
  | .hbm, ⟨39, _⟩ => ⟨S100000x16, .f32⟩
  | .hbm, ⟨40, _⟩ => ⟨S3300000x1, .i32⟩
  | .hbm, ⟨41, _⟩ => ⟨S100000x16, .f32⟩
  | .hbm, ⟨42, _⟩ => ⟨S1x16, .f32⟩
  | .hbm, ⟨43, _⟩ => ⟨S100000x16, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x16, .f32⟩
  | .hbm, ⟨53, _⟩ => ⟨S_, .f32⟩
  | .hbm, ⟨54, _⟩ => ⟨S100000x16, .f32⟩
  | .hbm, ⟨55, _⟩ => ⟨S3300000x1, .i32⟩
  | .hbm, ⟨56, _⟩ => ⟨S100000x16, .f32⟩
  | .hbm, ⟨57, _⟩ => ⟨S100000x40, .f32⟩
  | .hbm, ⟨58, _⟩ => ⟨S1x40, .f32⟩
  | .hbm, ⟨59, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x1, .f32⟩
  | .local _ .vmem, ⟨17, _⟩ => ⟨S5000x1, .f32⟩
  | .local _ .vmem, ⟨18, _⟩ => ⟨S16x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S1x40, .f32⟩
  | .local _ .vmem, ⟨24, _⟩ => ⟨S5000x40, .f32⟩
  | .local _ .vmem, ⟨25, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x40.size a ≤ S16x40.size a
  hwx2_2 : ∀ i : grid2.Coords, EltTy.bits .f32 = 32 ∨ (Rect.block (s := S16x40) S16x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S16x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x40, .f32⟩
  | 115 => ⟨S3300000x1, .f32⟩
  | 116 => ⟨S3300000x40, .f32⟩
  | 117 => ⟨S3300000x40, .f32⟩
  | 118 => ⟨S_, .f32⟩
  | 119 => ⟨S100000x40, .f32⟩
  | 120 => ⟨S3300000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibPropagate.lean ====
/-
  A graph propagation step commutes with a product by a matrix on the feature axis.

  One propagation step on an `[N, F]` array `h` is `h' (n, f) = ∑ { e : col e = n }  h (row e, f) · ν e`: a gather of whole
  rows (`row e`, clamped), a scale by the edge's coefficient `ν e`, and an accumulating scatter onto the rows `col e`
  (`hop`, over the dimension numbers of `RowOps`; `hop_apply` reads it at an index). The rows an edge reads and
  writes depend on the two index arrays only, never on the column `f`, so the step acts on each column separately
  and is linear in it. Hence, for REAL entries `r`, real coefficients `ν` and a real `[K, J]` matrix `w`,

      hop (r · w)  =  (hop r) · w          (`hop_contract`, with `hop_real`: the step of a real array is real)

  where `r · w` is the matrix product `contract r w (n, j) = ∑ k, r (n, k) · w (k, j)`: propagating the `J`-wide
  product is the product of the propagated `K`-wide array. The law under it is `RealSum.step_comm`; reality of the
  entries is what makes the product distribute over the extended reals' sums.

  Also here: the two broadcasts a printed step is made of, read at an index (`zeros_apply`: the zero array the
  scatter accumulates into; `rowBroadcast_apply`: an `[E]` array of coefficients spread along the columns of `[E, F]`).
-/
import proofs.«156424_j58969900974604_2_alg».proof.Proof.LibRowOps
import proofs.«156424_j58969900974604_2_alg».proof.Proof.LibRealSum
import Idealize.ShloMosaic.Lib.Pipeline.Value
import Idealize.ShloMosaic.PureOps.Ideal.Laws

noncomputable section

open scoped BigOperators

namespace Cert.Lib.Propagate

open Idealize.ShloMosaic Idealize.ShloMosaic.ValueIdx Cert.Lib.RowOps Cert.Lib.RealSum

variable {N E F K J : Nat}

/-- One propagation step at the ideal values: rows gathered by `rowI`, scaled entry by entry by `nB`, accumulated by
    `colI` into `zArr`. -/
def hop (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) :
    (⟨2, ![N, F]⟩ : Shape).Idx → EReal :=
  Ideal.hostScatterAdd (rowScatter N E F wfS) zArr colI
    (fun j => h ((rowGather N E F wfG).operandIdx j rowI) * nB j)

/-- The step read at `(n, f)`: what was there plus, over the edges `e` whose target reads `n`, the source row's entry in
    column `f` times the edge's coefficient there. -/
theorem hop_apply (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) (n : Fin N) (f : Fin F) :
    hop wfG wfS rowI colI zArr nB h (ix2 n f)
      = zArr (ix2 n f) + ∑ e ∈ Finset.univ.filter (fun e : Fin E => (colI (ix2 e 0)).toInt = (n.val : Int)),
          h (ix2 (clampRow hN rowI e) f) * nB (ix2 e f) := by
  unfold hop
  rw [scatterAdd_rows_apply]
  refine congrArg (zArr (ix2 n f) + ·) (Finset.sum_congr rfl fun e _ => ?_)
  show h ((rowGather N E F wfG).operandIdx (ix2 e f) rowI) * nB (ix2 e f) = _
  rw [rowGather_operandIdx hN]

/-- The step on real entries, as a real array. -/
def stepReal (hN : 0 < N) (rowI colI : IVec ⟨2, ![E, 1]⟩ 32) (ν : Fin E → ℝ)
    (r : (⟨2, ![N, F]⟩ : Shape).Idx → ℝ) : (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F)) * ν e

/-- The matrix product of a real `[N, K]` array with a real `[K, J]` matrix. -/
def contract (r : (⟨2, ![N, K]⟩ : Shape).Idx → ℝ) (w : (⟨2, ![K, J]⟩ : Shape).Idx → ℝ) :
    (⟨2, ![N, J]⟩ : Shape).Idx → ℝ :=
  fun y => ∑ k : Fin K, r (ix2 (⟨(y 0).val, idx2_lt0 y⟩ : Fin N) k) * w (ix2 k (⟨(y 1).val, idx2_lt1 y⟩ : Fin J))

/-- The coercion of an entry of the product is the sum of the coerced products. -/
theorem contract_coe (r : (⟨2, ![N, K]⟩ : Shape).Idx → ℝ) (w : (⟨2, ![K, J]⟩ : Shape).Idx → ℝ) (n : Fin N) (j : Fin J) :
    ((contract r w (ix2 n j) : ℝ) : EReal) = ∑ k : Fin K, (r (ix2 n k) : EReal) * (w (ix2 k j) : EReal) := by
  show ((∑ k : Fin K, r (ix2 n k) * w (ix2 k j) : ℝ) : EReal) = _
  rw [coe_sum]
  simp only [EReal.coe_mul]

/-- The step of a real array is the real array `stepReal`. -/
theorem hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (hz : ∀ i, zArr i = 0) (ν : Fin E → ℝ)
    (hn : ∀ e f, nB (ix2 e f) = (ν e : EReal)) (r : (⟨2, ![N, F]⟩ : Shape).Idx → ℝ) :
    hop wfG wfS rowI colI zArr nB (fun x => (r x : EReal)) = fun x => ((stepReal hN rowI colI ν r x : ℝ) : EReal) := by
  funext x
  obtain ⟨n, f, rfl⟩ : ∃ (n : Fin N) (f : Fin F), x = ix2 n f := ⟨x 0, x 1, eq_ix2 x⟩
  rw [hop_apply hN, hz]
  simp only [hn]
  exact step_real _ (fun e => r (ix2 (clampRow hN rowI e) f)) ν

/-- PROPAGATION COMMUTES WITH THE PRODUCT: the step of the `J`-wide product `r · w` is the product with `w` of the step
    of the `K`-wide array `r` — the same index arrays and coefficients on both widths. -/
theorem hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (rowI colI : IVec ⟨2, ![E, 1]⟩ 32) (zArr : (⟨2, ![N, J]⟩ : Shape).Idx → EReal)
    (nB : (⟨2, ![E, J]⟩ : Shape).Idx → EReal) (hz : ∀ i, zArr i = 0) (ν : Fin E → ℝ)
    (hn : ∀ e j, nB (ix2 e j) = (ν e : EReal))
    (r : (⟨2, ![N, K]⟩ : Shape).Idx → ℝ) (w : (⟨2, ![K, J]⟩ : Shape).Idx → ℝ) :
    hop wfG wfS rowI colI zArr nB (fun y => ((contract r w y : ℝ) : EReal))
      = fun y => ((contract (stepReal hN rowI colI ν r) w y : ℝ) : EReal) := by
  funext y
  obtain ⟨n, j, rfl⟩ : ∃ (n : Fin N) (j : Fin J), y = ix2 n j := ⟨y 0, y 1, eq_ix2 y⟩
  rw [hop_apply hN, hz]
  simp only [hn]
  exact step_comm _ (fun e k => r (ix2 (clampRow hN rowI e) k)) ν (fun k => w (ix2 k j))

/-! ## The step as a program prints it

A printed step is `Host.scatterAdd ds zArr colI (mulf (Host.gather dg h rowI) nB)` over the program's own dimension
records; when those are the row records of `RowOps` it is `hop`. Stated over arbitrary records equal to them, so that at
a program's literal shapes the printed term is met as it stands. -/

/-- The printed step is `hop`. -/
theorem host_hop_eq
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (h : FVec Ideal ⟨2, ![N, F]⟩ .f32) :
    Host.scatterAdd ds zArr colI (mulf (Host.gather dg h rowI) nB) = hop wfG wfS rowI colI zArr nB h := by
  subst hdg hds
  rfl

/-- The printed step of a real array is the real array `stepReal`. -/
theorem host_hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (hz : ∀ i, zArr i = 0) (ν : Fin E → ℝ) (hn : ∀ e f, nB (ix2 e f) = (ν e : EReal))
    (r : (⟨2, ![N, F]⟩ : Shape).Idx → ℝ) :
    Host.scatterAdd ds zArr colI (mulf (Host.gather dg (fun x => (r x : EReal)) rowI) nB)
      = fun x => ((stepReal hN rowI colI ν r x : ℝ) : EReal) :=
  (host_hop_eq wfG wfS dg ds hdg hds rowI colI zArr nB _).trans (hop_real hN wfG wfS rowI colI zArr nB hz ν hn r)

/-- The printed step of the `J`-wide product `r · w` is the product with `w` of the step of `r`. -/
theorem host_hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = (ν e : EReal))
    (r : (⟨2, ![N, K]⟩ : Shape).Idx → ℝ) (w : (⟨2, ![K, J]⟩ : Shape).Idx → ℝ) :
    Host.scatterAdd ds zArr colI (mulf (Host.gather dg (fun y => ((contract r w y : ℝ) : EReal)) rowI) nB)
      = fun y => ((contract (stepReal hN rowI colI ν r) w y : ℝ) : EReal) :=
  (host_hop_eq wfG wfS dg ds hdg hds rowI colI zArr nB _).trans (hop_contract hN wfG wfS rowI colI zArr nB hz ν hn r w)

/-- The zero array an accumulating scatter starts from: the f32 zero word broadcast to any shape reads `0`. -/
theorem zeros_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  rw [broadcastInDim_apply _ h _ i ix0 (fun a => a.elim0)]
  exact Ideal.ofBits_zero_f32

/-- An `[E]` array spread over the columns of `[E, F]` (through `[E, 1]`) reads, at `(e, f)`, its entry `e`. -/
theorem rowBroadcast_apply {α : Type} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (x : (⟨1, ![E]⟩ : Shape).Idx → α) (e : Fin E) (f : Fin F) :
    broadcastInDim ⟨2, ![E, F]⟩ (![0, 1] : Fin 2 → Fin 2) h2 (broadcastInDim ⟨2, ![E, 1]⟩ (![0] : Fin 1 → Fin 2) h1 x) (ix2 e f)
      = x (ix1 e) := by
  rw [broadcastInDim_apply _ h2 _ (ix2 e f) (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])]
  rw [broadcastInDim_apply _ h1 _ (ix2 e (0 : Fin 1)) (ix1 e) (fun a => match a with
    | ⟨0, _⟩ => by show e.val = if E = 1 then 0 else e.val; rw [if_neg hE])]

end Cert.Lib.Propagate

end
-- ==== Proof.LibDense.lean ====
/-
  A dense layer read at an index.

  For an `[N, K]` array `a`, a `[K, J]` matrix `w` and a `[J]` row `b` of extended reals:

  * `project a w` is the matrix product, entry `(n, j) = ∑ k, a (n, k) · w (k, j)`;
  * `affine a w b` adds the row `b` to every row of it, entry `(n, j) = ∑ k, a (n, k) · w (k, j) + b j`.

  Both are stated for every `N`, `K`, `J`; at an index built from its coordinates they unfold by `rfl`.
-/
import Idealize.ShloMosaic.PureOps.Ideal
import Idealize.ShloMosaic.Lib.ValueIdx

noncomputable section

open scoped BigOperators

namespace Cert.Lib.Dense

open Idealize.ShloMosaic Idealize.ShloMosaic.ValueIdx

variable {N K J : Nat}

/-- The matrix product of an `[N, K]` array with a `[K, J]` matrix: entry `(n, j)` is `∑ k, a (n, k) · w (k, j)`. -/
def project (a : (⟨2, ![N, K]⟩ : Shape).Idx → EReal) (w : (⟨2, ![K, J]⟩ : Shape).Idx → EReal) :
    (⟨2, ![N, J]⟩ : Shape).Idx → EReal :=
  fun y => ∑ k : Fin K, a (ix2 (⟨(y 0).val, idx2_lt0 y⟩ : Fin N) k) * w (ix2 k (⟨(y 1).val, idx2_lt1 y⟩ : Fin J))

/-- The product with the row `b` added to each of its rows: entry `(n, j)` is `∑ k, a (n, k) · w (k, j) + b j`. -/
def affine (a : (⟨2, ![N, K]⟩ : Shape).Idx → EReal) (w : (⟨2, ![K, J]⟩ : Shape).Idx → EReal)
    (b : (⟨1, ![J]⟩ : Shape).Idx → EReal) : (⟨2, ![N, J]⟩ : Shape).Idx → EReal :=
  fun y => project a w y + b (ix1 (⟨(y 1).val, idx2_lt1 y⟩ : Fin J))

theorem project_apply (a : (⟨2, ![N, K]⟩ : Shape).Idx → EReal) (w : (⟨2, ![K, J]⟩ : Shape).Idx → EReal) (n : Fin N) (j : Fin J) :
    project a w (ix2 n j) = ∑ k : Fin K, a (ix2 n k) * w (ix2 k j) := rfl

theorem affine_apply (a : (⟨2, ![N, K]⟩ : Shape).Idx → EReal) (w : (⟨2, ![K, J]⟩ : Shape).Idx → EReal)
    (b : (⟨1, ![J]⟩ : Shape).Idx → EReal) (n : Fin N) (j : Fin J) :
    affine a w b (ix2 n j) = (∑ k : Fin K, a (ix2 n k) * w (ix2 k j)) + b (ix1 j) := rfl

end Cert.Lib.Dense

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibNormHop.lean ====
/-
  A propagation normalised on both sides, on real entries.

  A graph layer with symmetric normalisation weights the edge `e` from row `s e` to row `t e` by `D (s e) · D (t e)` for a
  real column `D` over the nodes. There are two ways to compute it. One gathers the source rows, multiplies row `e` of the
  gathered array by the edge's weight and adds the rows up at their targets (`Propagate.stepReal` with the coefficient
  `edgeCoef`). The other multiplies row `n` of the array by `D n` first, gathers and adds up with no coefficient
  (`gatherSum`), and multiplies row `n` of the sum by `D n` again. On real entries they agree
  (`scaled_gatherSum_eq_step`): `D (t e)` is the same for every edge landing on a row, so it factors out of that row's sum —
  provided the row the edge's target word names when it is READ (moved up if negative, clamped) is the row it LANDS on
  (not moved, dropped if outside), which holds for every edge that lands at all (`clampRow_wrapped_of_lands`).

  Also here, for any extents: a flat array gathered at a column of index words read at an entry (`flatGather_apply`); the
  gather-and-add of a real array as a real array (`host_gatherSum`); a real column spread along the rows' entries and
  multiplied in (`mul_spread_real`); the propagation commuting with a matrix product, in the reals (`stepReal_contract`);
  a dense layer on real entries, as a product and bias (`project_real`, `affine_real`) and as the host's `dot_general`
  followed by a bias row spread over the rows (`dotGeneral_real`, `biasRows_apply`, `add_biasRows_real`); two such layers
  after a propagation each, as one real array (`twoLayer`); the word-level fact under `clampRow_wrapped_of_lands`
  (`wrapped_word_of_toInt`); and the normalisation `deg ^ (-1/2)` where `deg > 0`, else `0`, of a real `deg` being real
  (`isReal_rsqrt_where_pos`).
-/
import proofs.«156424_j58969900974604_2_alg».proof.Proof.LibPropagate
import proofs.«156424_j58969900974604_2_alg».proof.Proof.LibDense
import proofs.«156424_j58969900974604_2_alg».proof.Proof.LibPlainDot

noncomputable section

open scoped BigOperators

namespace Cert.Lib.NormHop

open Idealize.ShloMosaic Idealize.ShloMosaic.ValueIdx Cert.Lib.RowOps Cert.Lib.RealSum Cert.Lib.Propagate Cert.Lib.Dense

variable {N E F K J : Nat}

/-! ## A flat array gathered at a column of index words -/

/-- The dimension numbers of `x[idx]` for a flat operand `[N]` and start indices `[E, 1]`: result `[E]`. -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered array is the operand at the row start index `e` names (read signed, clamped). -/
theorem flatGather_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) {w : Nat} (idx : IVec ⟨2, ![E, 1]⟩ w) (e : Fin E) :
    Host.gather (flatGather N E wf) x idx (ix1 e) = x (ix1 (clampRow hN idx e)) := by
  unfold Host.gather
  refine congrArg x ?_
  funext a
  obtain rfl : a = 0 := Subsingleton.elim _ _
  refine Fin.ext ?_
  show (flatGather N E wf).start (ix1 e) idx 0 + (flatGather N E wf).batchCoord (ix1 e) 0
      + (flatGather N E wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Rows gathered and added up, with no coefficient -/

/-- Over the edges landing on row `n`, the sum of the source rows' entries in column `f`. -/
def gatherSum (hN : 0 < N) (rowI colI : IVec ⟨2, ![E, 1]⟩ 32) (r : (⟨2, ![N, F]⟩ : Shape).Idx → ℝ) :
    (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F))

/-- The printed gather-and-add of a real array, into zeros, is the real array `gatherSum`. -/
theorem host_gatherSum (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (hz : ∀ i, zArr i = 0)
    (r : (⟨2, ![N, F]⟩ : Shape).Idx → ℝ) :
    Host.scatterAdd ds zArr colI (Host.gather dg (fun x => (r x : EReal)) rowI)
      = fun x => ((gatherSum hN rowI colI r x : ℝ) : EReal) := by
  subst hdg hds
  funext x
  obtain ⟨n, f, rfl⟩ : ∃ (n : Fin N) (f : Fin F), x = ix2 n f := ⟨x 0, x 1, eq_ix2 x⟩
  show Ideal.hostScatterAdd (rowScatter N E F wfS) zArr colI
      (fun j => ((r ((rowGather N E F wfG).operandIdx j rowI) : ℝ) : EReal)) (ix2 n f) = _
  rw [scatterAdd_rows_apply, hz, zero_add]
  simp only [rowGather_operandIdx hN]
  exact (coe_sum _ _).symm

/-! ## A real column over the rows, multiplied in -/

/-- A real array times a real column spread along its rows' entries: row `n` is multiplied by `D n`. -/
theorem mul_spread_real (hN1 : N ≠ 1)
    (h1 : (⟨1, ![N]⟩ : Shape).BroadcastsInDim ⟨2, ![N, 1]⟩ (![0] : Fin 1 → Fin 2))
    (h2 : (⟨2, ![N, 1]⟩ : Shape).BroadcastsInDim ⟨2, ![N, F]⟩ (![0, 1] : Fin 2 → Fin 2))
    (d : FVec Ideal ⟨1, ![N]⟩ .f32) (D : Fin N → ℝ) (hd : ∀ n, d (ix1 n) = (D n : EReal))
    (r : (⟨2, ![N, F]⟩ : Shape).Idx → ℝ) :
    mulf (fun x => (r x : EReal) : FVec Ideal ⟨2, ![N, F]⟩ .f32)
        (broadcastInDim ⟨2, ![N, F]⟩ (![0, 1] : Fin 2 → Fin 2) h2 (broadcastInDim ⟨2, ![N, 1]⟩ (![0] : Fin 1 → Fin 2) h1 d))
      = fun x => ((r x * D (⟨(x 0).val, idx2_lt0 x⟩ : Fin N) : ℝ) : EReal) := by
  funext x
  obtain ⟨n, f, rfl⟩ : ∃ (n : Fin N) (f : Fin F), x = ix2 n f := ⟨x 0, x 1, eq_ix2 x⟩
  rw [mulf_apply, rowBroadcast_apply hN1 h1 h2 d n f, hd]
  exact (EReal.coe_mul _ _).symm

/-! ## The two normalisations agree -/

/-- The weight of edge `e`: the column at the row its source names times the column at the row its target names. -/
def edgeCoef (hN : 0 < N) (rowS rowT : IVec ⟨2, ![E, 1]⟩ 32) (D : Fin N → ℝ) (e : Fin E) : ℝ :=
  D (clampRow hN rowS e) * D (clampRow hN rowT e)

/-- Scaling the rows by `D`, gathering and adding up, and scaling by `D` again is the propagation with the edges'
    weights — when every edge landing on a row reads that row as its target. -/
theorem scaled_gatherSum_eq_step (hN : 0 < N) (rowS rowT colT : IVec ⟨2, ![E, 1]⟩ 32) (D : Fin N → ℝ)
    (hT : ∀ (e : Fin E) (n : Fin N), (colT (ix2 e 0)).toInt = (n.val : Int) → clampRow hN rowT e = n)
    (r : (⟨2, ![N, F]⟩ : Shape).Idx → ℝ) :
    (fun x => gatherSum hN rowS colT (fun y => r y * D (⟨(y 0).val, idx2_lt0 y⟩ : Fin N)) x * D (⟨(x 0).val, idx2_lt0 x⟩ : Fin N))
      = stepReal hN rowS colT (edgeCoef hN rowS rowT D) r := by
  funext x
  unfold gatherSum stepReal edgeCoef
  rw [Finset.sum_mul]
  refine Finset.sum_congr rfl fun e he => ?_
  rw [hT e ⟨(x 0).val, idx2_lt0 x⟩ (Finset.mem_filter.mp he).2]
  show r _ * D (clampRow hN rowS e) * D _ = r _ * (D (clampRow hN rowS e) * D _)
  ring

/-- The propagation commutes with a product by a matrix on the feature axis, in the reals. -/
theorem stepReal_contract (hN : 0 < N) (rowI colI : IVec ⟨2, ![E, 1]⟩ 32) (ν : Fin E → ℝ)
    (r : (⟨2, ![N, K]⟩ : Shape).Idx → ℝ) (w : (⟨2, ![K, J]⟩ : Shape).Idx → ℝ) :
    stepReal hN rowI colI ν (contract r w) = contract (stepReal hN rowI colI ν r) w := by
  funext y
  obtain ⟨n, j, rfl⟩ : ∃ (n : Fin N) (j : Fin J), y = ix2 n j := ⟨y 0, y 1, eq_ix2 y⟩
  show ∑ e ∈ Finset.univ.filter (fun e : Fin E => (colI (ix2 e 0)).toInt = (n.val : Int)),
      (∑ k : Fin K, r (ix2 (clampRow hN rowI e) k) * w (ix2 k j)) * ν e
    = ∑ k : Fin K, (∑ e ∈ Finset.univ.filter (fun e : Fin E => (colI (ix2 e 0)).toInt = (n.val : Int)),
        r (ix2 (clampRow hN rowI e) k) * ν e) * w (ix2 k j)
  simp only [Finset.sum_mul]
  rw [Finset.sum_comm]
  refine Finset.sum_congr rfl fun k _ => Finset.sum_congr rfl fun e _ => by ring

/-! ## A dense layer on real entries -/

/-- The product of two real arrays is the real product. -/
theorem project_real (r : (⟨2, ![N, K]⟩ : Shape).Idx → ℝ) (w : (⟨2, ![K, J]⟩ : Shape).Idx → ℝ) :
    project (fun x => (r x : EReal)) (fun x => (w x : EReal)) = fun y => ((contract r w y : ℝ) : EReal) := by
  funext y
  obtain ⟨n, j, rfl⟩ : ∃ (n : Fin N) (j : Fin J), y = ix2 n j := ⟨y 0, y 1, eq_ix2 y⟩
  exact (contract_coe r w n j).symm

/-- The real product with a real row added to each of its rows. -/
def affineReal (r : (⟨2, ![N, K]⟩ : Shape).Idx → ℝ) (w : (⟨2, ![K, J]⟩ : Shape).Idx → ℝ) (b : Fin J → ℝ) :
    (⟨2, ![N, J]⟩ : Shape).Idx → ℝ :=
  fun y => contract r w y + b (⟨(y 1).val, idx2_lt1 y⟩ : Fin J)

/-- A dense layer with a bias on real entries is real. -/
theorem affine_real (r : (⟨2, ![N, K]⟩ : Shape).Idx → ℝ) (w : (⟨2, ![K, J]⟩ : Shape).Idx → ℝ)
    (b : (⟨1, ![J]⟩ : Shape).Idx → EReal) (β : Fin J → ℝ) (hb : ∀ j, b (ix1 j) = (β j : EReal)) :
    affine (fun x => (r x : EReal)) (fun x => (w x : EReal)) b = fun y => ((affineReal r w β y : ℝ) : EReal) := by
  funext y
  obtain ⟨n, j, rfl⟩ : ∃ (n : Fin N) (j : Fin J), y = ix2 n j := ⟨y 0, y 1, eq_ix2 y⟩
  show project (fun x => (r x : EReal)) (fun x => (w x : EReal)) (ix2 n j) + b (ix1 j) = _
  rw [project_real, hb]
  exact (EReal.coe_add _ _).symm

/-- A `[J]` row spread over the rows of `[N, J]` (through `[1, J]`) reads, at `(n, j)`, its entry `j`. -/
theorem biasRows_apply {α : Type}
    (h1 : (⟨1, ![J]⟩ : Shape).BroadcastsInDim ⟨2, ![1, J]⟩ (![1] : Fin 1 → Fin 2))
    (h2 : (⟨2, ![1, J]⟩ : Shape).BroadcastsInDim ⟨2, ![N, J]⟩ (![0, 1] : Fin 2 → Fin 2))
    (b : (⟨1, ![J]⟩ : Shape).Idx → α) (n : Fin N) (j : Fin J) :
    broadcastInDim ⟨2, ![N, J]⟩ (![0, 1] : Fin 2 → Fin 2) h2 (broadcastInDim ⟨2, ![1, J]⟩ (![1] : Fin 1 → Fin 2) h1 b) (ix2 n j)
      = b (ix1 j) := by
  rw [broadcastInDim_apply _ h2 _ (ix2 n j) (ix2 (0 : Fin 1) j) (fun a => match a with
    | ⟨0, _⟩ => by show 0 = if (1 : Nat) = 1 then 0 else n.val; rw [if_pos rfl]
    | ⟨1, _⟩ => by
      show j.val = if J = 1 then 0 else j.val
      split
      · have := j.isLt; omega
      · rfl)]
  rw [broadcastInDim_apply _ h1 _ (ix2 (0 : Fin 1) j) (ix1 j) (fun a => match a with
    | ⟨0, _⟩ => by
      show j.val = if J = 1 then 0 else j.val
      split
      · have := j.isLt; omega
      · rfl)]

/-- A real array plus a real row spread over its rows. -/
theorem add_biasRows_real
    (h1 : (⟨1, ![J]⟩ : Shape).BroadcastsInDim ⟨2, ![1, J]⟩ (![1] : Fin 1 → Fin 2))
    (h2 : (⟨2, ![1, J]⟩ : Shape).BroadcastsInDim ⟨2, ![N, J]⟩ (![0, 1] : Fin 2 → Fin 2))
    (b : FVec Ideal ⟨1, ![J]⟩ .f32) (β : Fin J → ℝ) (hb : ∀ j, b (ix1 j) = (β j : EReal))
    (r : (⟨2, ![N, J]⟩ : Shape).Idx → ℝ) :
    addf (fun x => (r x : EReal) : FVec Ideal ⟨2, ![N, J]⟩ .f32)
        (broadcastInDim ⟨2, ![N, J]⟩ (![0, 1] : Fin 2 → Fin 2) h2 (broadcastInDim ⟨2, ![1, J]⟩ (![1] : Fin 1 → Fin 2) h1 b))
      = fun x => ((r x + β (⟨(x 1).val, idx2_lt1 x⟩ : Fin J) : ℝ) : EReal) := by
  funext x
  obtain ⟨n, j, rfl⟩ : ∃ (n : Fin N) (j : Fin J), x = ix2 n j := ⟨x 0, x 1, eq_ix2 x⟩
  rw [addf_apply, biasRows_apply h1 h2 b n j, hb]
  exact (EReal.coe_add _ _).symm

/-- The host's plain `dot_general` of two real arrays is the real product. -/
theorem dotGeneral_real (d : DotDims ⟨2, ![N, K]⟩ ⟨2, ![K, J]⟩ ⟨2, ![N, J]⟩) (hd : Cert.PlainDot.IsPlain d)
    (r : (⟨2, ![N, K]⟩ : Shape).Idx → ℝ) (w : (⟨2, ![K, J]⟩ : Shape).Idx → ℝ) :
    Host.dotGeneral (F := Ideal) (φ₁ := .f32) (φ₂ := .f32) d none (fun x => (r x : EReal)) (fun x => (w x : EReal))
      = fun y => ((contract r w y : ℝ) : EReal) := by
  funext y
  obtain ⟨n, j, rfl⟩ : ∃ (n : Fin N) (j : Fin J), y = ix2 n j := ⟨y 0, y 1, eq_ix2 y⟩
  exact (Cert.PlainDot.dotGeneral_apply d hd none _ _ n j).trans (contract_coe r w n j).symm

/-- Two layers of "propagate with the edges' weights, then a dense layer with a bias", on real entries. -/
def twoLayer (hN : 0 < N) (rowS rowT colT : IVec ⟨2, ![E, 1]⟩ 32) (D : Fin N → ℝ)
    (x : (⟨2, ![N, F]⟩ : Shape).Idx → ℝ) (w1 : (⟨2, ![F, K]⟩ : Shape).Idx → ℝ) (β1 : Fin K → ℝ)
    (w2 : (⟨2, ![K, J]⟩ : Shape).Idx → ℝ) (β2 : Fin J → ℝ) : (⟨2, ![N, J]⟩ : Shape).Idx → ℝ :=
  affineReal (stepReal hN rowS colT (edgeCoef hN rowS rowT D)
    (affineReal (stepReal hN rowS colT (edgeCoef hN rowS rowT D) x) w1 β1)) w2 β2

/-! ## The index words -/

/-- A 32-bit word whose signed value is a row number `n < N` is not negative, so "moved up by a constant if negative" leaves
    it alone, and clamping into `[0, N − 1]` leaves it alone too. -/
theorem wrapped_word_of_toInt (x cN : BitVec 32) (n : Nat) (hn : n < N) (hl : x.toInt = (n : Int)) :
    min (Scalar.select (IntOp.cmpi .slt x 0#32) (IntOp.addi x cN) x).toInt.toNat (N - 1) = n := by
  have hnot : IntOp.cmpi .slt x 0#32 = 0#1 := by
    show BitVec.ofBool (x.slt (0#32)) = 0#1
    have : x.slt (0#32) = false := by
      rw [BitVec.slt_eq_decide]
      simp only [BitVec.toInt_zero, decide_eq_false_iff_not, not_lt]
      omega
    rw [this]; rfl
  rw [hnot, select_zero, hl]
  omega

/-- An edge whose target word, read as it stands, lands on row `n` also reads row `n` when the word is first moved up
    by a constant if negative and then clamped: a word that lands is not negative and is below `N`. -/
theorem clampRow_wrapped_of_lands (hN : 0 < N)
    (h0 : (⟨0, ![]⟩ : Shape).BroadcastsInDim ⟨1, ![E]⟩ (![] : Fin 0 → Fin 1))
    (h1 : (⟨1, ![E]⟩ : Shape).BroadcastsInDim ⟨2, ![E, 1]⟩ (![0] : Fin 1 → Fin 2))
    (tg : IVec ⟨1, ![E]⟩ 32) (cN : BitVec 32) (e : Fin E) (n : Fin N)
    (hl : BitVec.toInt (broadcastInDim ⟨2, ![E, 1]⟩ (![0] : Fin 1 → Fin 2) h1 tg (ix2 e 0)) = (n.val : Int)) :
    clampRow hN (broadcastInDim ⟨2, ![E, 1]⟩ (![0] : Fin 1 → Fin 2) h1
      (select (cmpi .slt tg (broadcastInDim ⟨1, ![E]⟩ (![] : Fin 0 → Fin 1) h0 (constantI ⟨0, ![]⟩ 32 0#32)))
        (addi tg (broadcastInDim ⟨1, ![E]⟩ (![] : Fin 0 → Fin 1) h0 (constantI ⟨0, ![]⟩ 32 cN))) tg)) e = n := by
  have hb : ∀ (v : IVec ⟨1, ![E]⟩ 32), broadcastInDim ⟨2, ![E, 1]⟩ (![0] : Fin 1 → Fin 2) h1 v (ix2 e 0) = v (ix1 e) := fun v =>
    broadcastInDim_apply _ h1 v (ix2 e 0) (ix1 e) (fun a => match a with
      | ⟨0, _⟩ => by
        show e.val = if E = 1 then 0 else e.val
        split
        · have := e.isLt; omega
        · rfl)
  rw [hb] at hl
  refine Fin.ext ?_
  unfold clampRow
  dsimp only
  rw [hb]
  exact wrapped_word_of_toInt (tg (ix1 e)) cN n.val n.isLt hl

/-! ## The normalisation is real -/

/-- `deg ^ (-1/2)` where `deg` is positive, zero elsewhere, of a real `deg`, is real. -/
theorem isReal_rsqrt_where_pos {s : Shape} (deg z z' : FVec Ideal s .f32) (hdeg : ∀ i, IsReal (deg i))
    (hz : ∀ i, z i = 0) (hz' : ∀ i, z' i = 0) (i : s.Idx) :
    IsReal (select (cmpf .ogt deg z) (Host.rsqrt deg) z' i) := by
  obtain ⟨r, hr⟩ := hdeg i
  rw [select_apply, cmpf_apply]
  show IsReal (Scalar.select (Ideal.cmp .ogt (deg i) (z i)) (Ideal.rsqrt (deg i)) (z' i))
  rw [hz, hz', hr]
  by_cases hpos : 0 < r
  · have : Ideal.cmp .ogt (r : EReal) 0 = 1#1 := by
      show BitVec.ofBool (decide ((0 : EReal) < (r : EReal))) = 1#1
      rw [decide_eq_true (by exact_mod_cast hpos)]; rfl
    rw [this, select_one]
    exact IsReal.rsqrt_of_pos hpos
  · have : Ideal.cmp .ogt (r : EReal) 0 = 0#1 := by
      show BitVec.ofBool (decide ((0 : EReal) < (r : EReal))) = 0#1
      rw [decide_eq_false (by exact_mod_cast hpos)]; rfl
    rw [this, select_zero]
    exact IsReal.zero

end Cert.Lib.NormHop

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«156424_j58969900974604_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.LibTwoLayerGcn.lean ====
/-
  A two-layer graph convolution with symmetric normalisation, as functions of whole arrays.

  The graph has `N` nodes and `E` edges; edge `e` reads the row its source word names (moved up if negative, then
  clamped: `clampRow rowS e`) and lands on the row its target word names as it stands (`colT`; an edge whose target is
  no row lands nowhere). A real column `D` over the nodes normalises both ends of an edge: the edge's weight is
  `D (source) · D (target)`.

  There are two arrangements of the same computation.

  * The tiled one scales rows instead of edges. Layer one: `(x · W₁)` with row `n` scaled by `D n`; the scaled rows that
    arrive at `n` added up; the total scaled by `D n`, a bias added, the negative part cut off, and the result scaled by `D n`
    again, ready for the next hop. Layer two adds up the rows that arrive, scales row `n` by `D n` and only then multiplies
    by `W₂` and adds the bias (`hidK`, `preK`).
  * The plain one weights every edge: `(x · W₁)` propagated with the edges' weights, a bias, the negative part cut off; the
    product with `W₂` propagated with the same weights, a bias (`hidR`, `preR`).

  On real entries they agree (`preK_eq_preR`): the factor `D n` is common to every edge landing on row `n`, so it comes out
  of that row's sum, provided an edge that lands on row `n` also READS row `n` as its target; and a propagation, which acts
  on each column separately and linearly, commutes with the product by `W₂`.

  Both end with the logarithm of the softmax along each row, `lsmRows`, applied to the same logits.

  Also here: what each of the four tiled stages leaves in its output array, as a function of the arrays it reads
  (`tile0` … `tile3`), and those functions on real entries.
-/
import proofs.«156424_j58969900974604_2_alg».proof.Proof.LibNormHop
import proofs.«156424_j58969900974604_2_alg».proof.Proof.LibRowLayer

noncomputable section

open scoped BigOperators

namespace Cert.Gcn2

open Idealize.ShloMosaic Idealize.ShloMosaic.ValueIdx Cert.Lib.RowOps Cert.Lib.RealSum Cert.Lib.Propagate Cert.Lib.Dense
  Cert.Lib.NormHop

variable {N E F K J : Nat}

/-- The row of a two-axis index. -/
abbrev rowIx (y : (⟨2, ![N, F]⟩ : Shape).Idx) : Fin N := ⟨(y 0).val, idx2_lt0 y⟩
/-- The column of a two-axis index. -/
abbrev colIx (y : (⟨2, ![N, F]⟩ : Shape).Idx) : Fin F := ⟨(y 1).val, idx2_lt1 y⟩

/-! ## The four tiled stages, over the extended reals -/

/-- Row `n` of `a` multiplied by entry `n` of the column `d`. -/
def scaleRows (a : (⟨2, ![N, F]⟩ : Shape).Idx → EReal) (d : (⟨2, ![N, 1]⟩ : Shape).Idx → EReal) :
    (⟨2, ![N, F]⟩ : Shape).Idx → EReal :=
  fun y => a y * d (ix2 (rowIx y) (0 : Fin 1))

/-- Stage 0: the product `x · w` with its rows scaled by `d`. -/
def tile0 (x : (⟨2, ![N, K]⟩ : Shape).Idx → EReal) (w : (⟨2, ![K, F]⟩ : Shape).Idx → EReal)
    (d : (⟨2, ![N, 1]⟩ : Shape).Idx → EReal) : (⟨2, ![N, F]⟩ : Shape).Idx → EReal :=
  scaleRows (project x w) d

/-- Stage 1: rows scaled by `d`, a one-row bias added, the negative part cut off, rows scaled by `d` again. -/
def tile1 (a : (⟨2, ![N, F]⟩ : Shape).Idx → EReal) (d : (⟨2, ![N, 1]⟩ : Shape).Idx → EReal)
    (b : (⟨2, ![1, F]⟩ : Shape).Idx → EReal) : (⟨2, ![N, F]⟩ : Shape).Idx → EReal :=
  fun y => max (a y * d (ix2 (rowIx y) (0 : Fin 1)) + b (ix2 (0 : Fin 1) (colIx y))) 0 * d (ix2 (rowIx y) (0 : Fin 1))

/-- Stage 2: rows scaled by `d`, then the product with `w`. -/
def tile2 (a : (⟨2, ![N, K]⟩ : Shape).Idx → EReal) (d : (⟨2, ![N, 1]⟩ : Shape).Idx → EReal)
    (w : (⟨2, ![K, J]⟩ : Shape).Idx → EReal) : (⟨2, ![N, J]⟩ : Shape).Idx → EReal :=
  project (scaleRows a d) w

/-- The logarithm of the softmax along each row: with `m` the maximum of the row (folded from `acc`), entry `(n, q)` is
    `(a (n, q) − m) − log ∑ₖ exp (a (n, k) − m)`. -/
def lsmRows (acc : EReal) (a : (⟨2, ![N, J]⟩ : Shape).Idx → EReal) : (⟨2, ![N, J]⟩ : Shape).Idx → EReal :=
  fun y => (a y - (Finset.univ : Finset (Fin J)).fold max acc (fun k => a (ix2 (rowIx y) k)))
    - Ideal.log (∑ k : Fin J, Ideal.exp (a (ix2 (rowIx y) k)
        - (Finset.univ : Finset (Fin J)).fold max acc (fun k => a (ix2 (rowIx y) k))))

/-- A one-row bias added to every row. -/
def addRow (h : (⟨2, ![N, J]⟩ : Shape).Idx → EReal) (b : (⟨2, ![1, J]⟩ : Shape).Idx → EReal) :
    (⟨2, ![N, J]⟩ : Shape).Idx → EReal :=
  fun y => h y + b (ix2 (0 : Fin 1) (colIx y))

/-- Stage 3: a one-row bias added, then the logarithm of the softmax along each row. -/
def tile3 (acc : EReal) (h : (⟨2, ![N, J]⟩ : Shape).Idx → EReal) (b : (⟨2, ![1, J]⟩ : Shape).Idx → EReal) :
    (⟨2, ![N, J]⟩ : Shape).Idx → EReal :=
  lsmRows acc (addRow h b)

/-! ## The two arrangements on real entries -/

section Real

variable (hN : 0 < N) (rowS rowT colT : IVec ⟨2, ![E, 1]⟩ 32) (D : Fin N → ℝ)
  (xr : (⟨2, ![N, K]⟩ : Shape).Idx → ℝ) (w1 : (⟨2, ![K, F]⟩ : Shape).Idx → ℝ) (β1 : Fin F → ℝ)
  (w2 : (⟨2, ![F, J]⟩ : Shape).Idx → ℝ) (β2 : Fin J → ℝ)

/-- The tiled arrangement's first product, rows scaled. -/
def linK : (⟨2, ![N, F]⟩ : Shape).Idx → ℝ := fun y => contract xr w1 y * D (rowIx y)

/-- The tiled arrangement's hidden layer, already scaled for the next hop. -/
def hidK : (⟨2, ![N, F]⟩ : Shape).Idx → ℝ :=
  fun y => max (gatherSum hN rowS colT (linK D xr w1) y * D (rowIx y) + β1 (colIx y)) 0 * D (rowIx y)

/-- The tiled arrangement's logits. -/
def preK : (⟨2, ![N, J]⟩ : Shape).Idx → ℝ :=
  fun y => contract (fun z => gatherSum hN rowS colT (hidK hN rowS colT D xr w1 β1) z * D (rowIx z)) w2 y + β2 (colIx y)

/-- The plain arrangement's hidden layer. -/
def hidR : (⟨2, ![N, F]⟩ : Shape).Idx → ℝ :=
  fun y => max (stepReal hN rowS colT (edgeCoef hN rowS rowT D) (contract xr w1) y + β1 (colIx y)) 0

/-- The plain arrangement's logits. -/
def preR : (⟨2, ![N, J]⟩ : Shape).Idx → ℝ :=
  fun y => stepReal hN rowS colT (edgeCoef hN rowS rowT D) (contract (hidR hN rowS rowT colT D xr w1 β1) w2) y + β2 (colIx y)

/-- The tiled hidden layer is the plain one with its rows scaled. -/
theorem hidK_eq (hT : ∀ (e : Fin E) (n : Fin N), (colT (ix2 e 0)).toInt = (n.val : Int) → clampRow hN rowT e = n) :
    hidK hN rowS colT D xr w1 β1 = fun y => hidR hN rowS rowT colT D xr w1 β1 y * D (rowIx y) := by
  funext y
  unfold hidK hidR
  have h := congrFun (scaled_gatherSum_eq_step hN rowS rowT colT D hT (contract xr w1)) y
  exact congrArg (fun v => max (v + β1 (colIx y)) 0 * D (rowIx y)) h

/-- THE TWO ARRANGEMENTS GIVE THE SAME LOGITS, when every edge that lands on a row reads that row as its target. -/
theorem preK_eq_preR (hT : ∀ (e : Fin E) (n : Fin N), (colT (ix2 e 0)).toInt = (n.val : Int) → clampRow hN rowT e = n) :
    preK hN rowS colT D xr w1 β1 w2 β2 = preR hN rowS rowT colT D xr w1 β1 w2 β2 := by
  funext y
  unfold preK preR
  rw [hidK_eq hN rowS rowT colT D xr w1 β1 hT]
  have h := scaled_gatherSum_eq_step hN rowS rowT colT D hT (hidR hN rowS rowT colT D xr w1 β1)
  rw [stepReal_contract hN rowS colT (edgeCoef hN rowS rowT D) (hidR hN rowS rowT colT D xr w1 β1) w2]
  exact congrArg (fun g => contract g w2 y + β2 (colIx y)) h

end Real

end Cert.Gcn2

end
-- ==== Proof.KernelTerms.lean ====
/-
  The idealized kernel's host computations, as functions of the edge array.

  @main prepares, from the edge array, the source and target words of the 3200000 edges followed by the 100000 loops
  (`srcWords`, `tgtWords`), the in-degree of every node as ones accumulated at the target words (`degArr`), and the
  normalisation `deg^(−1/2)` where the degree is positive, zero elsewhere (`dinvArr`), laid as a column (`dinvCol`).
  Between two tiled stages it gathers the rows of the previous stage's output at the source words (a negative word moved up
  by the number of nodes first: `wrapWords`) and adds them up at the target words into zeros (`hop`). The terms are spelt as
  the program prints them, so that a buffer's contents after a host stretch IS one of them.
-/
import proofs.«156424_j58969900974604_2_alg».proof.KernelIdeal
import proofs.«156424_j58969900974604_2_alg».proof.Proof.Gen.KernelIdeal
import proofs.«156424_j58969900974604_2_alg».proof.Proof.LibTwoLayerGcn
import Idealize.ShloMosaic.PureOps.Ideal

noncomputable section

namespace Cert.KernelIdeal.Stage

open Cert.KernelIdeal Cert.KernelIdeal.Facts₀ Cert.KernelIdeal.Facts
open Idealize.ShloMosaic

/-! ## The host stretches' terms, as functions of the edge array -/

/-- The source words: row 0 of the edge array, then the loops `0 … N − 1`. -/
def srcWords (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The target words: row 1 of the edge array, then the loops. -/
def tgtWords (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A negative index word moved up by the number of nodes (the normalisation before a read). -/
def wrapWords (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A vector of index words as a one-column array. -/
def asCol (v : IVec S3300000 32) : IVec S3300000x1 32 := broadcastInDim S3300000x1 ![0] bcast_S3300000_S3300000x1_0 v

/-- The in-degrees: ones accumulated into zeros at the target words. -/
def degArr (e : IVec S2x3200000 32) : FVec Ideal S100000 .f32 :=
  Host.scatterAdd scatter_S100000_S3300000x1_S3300000_n_0_0_1 (broadcastInDim S100000 ![] bcast_S_S100000 (constant S_ .f32 0x00000000#32))
    (asCol (tgtWords e)) (broadcastInDim S3300000 ![] bcast_S_S3300000 (constant S_ .f32 0x3F800000#32))

/-- The normalisation: `deg^(−1/2)` where the degree is positive, zero elsewhere. -/
def dinvArr (e : IVec S2x3200000 32) : FVec Ideal S100000 .f32 :=
  select (cmpf .ogt (degArr e) (broadcastInDim S100000 ![] bcast_S_S100000 (constant S_ .f32 0x00000000#32))) (Host.rsqrt (degArr e))
    (broadcastInDim S100000 ![] bcast_S_S100000 (id (constant S_ .f32 0x00000000#32)))

/-- The normalisation as a column. -/
def dinvCol (e : IVec S2x3200000 32) : FVec Ideal S100000x1 .f32 := shapeCast S100000x1 (dinvArr e) shapeCasts_S100000_S100000x1

/-- One hop: the rows of `h` gathered at the (moved-up) source words and added up at the target words into zeros. -/
def hop (e : IVec S2x3200000 32) (h : FVec Ideal S100000x16 .f32) : FVec Ideal S100000x16 .f32 :=
  Host.scatterAdd scatter_S100000x16_S3300000x1_S3300000x16_1_0_0_1 (broadcastInDim S100000x16 ![] bcast_S_S100000x16 (constant S_ .f32 0x00000000#32))
    (asCol (tgtWords e))
    (Host.gather gather_S100000x16_S3300000x1_S3300000x16_1_0_n_n_0_1_116 h (asCol (wrapWords (srcWords e))))

end Cert.KernelIdeal.Stage

end
-- ==== Proof.LibTwoLayerGcnReal.lean ====
/-
  The four tiled stages on real entries.

  When every entry of a stage's inputs is a real number, so is every entry of its output, and the output is the stage's
  formula computed in ℝ: the coercion `ℝ → EReal` passes through the finite sum of a matrix product, through products and
  sums of reals, and through the maximum with zero. Stated for any extents; `D` is the real column a one-column array `d`
  holds, `β` the real row a one-row array `b` holds.
-/
import proofs.«156424_j58969900974604_2_alg».proof.Proof.LibTwoLayerGcn

noncomputable section

open scoped BigOperators

namespace Cert.Gcn2

open Idealize.ShloMosaic Idealize.ShloMosaic.ValueIdx Cert.Lib.RowOps Cert.Lib.RealSum Cert.Lib.Propagate Cert.Lib.Dense
  Cert.Lib.NormHop

variable {N F K J : Nat}

/-- The maximum of two coerced reals is the coerced maximum. -/
theorem coe_max (a b : ℝ) : max (a : EReal) (b : EReal) = ((max a b : ℝ) : EReal) :=
  (EReal.coe_strictMono.monotone.map_max (a := a) (b := b)).symm

/-- Rows of a real array scaled by a real column. -/
theorem scaleRows_real (g : (⟨2, ![N, F]⟩ : Shape).Idx → ℝ) (d : (⟨2, ![N, 1]⟩ : Shape).Idx → EReal) (D : Fin N → ℝ)
    (hd : ∀ n : Fin N, d (ix2 n (0 : Fin 1)) = ((D n : ℝ) : EReal)) :
    scaleRows (fun y => ((g y : ℝ) : EReal)) d = fun y => ((g y * D (rowIx y) : ℝ) : EReal) := by
  funext y
  unfold scaleRows
  rw [hd]
  exact (EReal.coe_mul _ _).symm

/-- Stage 0 on real entries. -/
theorem tile0_real (xr : (⟨2, ![N, K]⟩ : Shape).Idx → ℝ) (w1 : (⟨2, ![K, F]⟩ : Shape).Idx → ℝ)
    (d : (⟨2, ![N, 1]⟩ : Shape).Idx → EReal) (D : Fin N → ℝ)
    (hd : ∀ n : Fin N, d (ix2 n (0 : Fin 1)) = ((D n : ℝ) : EReal)) :
    tile0 (fun i => ((xr i : ℝ) : EReal)) (fun i => ((w1 i : ℝ) : EReal)) d = fun y => ((linK D xr w1 y : ℝ) : EReal) := by
  unfold tile0
  rw [project_real]
  exact scaleRows_real (contract xr w1) d D hd

/-- Stage 1 on real entries. -/
theorem tile1_real (g : (⟨2, ![N, F]⟩ : Shape).Idx → ℝ) (d : (⟨2, ![N, 1]⟩ : Shape).Idx → EReal) (D : Fin N → ℝ)
    (hd : ∀ n : Fin N, d (ix2 n (0 : Fin 1)) = ((D n : ℝ) : EReal))
    (b : (⟨2, ![1, F]⟩ : Shape).Idx → EReal) (β : Fin F → ℝ) (hb : ∀ j : Fin F, b (ix2 (0 : Fin 1) j) = ((β j : ℝ) : EReal)) :
    tile1 (fun y => ((g y : ℝ) : EReal)) d b
      = fun y => ((max (g y * D (rowIx y) + β (colIx y)) 0 * D (rowIx y) : ℝ) : EReal) := by
  funext y
  unfold tile1
  rw [hd, hb, ← EReal.coe_mul, ← EReal.coe_add, ← EReal.coe_zero, coe_max, ← EReal.coe_mul]

/-- Stage 2 on real entries. -/
theorem tile2_real (g : (⟨2, ![N, K]⟩ : Shape).Idx → ℝ) (d : (⟨2, ![N, 1]⟩ : Shape).Idx → EReal) (D : Fin N → ℝ)
    (hd : ∀ n : Fin N, d (ix2 n (0 : Fin 1)) = ((D n : ℝ) : EReal)) (w2 : (⟨2, ![K, J]⟩ : Shape).Idx → ℝ) :
    tile2 (fun y => ((g y : ℝ) : EReal)) d (fun i => ((w2 i : ℝ) : EReal))
      = fun y => ((contract (fun z => g z * D (rowIx z)) w2 y : ℝ) : EReal) := by
  unfold tile2
  rw [scaleRows_real g d D hd, project_real]

/-- A one-row real bias added to a real array. -/
theorem addRow_real (k : (⟨2, ![N, J]⟩ : Shape).Idx → ℝ) (b : (⟨2, ![1, J]⟩ : Shape).Idx → EReal) (β : Fin J → ℝ)
    (hb : ∀ j : Fin J, b (ix2 (0 : Fin 1) j) = ((β j : ℝ) : EReal)) :
    addRow (fun y => ((k y : ℝ) : EReal)) b = fun y => ((k y + β (colIx y) : ℝ) : EReal) := by
  funext y
  unfold addRow
  rw [hb]
  exact (EReal.coe_add _ _).symm

end Cert.Gcn2

end
-- ==== Proof.KernelReal.lean ====
/-
  The idealized kernel's composed value on real entries.

  Stage by stage the kernel computes `tile3 (tile2 (hop (tile1 (hop (tile0 x W₁ d)) d b₁)) d W₂) b₂`, where `d` is the
  normalisation column and a hop gathers rows at the source words and adds them up at the target words. When the arguments'
  entries are real numbers and the normalisation column holds a real `D n` in row `n`, every intermediate array is the
  coercion of a real array: a hop of a real array is the real gather-and-add `gatherSum`, and each stage is its formula in ℝ.
  Composed, the logits are the tiled arrangement `preK` of the specification, and the result is the logarithm of the softmax
  of those logits along each row.
-/
import proofs.«156424_j58969900974604_2_alg».proof.Proof.KernelTerms
import proofs.«156424_j58969900974604_2_alg».proof.Proof.LibTwoLayerGcnReal

noncomputable section

namespace Cert.KernelIdeal.Stage

open Cert.KernelIdeal Cert.KernelIdeal.Facts₀ Cert.KernelIdeal.Facts
open Idealize.ShloMosaic Idealize.ShloMosaic.ValueIdx Cert.Gcn2 Cert.Lib.RowOps Cert.Lib.RealSum Cert.Lib.Propagate
  Cert.Lib.Dense Cert.Lib.NormHop

theorem h100000 : 0 < 100000 := by norm_num

/-- The four stages and the two hops between them, composed. -/
def kernelOut (e : IVec S2x3200000 32) (x : FVec Ideal S100000x512 .f32) (w1 : FVec Ideal S512x16 .f32) (b1 : FVec Ideal S16 .f32)
    (w2 : FVec Ideal S16x40 .f32) (b2 : FVec Ideal S40 .f32) : FVec Ideal S100000x40 .f32 :=
  tile3 (N := 100000) (J := 40) (Ideal.ofBits .f32 0xFF800000#32)
    (tile2 (N := 100000) (K := 16) (J := 40)
      (hop e (tile1 (N := 100000) (F := 16) (hop e (tile0 (N := 100000) (K := 512) (F := 16) x w1 (dinvCol e))) (dinvCol e)
        (shapeCast S1x16 b1 shapeCasts_S16_S1x16)))
      (dinvCol e) w2)
    (shapeCast S1x40 b2 shapeCasts_S40_S1x40)

/-- A hop of a real array is the real gather-and-add. -/
theorem hop_real (e : IVec S2x3200000 32) (r : (⟨2, ![100000, 16]⟩ : Shape).Idx → ℝ) :
    hop e (fun x => ((r x : ℝ) : EReal))
      = fun x => ((gatherSum h100000 (asCol (wrapWords (srcWords e))) (asCol (tgtWords e)) r x : ℝ) : EReal) := by
  unfold hop
  exact host_gatherSum h100000 gather_S100000x16_S3300000x1_S3300000x16_1_0_n_n_0_1_116_wf
    scatter_S100000x16_S3300000x1_S3300000x16_1_0_0_1_wf _ _ rfl rfl _ _ _ (fun i => zeros_apply _ i) r

/-- THE KERNEL'S VALUE ON REAL ENTRIES: the logarithm of the softmax of the tiled arrangement's logits. -/
theorem kernelOut_real (e : IVec S2x3200000 32) (xr : (⟨2, ![100000, 512]⟩ : Shape).Idx → ℝ)
    (w1r : (⟨2, ![512, 16]⟩ : Shape).Idx → ℝ) (β1 : Fin 16 → ℝ) (w2r : (⟨2, ![16, 40]⟩ : Shape).Idx → ℝ) (β2 : Fin 40 → ℝ)
    (D : Fin 100000 → ℝ) (hD : ∀ n : Fin 100000, dinvArr e (ix1 n) = ((D n : ℝ) : EReal))
    (b1 : FVec Ideal S16 .f32) (hb1 : ∀ j : Fin 16, b1 (ix1 j) = ((β1 j : ℝ) : EReal))
    (b2 : FVec Ideal S40 .f32) (hb2 : ∀ j : Fin 40, b2 (ix1 j) = ((β2 j : ℝ) : EReal)) :
    kernelOut e (fun i => ((xr i : ℝ) : EReal)) (fun i => ((w1r i : ℝ) : EReal)) b1 (fun i => ((w2r i : ℝ) : EReal)) b2
      = lsmRows (Ideal.ofBits .f32 0xFF800000#32)
          (fun y => ((preK h100000 (asCol (wrapWords (srcWords e))) (asCol (tgtWords e)) D xr w1r β1 w2r β2 y : ℝ) : EReal)) := by
  have hd : ∀ n : Fin 100000, dinvCol e (ix2 n (0 : Fin 1)) = ((D n : ℝ) : EReal) := fun n => by
    unfold dinvCol
    rw [Cert.RowLayer.shapeCast_a_a1_apply]
    exact hD n
  have hr1 : ∀ j : Fin 16, shapeCast S1x16 b1 shapeCasts_S16_S1x16 (ix2 (0 : Fin 1) j) = ((β1 j : ℝ) : EReal) := fun j => by
    rw [shapeCast_a_1a_apply]
    exact hb1 j
  have hr2 : ∀ j : Fin 40, shapeCast S1x40 b2 shapeCasts_S40_S1x40 (ix2 (0 : Fin 1) j) = ((β2 j : ℝ) : EReal) := fun j => by
    rw [shapeCast_a_1a_apply]
    exact hb2 j
  unfold kernelOut tile3
  rw [tile0_real xr w1r _ D hd, hop_real, tile1_real _ _ D hd _ β1 hr1, hop_real, tile2_real _ _ D hd w2r,
    addRow_real _ _ β2 hr2]
  rfl

end Cert.KernelIdeal.Stage

end
-- ==== Proof.Regions02.lean ====
/-
  What the first and the third tiled stages leave in their output arrays.

  Both stages walk the 100000 rows of their arrays in 20 tiles of 5000 rows. At tile t the stage is handed rows
  5000·t … 5000·t + 4999 of its row-tiled arrays (the features and the normalising column) and the whole of the small
  weight matrix, and writes rows 5000·t … 5000·t + 4999 of its result.

  * The first stage multiplies the tile of features by the weight matrix and scales row p of the product by entry p of
    the tile of the column. Entry (p, q) of what it writes is therefore (∑ₖ x (5000·t + p, k) · w (k, q)) · d (5000·t + p):
    entry (5000·t + p, q) of "the product x · w with its rows scaled by d" of the WHOLE arrays, because a row of a
    matrix product, and the scaling of a row, look at that one row of the left factor and of the column only.
  * The third stage scales first and multiplies afterwards: entry (p, q) is ∑ₖ (a (5000·t + p, k) · d (5000·t + p)) · w (k, q),
    again a function of row 5000·t + p alone.

  So every tile written is the corresponding tile of one function of the whole arrays; the 20 tiles cover all 100000
  rows (row r lies in tile r / 5000), hence after the last tile the output array IS that function: `arr0`, `arr2`.
-/
import proofs.«156424_j58969900974604_2_alg».proof.Proof.Gen.KernelIdeal.Frame
import proofs.«156424_j58969900974604_2_alg».proof.Proof.LibTwoLayerGcn

set_option maxRecDepth 16384

noncomputable section

open scoped BigOperators

namespace Cert.KernelIdeal.Stage

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer access, as the constant function. -/
theorem zeroOffsets : (![0, 0] : Fin 2 → Nat) = fun _ => 0 := funext fun a => by fin_cases a <;> rfl

/-! ## Rows of a tile as rows of the array -/

/-- Row p of tile t is row 5000·t + p of the array. -/
def rowOf (t : Nat) (ht : t < 20) (p : Fin 5000) : Fin 100000 := ⟨t * 5000 + p.val, by have := p.isLt; omega⟩

/-- Row r lies in tile r / 5000 … -/
theorem row_lo (r : Nat) : r / 5000 * 5000 ≤ r := by omega
/-- … and before the next tile begins. -/
theorem row_hi (r : Nat) : r < r / 5000 * 5000 + 5000 := by omega

/-! ## Stage 0: the product, then the rows scaled -/

/-- Entry (p, q) of what the first stage computes from a tile of features x0, the weights x1 and a tile of the column x2:
    row p of x0 against column q of x1, times entry p of x2. -/
theorem pay0_apply (x0 : Vec Ideal S5000x512 .f32) (x1 : Vec Ideal S512x16 .f32) (x2 : Vec Ideal S5000x1 .f32)
    (p : Fin 5000) (q : Fin 16) :
    k0_pay1 x0 x1 x2 (ix2 p q) = (∑ k : Fin 512, x0 (ix2 p k) * x1 (ix2 k q)) * x2 (ix2 p (0 : Fin 1)) := by
  unfold k0_pay1
  refine (mulf_apply _ _ _).trans ?_
  exact congrArg₂ (· * ·)
    (Cert.PlainDot.matmul_zero_apply dot_S5000x512_S512x16_S5000x16_1_0_0_1_n_n ⟨rfl, rfl, rfl, rfl, rfl, rfl⟩ none x0 x1 p q)
    ((Cert.RowLayer.broadcastTo_a1_ab_apply _ broadcasts_S5000x1_S5000x16 p q).trans
      (congrFun (shapeCast_self x2 shapeCasts_S5000x1_S5000x1) (ix2 p (0 : Fin 1))))

/-- Entry (n, q) of the whole-array function: row n of x against column q of w, times entry n of d. -/
theorem tile0_apply (x : S100000x512.Idx → EReal) (w : S512x16.Idx → EReal) (d : S100000x1.Idx → EReal)
    (n : Fin 100000) (q : Fin 16) :
    Cert.Gcn2.tile0 x w d (ix2 n q) = (∑ k : Fin 512, x (ix2 n k) * w (ix2 k q)) * d (ix2 n (0 : Fin 1)) := rfl

/-- A TILE OF THE RESULT IS THE RESULT'S TILE: if x0 and x2 hold rows 5000·t … of the arrays A0 and A2, and x1 is all of A1,
    then entry (p, q) of what the stage computes is entry (5000·t + p, q) of the whole-array function: both read row
    5000·t + p of A0, column q of A1 and entry 5000·t + p of A2, and nothing else. -/
theorem tile_step0 (A0 : S100000x512.Idx → EReal) (A1 : S512x16.Idx → EReal) (A2 : S100000x1.Idx → EReal)
    (x0 : Vec Ideal S5000x512 .f32) (x1 : Vec Ideal S512x16 .f32) (x2 : Vec Ideal S5000x1 .f32)
    (t : Nat) (ht : t < 20)
    (h0 : ∀ (p : Fin 5000) (k : Fin 512), x0 (ix2 p k) = A0 (ix2 (rowOf t ht p) k))
    (h1 : ∀ (k : Fin 512) (q : Fin 16), x1 (ix2 k q) = A1 (ix2 k q))
    (h2 : ∀ p : Fin 5000, x2 (ix2 p (0 : Fin 1)) = A2 (ix2 (rowOf t ht p) (0 : Fin 1)))
    (p : Fin 5000) (q : Fin 16) :
    k0_pay1 x0 x1 x2 (ix2 p q) = Cert.Gcn2.tile0 A0 A1 A2 (ix2 (rowOf t ht p) q) := by
  rw [pay0_apply, tile0_apply, h2 p]
  exact congrArg (· * A2 (ix2 (rowOf t ht p) (0 : Fin 1)))
    (Finset.sum_congr rfl fun k _ => by rw [h0 p k, h1 k q])

/-- The printed index maps, decided over the 20 tiles: the three row-tiled arrays are at block (t, 0), the weights at (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Region0

variable (V : (c : Dev nD) → (b : Ref sig .tc) → Buf (Elt Ideal) ((c : Thread nD τ).loc b))

/-- What the stage's output array is to hold: the product of the features and the weights, rows scaled by the column,
    of the arrays as the stage finds them. -/
abbrev G0 (c : Dev nD) : S100000x16.Idx → EReal :=
  Cert.Gcn2.tile0 (N := 100000) (K := 512) (F := 16) (V c main_arg0) (V c main_arg2) (V c main_v15)

/-- WHAT TILE t WRITES BACK is tile t of G0. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero zeroOffsets]
  simp only [View.ld_unit_zero (S := S5000x512) zeroOffsets, View.ld_unit_zero (S := S512x16) zeroOffsets,
    View.ld_unit_zero (S := S5000x1) zeroOffsets]
  have ht : t.val < 20 := Nat.lt_of_lt_of_eq t.isLt N_0
  obtain ⟨e00, e01, e10, e11, e20, e21, e30, e31⟩ := idx0 t
  funext j
  obtain ⟨p, q, rfl⟩ : ∃ (p : Fin 5000) (q : Fin 16), j = ix2 p q := ⟨j 0, j 1, eq_ix2 j⟩
  show k0_pay1 (iblk0 V c 0 t) (iblk0 V c 1 t) (iblk0 V c 2 t) (ix2 p q)
    = G0 V c (((cfg0.win 3).blk t).view.emb (ix2 p q))
  have hout : ((cfg0.win 3).blk t).view.emb (ix2 p q) = ix2 (rowOf t.val ht p) q := by
    funext a; apply Fin.ext
    match a with
    | ⟨0, _⟩ => show win0_3.index t (0 : Fin 2) * 5000 + 1 * p.val = t.val * 5000 + p.val; rw [e30]; omega
    | ⟨1, _⟩ => show win0_3.index t (1 : Fin 2) * 16 + 1 * q.val = q.val; rw [e31]; omega
  rw [hout]
  refine tile_step0 (V c main_arg0) (V c main_arg2) (V c main_v15) (iblk0 V c 0 t) (iblk0 V c 1 t) (iblk0 V c 2 t)
    t.val ht ?_ ?_ ?_ p q
  · intro p k
    unfold iblk0
    rw [View.read_apply]
    show V c main_arg0 (((cfg0.win 0).blk t).view.emb (ix2 p k)) = _
    congr 1
    funext a; apply Fin.ext
    match a with
    | ⟨0, _⟩ => show win0_0.index t (0 : Fin 2) * 5000 + 1 * p.val = t.val * 5000 + p.val; rw [e00]; omega
    | ⟨1, _⟩ => show win0_0.index t (1 : Fin 2) * 512 + 1 * k.val = k.val; rw [e01]; omega
  · intro k q
    unfold iblk0
    rw [View.read_apply]
    show V c main_arg2 (((cfg0.win 1).blk t).view.emb (ix2 k q)) = _
    congr 1
    funext a; apply Fin.ext
    match a with
    | ⟨0, _⟩ => show win0_1.index t (0 : Fin 2) * 512 + 1 * k.val = k.val; rw [e10]; omega
    | ⟨1, _⟩ => show win0_1.index t (1 : Fin 2) * 16 + 1 * q.val = q.val; rw [e11]; omega
  · intro p
    unfold iblk0
    rw [View.read_apply]
    show V c main_v15 (((cfg0.win 2).blk t).view.emb (ix2 p (0 : Fin 1))) = _
    congr 1
    funext a; apply Fin.ext
    match a with
    | ⟨0, _⟩ => show win0_2.index t (0 : Fin 2) * 5000 + 1 * p.val = t.val * 5000 + p.val; rw [e20]; omega
    | ⟨1, _⟩ => show win0_2.index t (1 : Fin 2) * 1 + 1 * (0 : Fin 1).val = (0 : Fin 1).val; rw [e21]; rfl

/-- An index of the output array is in tile t's block iff each coordinate is in the block's range on its axis. -/
theorem mem_blk0 (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v16).slice (win0_3.rect t)).set ↔ _
  rw [View.set_slice_whole, Rect.mem_set_unit]
  exact Iff.rfl

/-- THE 20 TILES COVER THE ARRAY: row r is in tile r / 5000. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨-, -, -, -, -, -, e30, e31⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e30]
    exact ⟨row_lo _, row_hi _⟩
  | ⟨1, _⟩ =>
    show win0_3.index t (1 : Fin 2) * 16 ≤ (i 1).val ∧ (i 1).val < win0_3.index t (1 : Fin 2) * 16 + 16
    rw [e31]; omega

/-- THE OUTPUT ARRAY OF STAGE 0 after its 20 tiles: the product of the features and the weights with its rows scaled by
    the column, of the arrays as the stage found them. -/
theorem arr0 (c : Dev nD) :
    (dat0 (F := Ideal) V c).arrAt 3 cfg0.N
      = Cert.Gcn2.tile0 (N := 100000) (K := 512) (F := 16) (V c (Pipeline.arrRef spec0 0)) (V c (Pipeline.arrRef spec0 1))
          (V c (Pipeline.arrRef spec0 2)) :=
  (dat0 (F := Ideal) V c).arrAt_eq_of_cover 3 (G0 V c) (fun t _ => flushed0_eq V c t) (cover0)

end Region0

/-! ## Stage 2: the rows scaled, then the product -/

/-- Entry (p, q) of what the third stage computes from a tile x0, a tile of the column x1 and the weights x2:
    row p of x0, every entry scaled by entry p of x1, against column q of x2. -/
theorem pay2_apply (x0 : Vec Ideal S5000x16 .f32) (x1 : Vec Ideal S5000x1 .f32) (x2 : Vec Ideal S16x40 .f32)
    (p : Fin 5000) (q : Fin 40) :
    k2_pay1 x0 x1 x2 (ix2 p q) = ∑ k : Fin 16, (x0 (ix2 p k) * x1 (ix2 p (0 : Fin 1))) * x2 (ix2 k q) := by
  unfold k2_pay1
  refine (Cert.PlainDot.matmul_zero_apply dot_S5000x16_S16x40_S5000x40_1_0_0_1_n_n ⟨rfl, rfl, rfl, rfl, rfl, rfl⟩ none _ x2 p q).trans ?_
  refine Finset.sum_congr rfl fun k _ => ?_
  refine congrArg (· * x2 (ix2 k q)) ?_
  refine (mulf_apply _ _ _).trans ?_
  exact congrArg₂ (· * ·)
    (congrFun (shapeCast_self x0 shapeCasts_S5000x16_S5000x16) (ix2 p k))
    ((Cert.RowLayer.broadcastTo_a1_ab_apply _ broadcasts_S5000x1_S5000x16 p k).trans
      (congrFun (shapeCast_self x1 shapeCasts_S5000x1_S5000x1) (ix2 p (0 : Fin 1))))

/-- Entry (n, q) of the whole-array function: row n of a scaled by entry n of d, against column q of w. -/
theorem tile2_apply (a : S100000x16.Idx → EReal) (d : S100000x1.Idx → EReal) (w : S16x40.Idx → EReal)
    (n : Fin 100000) (q : Fin 40) :
    Cert.Gcn2.tile2 a d w (ix2 n q) = ∑ k : Fin 16, (a (ix2 n k) * d (ix2 n (0 : Fin 1))) * w (ix2 k q) := rfl

/-- A TILE OF THE RESULT IS THE RESULT'S TILE: if x0 and x1 hold rows 5000·t … of the arrays A0 and A1, and x2 is all of A2,
    then entry (p, q) of what the stage computes is entry (5000·t + p, q) of the whole-array function: both read row
    5000·t + p of A0, entry 5000·t + p of A1 and column q of A2, and nothing else. -/
theorem tile_step2 (A0 : S100000x16.Idx → EReal) (A1 : S100000x1.Idx → EReal) (A2 : S16x40.Idx → EReal)
    (x0 : Vec Ideal S5000x16 .f32) (x1 : Vec Ideal S5000x1 .f32) (x2 : Vec Ideal S16x40 .f32)
    (t : Nat) (ht : t < 20)
    (h0 : ∀ (p : Fin 5000) (k : Fin 16), x0 (ix2 p k) = A0 (ix2 (rowOf t ht p) k))
    (h1 : ∀ p : Fin 5000, x1 (ix2 p (0 : Fin 1)) = A1 (ix2 (rowOf t ht p) (0 : Fin 1)))
    (h2 : ∀ (k : Fin 16) (q : Fin 40), x2 (ix2 k q) = A2 (ix2 k q))
    (p : Fin 5000) (q : Fin 40) :
    k2_pay1 x0 x1 x2 (ix2 p q) = Cert.Gcn2.tile2 A0 A1 A2 (ix2 (rowOf t ht p) q) := by
  rw [pay2_apply, tile2_apply, h1 p]
  exact Finset.sum_congr rfl fun k _ => by rw [h0 p k, h2 k q]

/-- The printed index maps, decided over the 20 tiles: the three row-tiled arrays are at block (t, 0), the weights at (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Region2

variable (V : (c : Dev nD) → (b : Ref sig .tc) → Buf (Elt Ideal) ((c : Thread nD τ).loc b))

/-- What the stage's output array is to hold: the rows scaled by the column and then multiplied by the weights,
    of the arrays as the stage finds them. -/
abbrev G2 (c : Dev nD) : S100000x40.Idx → EReal :=
  Cert.Gcn2.tile2 (N := 100000) (K := 16) (J := 40) (V c main_v38) (V c main_v15) (V c main_arg4)

/-- WHAT TILE t WRITES BACK is tile t of G2. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero zeroOffsets]
  simp only [View.ld_unit_zero (S := S5000x16) zeroOffsets, View.ld_unit_zero (S := S5000x1) zeroOffsets,
    View.ld_unit_zero (S := S16x40) zeroOffsets]
  have ht : t.val < 20 := Nat.lt_of_lt_of_eq t.isLt N_2
  obtain ⟨e00, e01, e10, e11, e20, e21, e30, e31⟩ := idx2 t
  funext j
  obtain ⟨p, q, rfl⟩ : ∃ (p : Fin 5000) (q : Fin 40), j = ix2 p q := ⟨j 0, j 1, eq_ix2 j⟩
  show k2_pay1 (iblk2 V c 0 t) (iblk2 V c 1 t) (iblk2 V c 2 t) (ix2 p q)
    = G2 V c (((cfg2.win 3).blk t).view.emb (ix2 p q))
  have hout : ((cfg2.win 3).blk t).view.emb (ix2 p q) = ix2 (rowOf t.val ht p) q := by
    funext a; apply Fin.ext
    match a with
    | ⟨0, _⟩ => show win2_3.index t (0 : Fin 2) * 5000 + 1 * p.val = t.val * 5000 + p.val; rw [e30]; omega
    | ⟨1, _⟩ => show win2_3.index t (1 : Fin 2) * 40 + 1 * q.val = q.val; rw [e31]; omega
  rw [hout]
  refine tile_step2 (V c main_v38) (V c main_v15) (V c main_arg4) (iblk2 V c 0 t) (iblk2 V c 1 t) (iblk2 V c 2 t)
    t.val ht ?_ ?_ ?_ p q
  · intro p k
    unfold iblk2
    rw [View.read_apply]
    show V c main_v38 (((cfg2.win 0).blk t).view.emb (ix2 p k)) = _
    congr 1
    funext a; apply Fin.ext
    match a with
    | ⟨0, _⟩ => show win2_0.index t (0 : Fin 2) * 5000 + 1 * p.val = t.val * 5000 + p.val; rw [e00]; omega
    | ⟨1, _⟩ => show win2_0.index t (1 : Fin 2) * 16 + 1 * k.val = k.val; rw [e01]; omega
  · intro p
    unfold iblk2
    rw [View.read_apply]
    show V c main_v15 (((cfg2.win 1).blk t).view.emb (ix2 p (0 : Fin 1))) = _
    congr 1
    funext a; apply Fin.ext
    match a with
    | ⟨0, _⟩ => show win2_1.index t (0 : Fin 2) * 5000 + 1 * p.val = t.val * 5000 + p.val; rw [e10]; omega
    | ⟨1, _⟩ => show win2_1.index t (1 : Fin 2) * 1 + 1 * (0 : Fin 1).val = (0 : Fin 1).val; rw [e11]; rfl
  · intro k q
    unfold iblk2
    rw [View.read_apply]
    show V c main_arg4 (((cfg2.win 2).blk t).view.emb (ix2 k q)) = _
    congr 1
    funext a; apply Fin.ext
    match a with
    | ⟨0, _⟩ => show win2_2.index t (0 : Fin 2) * 16 + 1 * k.val = k.val; rw [e20]; omega
    | ⟨1, _⟩ => show win2_2.index t (1 : Fin 2) * 40 + 1 * q.val = q.val; rw [e21]; omega

/-- An index of the output array is in tile t's block iff each coordinate is in the block's range on its axis. -/
theorem mem_blk2 (t : Fin cfg2.N) (i : S100000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v39).slice (win2_3.rect t)).set ↔ _
  rw [View.set_slice_whole, Rect.mem_set_unit]
  exact Iff.rfl

/-- THE 20 TILES COVER THE ARRAY: row r is in tile r / 5000. -/
theorem cover2 (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  obtain ⟨-, -, -, -, -, -, e30, e31⟩ := idx2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e30]
    exact ⟨row_lo _, row_hi _⟩
  | ⟨1, _⟩ =>
    show win2_3.index t (1 : Fin 2) * 40 ≤ (i 1).val ∧ (i 1).val < win2_3.index t (1 : Fin 2) * 40 + 40
    rw [e31]; omega

/-- THE OUTPUT ARRAY OF STAGE 2 after its 20 tiles: the rows scaled by the column and then multiplied by the weights,
    of the arrays as the stage found them. -/
theorem arr2 (c : Dev nD) :
    (dat2 (F := Ideal) V c).arrAt 3 cfg2.N
      = Cert.Gcn2.tile2 (N := 100000) (K := 16) (J := 40) (V c (Pipeline.arrRef spec2 0)) (V c (Pipeline.arrRef spec2 1))
          (V c (Pipeline.arrRef spec2 2)) :=
  (dat2 (F := Ideal) V c).arrAt_eq_of_cover 3 (G2 V c) (fun t _ => flushed2_eq V c t) (cover2)

end Region2

end Cert.KernelIdeal.Stage

end
-- ==== Proof.Regions13.lean ====
/-
  What the second and the fourth tiled stage of the two-layer graph convolution leave in their output arrays, as
  functions of the whole arrays they read.

  Both stages walk the 100000 rows in 20 tiles of 5000 rows. At tile `t` the stage reads rows `5000 t … 5000 t + 4999`
  of each row-tiled operand, the whole of each one-row operand, computes a block of 5000 rows, and writes it over
  rows `5000 t … 5000 t + 4999` of the output.

  * Stage 1 (bias, cut, rescale): entry `(p, q)` of the block is `max (a (p, q) · d p + b q) 0 · d p` — a row's scale
    `d p` spread along the row, a one-row bias `b` spread down the rows. This is `Cert.Gcn2.tile1` restricted to the tile.
  * Stage 3 (bias, logarithm of the softmax along rows): with `z (p, k) = h (p, k) + b k` and `m p` the maximum of row
    `p` of `z` folded from `−∞`, entry `(p, q)` is `(z (p, q) − m p) − log ∑ₖ exp (z (p, k) − m p)`. Every quantity
    belongs to row `p` alone, so the block is `Cert.Gcn2.tile3` restricted to the tile.

  Since each entry of the result depends only on entries of its own row (and on the whole one-row operands), a tile of
  the result is the same function of the corresponding tile of the operands; and since every row `r` lies in exactly the
  tile `r / 5000`, the twenty write-backs cover the array. Hence after the last tile the output array is `tile1`
  (resp. `tile3`) of the arrays the stage found when it started.
-/
import proofs.«156424_j58969900974604_2_alg».proof.Proof.Gen.KernelIdeal.Frame
import proofs.«156424_j58969900974604_2_alg».proof.Proof.LibTwoLayerGcn

noncomputable section

open scoped BigOperators

namespace Cert.KernelIdeal.Stage

open Cert.KernelIdeal Cert.KernelIdeal.Gen Idealize.ShloMosaic Idealize.ShloMosaic.ValueIdx
open Idealize.ShloMosaic.TcCoe Idealize.SL.Sem
open Idealize.ShloMosaic.Pipeline (Dat)

/-- Both coordinates of a block's origin inside its staging buffer are zero. -/
private theorem origin_zero : (![0, 0] : Fin 2 → Nat) = fun _ => 0 := funext fun a => by fin_cases a <;> rfl

/-! ## Stage 1: scale, bias, cut, scale -/

/-- Entry `(p, q)` of the block stage 1 computes from a tile `a` of rows, the rows' scales `d` (loaded twice: `d` for
    the first scaling, `d'` for the second) and the one-row bias `b`. -/
theorem relu_block_apply (a : Vec Ideal S5000x16 .f32) (d : Vec Ideal S5000x1 .f32) (b : Vec Ideal S1x16 .f32)
    (d' : Vec Ideal S5000x1 .f32) (p : Fin 5000) (q : Fin 16) :
    k1_pay1 a d b d' (ix2 p q)
      = max (a (ix2 p q) * d (ix2 p (0 : Fin 1)) + b (ix2 (0 : Fin 1) q)) 0 * d' (ix2 p (0 : Fin 1)) := by
  unfold k1_pay1
  show max (shapeCast S5000x16 a _ (ix2 p q) * broadcastTo S5000x16 (shapeCast S5000x1 d _) _ (ix2 p q)
        + broadcastTo S5000x16 (shapeCast S1x16 b _) _ (ix2 p q)) (Ideal.ofBits .f32 0x00000000#32)
      * broadcastTo S5000x16 (shapeCast S5000x1 d' _) _ (ix2 p q) = _
  rw [shapeCast_self, shapeCast_self, shapeCast_self, shapeCast_self, Cert.RowLayer.broadcastTo_a1_ab_apply,
    broadcastTo_1b_ab_apply, Cert.RowLayer.broadcastTo_a1_ab_apply, Ideal.ofBits_zero_f32]

/-- Where the stage's tiles sit, tile by tile: the row-tiled operands and the result are at block row `t`, block column 0;
    the one-row bias is always its only block. -/
theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of stage 1's block is `tile1` of the whole arrays at row `r`, column `q`, once the three operand entries
    it reads are the arrays' entries of that row and that column. -/
theorem relu_point (A : S100000x16.Idx → EReal) (D : S100000x1.Idx → EReal) (B : S1x16.Idx → EReal)
    (a : Vec Ideal S5000x16 .f32) (d : Vec Ideal S5000x1 .f32) (b : Vec Ideal S1x16 .f32)
    (p : Fin 5000) (q : Fin 16) (r : Fin 100000)
    (ha : a (ix2 p q) = A (ix2 r q)) (hd : d (ix2 p (0 : Fin 1)) = D (ix2 r (0 : Fin 1)))
    (hb : b (ix2 (0 : Fin 1) q) = B (ix2 (0 : Fin 1) q)) :
    k1_pay1 a d b d (ix2 p q) = Cert.Gcn2.tile1 A D B (ix2 r q) := by
  rw [relu_block_apply, ha, hd, hb]
  rfl

/-- WHAT TILE `t` WRITES BACK is tile `t` of `tile1` of the arrays the stage found. -/
theorem flushed1_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal)
          (Cert.Gcn2.tile1 (V c main_v26 : S100000x16.Idx → EReal) (V c main_v15 : S100000x1.Idx → EReal)
            (V c main_v27 : S1x16.Idx → EReal)) := by
  show (cfg1.win 3).cut (grid1.coords t) ((dat1 V c).after 3 t) = _
  rw [after1_3]
  unfold out1_3
  rw [View.canon_unit_zero origin_zero]
  simp only [View.ld_unit_zero (S := S5000x16) origin_zero, View.ld_unit_zero (S := S5000x1) origin_zero,
    View.ld_unit_zero (S := S1x16) origin_zero]
  obtain ⟨e00, e01, e10, e11, e20, e21, e30, e31⟩ := tile_index1 t
  have hN : grid1.N = 20 := N_1
  have ht : t.val < 20 := hN ▸ t.isLt
  refine funext fun (j : S5000x16.Idx) => ?_
  obtain ⟨p, q, rfl⟩ : ∃ (p : Fin 5000) (q : Fin 16), j = ix2 p q := ⟨j 0, j 1, eq_ix2 j⟩
  have hr : t.val * 5000 + p.val < 100000 := by have := p.isLt; omega
  show k1_pay1 (iblk1 V c 0 t) (iblk1 V c 1 t) (iblk1 V c 2 t) (iblk1 V c 1 t) (ix2 p q)
    = Cert.Gcn2.tile1 (V c main_v26 : S100000x16.Idx → EReal) (V c main_v15 : S100000x1.Idx → EReal)
        (V c main_v27 : S1x16.Idx → EReal) (((cfg1.win 3).blk t).view.emb (ix2 p q))
  have hemb : ((cfg1.win 3).blk t).view.emb (ix2 p q) = ix2 (⟨t.val * 5000 + p.val, hr⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 16 + 1 * q.val = q.val; omega
  rw [hemb]
  refine relu_point (V c main_v26 : S100000x16.Idx → EReal) (V c main_v15 : S100000x1.Idx → EReal)
    (V c main_v27 : S1x16.Idx → EReal) (iblk1 V c 0 t) (iblk1 V c 1 t) (iblk1 V c 2 t) p q ⟨t.val * 5000 + p.val, hr⟩ ?_ ?_ ?_
  · show (V c main_v26 : S100000x16.Idx → EReal) (((cfg1.win 0).blk t).view.emb (ix2 p q)) = _
    refine congrArg (V c main_v26 : S100000x16.Idx → EReal) (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * q.val = q.val; omega
  · show (V c main_v15 : S100000x1.Idx → EReal) (((cfg1.win 1).blk t).view.emb (ix2 p (0 : Fin 1))) = _
    refine congrArg (V c main_v15 : S100000x1.Idx → EReal) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show (V c main_v27 : S1x16.Idx → EReal) (((cfg1.win 2).blk t).view.emb (ix2 (0 : Fin 1) q)) = _
    refine congrArg (V c main_v27 : S1x16.Idx → EReal) (funext fun a => Fin.ext ?_)
    match a with
    | ⟨0, _⟩ => show win1_2.index t (0 : Fin 2) * 1 + 1 * 0 = 0; omega
    | ⟨1, _⟩ => show win1_2.index t (1 : Fin 2) * 16 + 1 * q.val = q.val; omega

/-- An index of the result array lies in tile `t` iff each of its coordinates is in the tile's range on its axis. -/
theorem mem_tile1 (t : Fin cfg1.N) (i : S100000x16.Idx) :
    i ∈ ((cfg1.win 3).blk t).view.set
      ↔ ∀ a : Fin 2, win1_3.index t a * S5000x16.size a ≤ (i a).val
          ∧ (i a).val < win1_3.index t a * S5000x16.size a + S5000x16.size a := by
  show i ∈ ((View.whole main_v28).slice (win1_3.rect t)).set ↔ _
  rw [View.set_slice_whole, Rect.mem_set_unit]
  exact Iff.rfl

/-- Every index of the result array lies in a tile that is written back: row `r` is in tile `r / 5000`. -/
theorem cover1 (i : S100000x16.Idx) :
    ∃ t : Fin cfg1.N, (cfg1.win 3).flush t = true ∧ i ∈ ((cfg1.win 3).blk t).view.set := by
  have hN : grid1.N = 20 := N_1
  have hi0 : (i 0).val < 100000 := (i 0).isLt
  have hi1 : (i 1).val < 16 := (i 1).isLt
  have ht : (i 0).val / 5000 < grid1.N := by rw [hN]; omega
  obtain ⟨-, -, -, -, -, -, e30, e31⟩ := tile_index1 ⟨(i 0).val / 5000, ht⟩
  refine ⟨⟨(i 0).val / 5000, ht⟩, flush1_3 _, ?_⟩
  rw [mem_tile1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 16 ≤ (i 1).val
      ∧ (i 1).val < win1_3.index ⟨(i 0).val / 5000, ht⟩ (1 : Fin 2) * 16 + 16
    omega

/-- AFTER STAGE 1 its result array is `tile1` of the arrays the stage found: rows scaled, the bias added, the negative
    part cut off, rows scaled again. -/
theorem arr1 (V : (c : Dev nD) → (b : Ref sig .tc) → Buf (Elt Ideal) ((c : Thread nD τ).loc b)) (c : Dev nD) :
    (dat1 (F := Ideal) V c).arrAt 3 cfg1.N
      = Cert.Gcn2.tile1 (V c (Pipeline.arrRef spec1 0) : S100000x16.Idx → EReal)
          (V c (Pipeline.arrRef spec1 1) : S100000x1.Idx → EReal) (V c (Pipeline.arrRef spec1 2) : S1x16.Idx → EReal) :=
  (dat1 (F := Ideal) V c).arrAt_eq_of_cover 3
    (Cert.Gcn2.tile1 (V c main_v26 : S100000x16.Idx → EReal) (V c main_v15 : S100000x1.Idx → EReal)
      (V c main_v27 : S1x16.Idx → EReal))
    (fun t _ => flushed1_eq V c t) cover1

/-! ## Stage 3: bias, then the logarithm of the softmax along each row -/

/-- Entry `(p, q)` of the block stage 3 computes from a tile `h` of rows and the one-row bias `b`: with
    `z (p, k) = h (p, k) + b k` and `m` the maximum of row `p` of `z` (folded from the accumulator's value, `−∞`),
    it is `(z (p, q) − m) − log ∑ₖ exp (z (p, k) − m)`. Every ingredient belongs to row `p`. -/
theorem lsm_block_apply (h : Vec Ideal S5000x40 .f32) (b : Vec Ideal S1x40 .f32) (p : Fin 5000) (q : Fin 40) :
    k3_pay1 h b (ix2 p q)
      = ((h (ix2 p q) + b (ix2 (0 : Fin 1) q))
          - (Finset.univ : Finset (Fin 40)).fold max (Ideal.ofBits .f32 0xFF800000#32)
              (fun k => h (ix2 p k) + b (ix2 (0 : Fin 1) k)))
        - Ideal.log (∑ k : Fin 40, Ideal.exp ((h (ix2 p k) + b (ix2 (0 : Fin 1) k))
            - (Finset.univ : Finset (Fin 40)).fold max (Ideal.ofBits .f32 0xFF800000#32)
                (fun k => h (ix2 p k) + b (ix2 (0 : Fin 1) k)))) := by
  -- the biased block, entry by entry
  have hz : ∀ k : Fin 40,
      addf (F := Ideal) (φ := .f32) (shapeCast S5000x40 h shapeCasts_S5000x40_S5000x40)
          (broadcastTo S5000x40 (shapeCast S1x40 b shapeCasts_S1x40_S1x40) broadcasts_S1x40_S5000x40) (ix2 p k)
        = h (ix2 p k) + b (ix2 (0 : Fin 1) k) := fun k => by
    show shapeCast S5000x40 h _ (ix2 p k) + broadcastTo S5000x40 (shapeCast S1x40 b _) _ (ix2 p k) = _
    rw [shapeCast_self, shapeCast_self, broadcastTo_1b_ab_apply]
  unfold k3_pay1
  refine (Cert.RowLayer.logSoftmax_block_apply (A := 5000) (B := 40)
    (addf (F := Ideal) (φ := .f32) (shapeCast S5000x40 h shapeCasts_S5000x40_S5000x40)
      (broadcastTo S5000x40 (shapeCast S1x40 b shapeCasts_S1x40_S1x40) broadcasts_S1x40_S5000x40))
    0xFF800000#32 0x00000000#32 reduces_S5000x40_S5000 (.inl rfl) rfl rfl shapeCasts_S5000_S5000x1
    broadcasts_S5000x1_S5000x40 p q).trans ?_
  simp only [hz]

/-- Where the stage's tiles sit, tile by tile: the row-tiled operand and the result are at block row `t`, block column 0;
    the one-row bias is always its only block. -/
theorem tile_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of stage 3's block is `tile3` of the whole arrays at row `r`, column `q`, once row `p` of the tile is row
    `r` of the array and the bias block is the bias. -/
theorem lsm_point (H : S100000x40.Idx → EReal) (B : S1x40.Idx → EReal)
    (h : Vec Ideal S5000x40 .f32) (b : Vec Ideal S1x40 .f32) (p : Fin 5000) (q : Fin 40) (r : Fin 100000)
    (hh : ∀ k : Fin 40, h (ix2 p k) = H (ix2 r k)) (hb : ∀ k : Fin 40, b (ix2 (0 : Fin 1) k) = B (ix2 (0 : Fin 1) k)) :
    k3_pay1 h b (ix2 p q) = Cert.Gcn2.tile3 (Ideal.ofBits .f32 0xFF800000#32) H B (ix2 r q) := by
  rw [lsm_block_apply]
  simp only [hh, hb]
  rfl

/-- WHAT TILE `t` WRITES BACK is tile `t` of `tile3` of the arrays the stage found. -/
theorem flushed3_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal)
          (Cert.Gcn2.tile3 (Ideal.ofBits .f32 0xFF800000#32) (V c main_v39 : S100000x40.Idx → EReal)
            (V c main_v40 : S1x40.Idx → EReal)) := by
  show (cfg3.win 2).cut (grid3.coords t) ((dat3 V c).after 2 t) = _
  rw [after3_2]
  unfold out3_2
  rw [View.canon_unit_zero origin_zero]
  simp only [View.ld_unit_zero (S := S5000x40) origin_zero, View.ld_unit_zero (S := S1x40) origin_zero]
  obtain ⟨e00, e01, e10, e11, e20, e21⟩ := tile_index3 t
  have hN : grid3.N = 20 := N_3
  have ht : t.val < 20 := hN ▸ t.isLt
  refine funext fun (j : S5000x40.Idx) => ?_
  obtain ⟨p, q, rfl⟩ : ∃ (p : Fin 5000) (q : Fin 40), j = ix2 p q := ⟨j 0, j 1, eq_ix2 j⟩
  have hr : t.val * 5000 + p.val < 100000 := by have := p.isLt; omega
  show k3_pay1 (iblk3 V c 0 t) (iblk3 V c 1 t) (ix2 p q)
    = Cert.Gcn2.tile3 (Ideal.ofBits .f32 0xFF800000#32) (V c main_v39 : S100000x40.Idx → EReal)
        (V c main_v40 : S1x40.Idx → EReal) (((cfg3.win 2).blk t).view.emb (ix2 p q))
  have hemb : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 40 + 1 * q.val = q.val; omega
  rw [hemb]
  refine lsm_point (V c main_v39 : S100000x40.Idx → EReal) (V c main_v40 : S1x40.Idx → EReal)
    (iblk3 V c 0 t) (iblk3 V c 1 t) p q ⟨t.val * 5000 + p.val, hr⟩ (fun k => ?_) (fun k => ?_)
  · show (V c main_v39 : S100000x40.Idx → EReal) (((cfg3.win 0).blk t).view.emb (ix2 p k)) = _
    refine congrArg (V c main_v39 : S100000x40.Idx → EReal) (funext fun a => Fin.ext ?_)
    match a with
    | ⟨0, _⟩ => show win3_0.index t (0 : Fin 2) * 5000 + 1 * p.val = t.val * 5000 + p.val; omega
    | ⟨1, _⟩ => show win3_0.index t (1 : Fin 2) * 40 + 1 * k.val = k.val; omega
  · show (V c main_v40 : S1x40.Idx → EReal) (((cfg3.win 1).blk t).view.emb (ix2 (0 : Fin 1) k)) = _
    refine congrArg (V c main_v40 : S1x40.Idx → EReal) (funext fun a => Fin.ext ?_)
    match a with
    | ⟨0, _⟩ => show win3_1.index t (0 : Fin 2) * 1 + 1 * 0 = 0; omega
    | ⟨1, _⟩ => show win3_1.index t (1 : Fin 2) * 40 + 1 * k.val = k.val; omega

/-- An index of the result array lies in tile `t` iff each of its coordinates is in the tile's range on its axis. -/
theorem mem_tile3 (t : Fin cfg3.N) (i : S100000x40.Idx) :
    i ∈ ((cfg3.win 2).blk t).view.set
      ↔ ∀ a : Fin 2, win3_2.index t a * S5000x40.size a ≤ (i a).val
          ∧ (i a).val < win3_2.index t a * S5000x40.size a + S5000x40.size a := by
  show i ∈ ((View.whole main_v41).slice (win3_2.rect t)).set ↔ _
  rw [View.set_slice_whole, Rect.mem_set_unit]
  exact Iff.rfl

/-- Every index of the result array lies in a tile that is written back: row `r` is in tile `r / 5000`. -/
theorem cover3 (i : S100000x40.Idx) :
    ∃ t : Fin cfg3.N, (cfg3.win 2).flush t = true ∧ i ∈ ((cfg3.win 2).blk t).view.set := by
  have hN : grid3.N = 20 := N_3
  have hi0 : (i 0).val < 100000 := (i 0).isLt
  have hi1 : (i 1).val < 40 := (i 1).isLt
  have ht : (i 0).val / 5000 < grid3.N := by rw [hN]; omega
  obtain ⟨-, -, -, -, e20, e21⟩ := tile_index3 ⟨(i 0).val / 5000, ht⟩
  refine ⟨⟨(i 0).val / 5000, ht⟩, flush3_2 _, ?_⟩
  rw [mem_tile3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win3_2.index ⟨(i 0).val / 5000, ht⟩ (1 : Fin 2) * 40 ≤ (i 1).val
      ∧ (i 1).val < win3_2.index ⟨(i 0).val / 5000, ht⟩ (1 : Fin 2) * 40 + 40
    omega

/-- AFTER STAGE 3 its result array is `tile3` of the arrays the stage found: the bias added to every row, then the
    logarithm of the softmax along each row, the row maximum folded from `−∞`. -/
theorem arr3 (V : (c : Dev nD) → (b : Ref sig .tc) → Buf (Elt Ideal) ((c : Thread nD τ).loc b)) (c : Dev nD) :
    (dat3 (F := Ideal) V c).arrAt 2 cfg3.N
      = Cert.Gcn2.tile3 (Ideal.ofBits .f32 0xFF800000#32) (V c (Pipeline.arrRef spec3 0) : S100000x40.Idx → EReal)
          (V c (Pipeline.arrRef spec3 1) : S1x40.Idx → EReal) :=
  (dat3 (F := Ideal) V c).arrAt_eq_of_cover 2
    (Cert.Gcn2.tile3 (Ideal.ofBits .f32 0xFF800000#32) (V c main_v39 : S100000x40.Idx → EReal)
      (V c main_v40 : S1x40.Idx → EReal))
    (fun t _ => flushed3_eq V c t) cover3

end Cert.KernelIdeal.Stage

end
-- ==== Proof.KernelStages.lean ====
/-
  What the idealized kernel's buffers hold at the boundaries between its host stretches and its four tiled stages.

  The generated frame certificate folds the buffer contents through @main's ten segments: `W0` at launch, `W1 … W3` after
  the three host stretches that prepare the index words and the normalisation column, then alternately a tiled stage's exit
  (`W4`, `W6`, `W8`, `W10`: the stage's output array at what its write-backs leave, every other buffer as entered) and the
  host stretch before the next stage (`W5`, `W7`, `W9`). Each lemma below reads ONE buffer at ONE boundary: a buffer a
  stretch computes is the stretch's operations applied to the contents before it; a stage's output array is the stage's
  whole-array function (the modules Regions02 and Regions13) of the arrays its windows read; a buffer nobody writes keeps
  its contents across stretches and stages. Chained from the launch to the last boundary they give the result buffer as the
  composition `kernelOut` of the four stages and the two hops, applied to the argument arrays (`w10_out`).
-/
import proofs.«156424_j58969900974604_2_alg».proof.Proof.Gen.KernelIdeal.Frame
import proofs.«156424_j58969900974604_2_alg».proof.Proof.KernelReal
import proofs.«156424_j58969900974604_2_alg».proof.Proof.Regions02
import proofs.«156424_j58969900974604_2_alg».proof.Proof.Regions13
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo Cert.Gcn2

variable (m : (ℓ : Loc nD τ sig) → Buf (Elt Ideal) ℓ) (ρ : Dev nD → PrngReg) (c : Dev nD)

/-! ## Before the first stage -/

set_option maxHeartbeats 4000000 in
theorem w3_arg0 : W3 m ρ c (Proc.devRef .tc main_arg0) = (m ((c : Thread nD τ).loc main_arg0)) := by
  show StableHlo.after (hostOps0_2 (F := Ideal)) (W2 m ρ c) (Proc.devRef .tc main_arg0) = _
  after_results <;> rfl

set_option maxHeartbeats 4000000 in
theorem w3_arg2 : W3 m ρ c (Proc.devRef .tc main_arg2) = (m ((c : Thread nD τ).loc main_arg2)) := by
  show StableHlo.after (hostOps0_2 (F := Ideal)) (W2 m ρ c) (Proc.devRef .tc main_arg2) = _
  after_results <;> rfl

set_option maxHeartbeats 4000000 in
theorem w3_arg3 : W3 m ρ c (Proc.devRef .tc main_arg3) = (m ((c : Thread nD τ).loc main_arg3)) := by
  show StableHlo.after (hostOps0_2 (F := Ideal)) (W2 m ρ c) (Proc.devRef .tc main_arg3) = _
  after_results <;> rfl

set_option maxHeartbeats 4000000 in
theorem w3_arg4 : W3 m ρ c (Proc.devRef .tc main_arg4) = (m ((c : Thread nD τ).loc main_arg4)) := by
  show StableHlo.after (hostOps0_2 (F := Ideal)) (W2 m ρ c) (Proc.devRef .tc main_arg4) = _
  after_results <;> rfl

set_option maxHeartbeats 4000000 in
theorem w3_arg5 : W3 m ρ c (Proc.devRef .tc main_arg5) = (m ((c : Thread nD τ).loc main_arg5)) := by
  show StableHlo.after (hostOps0_2 (F := Ideal)) (W2 m ρ c) (Proc.devRef .tc main_arg5) = _
  after_results <;> rfl

set_option maxHeartbeats 4000000 in
theorem w3_src : W3 m ρ c (Proc.devRef .tc main_v5) = srcWords (m ((c : Thread nD τ).loc main_arg1)) := by
  show StableHlo.after (hostOps0_2 (F := Ideal)) (W2 m ρ c) (Proc.devRef .tc main_v5) = _
  after_results <;> rfl

set_option maxHeartbeats 4000000 in
theorem w3_tgt : W3 m ρ c (Proc.devRef .tc main_v6) = tgtWords (m ((c : Thread nD τ).loc main_arg1)) := by
  show StableHlo.after (hostOps0_2 (F := Ideal)) (W2 m ρ c) (Proc.devRef .tc main_v6) = _
  after_results <;> rfl

set_option maxHeartbeats 4000000 in
theorem w1_pos : W1 m ρ c (Proc.devRef .tc main_v12) = cmpf (F := Ideal) .ogt (degArr (m ((c : Thread nD τ).loc main_arg1))) (broadcastInDim S100000 ![] Facts₀.bcast_S_S100000 (constant (F := Ideal) S_ .f32 0x00000000#32)) := by
  show StableHlo.after (hostOps0 (F := Ideal)) (W0 m ρ c) (Proc.devRef .tc main_v12) = _
  after_results <;> rfl

set_option maxHeartbeats 4000000 in
theorem w1_rsqrt : W1 m ρ c (Proc.devRef .tc main_v13) = Host.rsqrt (F := Ideal) (degArr (m ((c : Thread nD τ).loc main_arg1))) := by
  show StableHlo.after (hostOps0 (F := Ideal)) (W0 m ρ c) (Proc.devRef .tc main_v13) = _
  after_results <;> rfl

set_option maxHeartbeats 4000000 in
theorem w1_zero : W1 m ρ c (Proc.devRef .tc main_cst_2) = constant (F := Ideal) S_ .f32 0x00000000#32 := by
  show StableHlo.after (hostOps0 (F := Ideal)) (W0 m ρ c) (Proc.devRef .tc main_cst_2) = _
  after_results <;> rfl

/-- The choice between `deg^(−1/2)` and zero, from whatever the stretch is entered with. -/
theorem where_of (X : Valuation τ sig (Elt Ideal)) :
    StableHlo.after (hostOps0_1 (F := Ideal)) X (Proc.devRef .tc main_v14)
      = (select (X (Proc.devRef .tc main_v12) : IVec S100000 1) (X (Proc.devRef .tc main_v13) : FVec Ideal S100000 .f32)
          (broadcastInDim S100000 ![] Facts₀.bcast_S_S100000 (id (X (Proc.devRef .tc main_cst_2) : FVec Ideal S_ .f32))) : FVec Ideal S100000 .f32) := by
  after_results <;> rfl

/-- The normalisation laid as a column, from whatever the stretch is entered with. -/
theorem column_of (X : Valuation τ sig (Elt Ideal)) :
    StableHlo.after (hostOps0_2 (F := Ideal)) X (Proc.devRef .tc main_v15)
      = (shapeCast S100000x1 (X (Proc.devRef .tc main_v14) : FVec Ideal S100000 .f32) Facts₀.shapeCasts_S100000_S100000x1 : FVec Ideal S100000x1 .f32) := by
  after_results <;> rfl

/-- The normalisation column as the first stage finds it. -/
theorem w3_dinv : W3 m ρ c (Proc.devRef .tc main_v15) = dinvCol (m ((c : Thread nD τ).loc main_arg1)) := by
  show StableHlo.after (hostOps0_2 (F := Ideal)) (W2 m ρ c) (Proc.devRef .tc main_v15) = _
  rw [column_of]
  show shapeCast S100000x1 (StableHlo.after (hostOps0_1 (F := Ideal)) (W1 m ρ c) (Proc.devRef .tc main_v14)) Facts₀.shapeCasts_S100000_S100000x1 = _
  rw [where_of, w1_pos, w1_rsqrt, w1_zero]
  rfl

/-! ## After the first stage, and the first hop -/

/-- The first stage's output array. -/
theorem w4_out : W4 m ρ c (Proc.devRef .tc main_v16) = tile0 (N := 100000) (K := 512) (F := 16) (m ((c : Thread nD τ).loc main_arg0)) (m ((c : Thread nD τ).loc main_arg2)) (dinvCol (m ((c : Thread nD τ).loc main_arg1))) := by
  have h := (W4_arr m ρ c 3).trans (arr0 (V3 m ρ) c)
  rw [show V3 m ρ c (Pipeline.arrRef spec0 0) = (m ((c : Thread nD τ).loc main_arg0)) from w3_arg0 m ρ c,
    show V3 m ρ c (Pipeline.arrRef spec0 1) = (m ((c : Thread nD τ).loc main_arg2)) from w3_arg2 m ρ c,
    show V3 m ρ c (Pipeline.arrRef spec0 2) = dinvCol (m ((c : Thread nD τ).loc main_arg1)) from w3_dinv m ρ c] at h
  exact h

theorem w4_src : W4 m ρ c (Proc.devRef .tc main_v5) = srcWords (m ((c : Thread nD τ).loc main_arg1)) :=
  (W4_of_ne m ρ c main_v5 (by decide)).trans (w3_src m ρ c)

theorem w4_tgt : W4 m ρ c (Proc.devRef .tc main_v6) = tgtWords (m ((c : Thread nD τ).loc main_arg1)) :=
  (W4_of_ne m ρ c main_v6 (by decide)).trans (w3_tgt m ρ c)

theorem w4_arg3 : W4 m ρ c (Proc.devRef .tc main_arg3) = (m ((c : Thread nD τ).loc main_arg3)) :=
  (W4_of_ne m ρ c main_arg3 (by decide)).trans (w3_arg3 m ρ c)

theorem w4_arg4 : W4 m ρ c (Proc.devRef .tc main_arg4) = (m ((c : Thread nD τ).loc main_arg4)) :=
  (W4_of_ne m ρ c main_arg4 (by decide)).trans (w3_arg4 m ρ c)

theorem w4_arg5 : W4 m ρ c (Proc.devRef .tc main_arg5) = (m ((c : Thread nD τ).loc main_arg5)) :=
  (W4_of_ne m ρ c main_arg5 (by decide)).trans (w3_arg5 m ρ c)

theorem w4_dinv : W4 m ρ c (Proc.devRef .tc main_v15) = dinvCol (m ((c : Thread nD τ).loc main_arg1)) :=
  ((W4_arr m ρ c 2).trans (((dat0 (V3 m ρ) c).arrAt_in 2 rfl _).trans (A_eq0 (V3 m ρ) c 2))).trans (w3_dinv m ρ c)

set_option maxHeartbeats 4000000 in
/-- The rows that arrive, added up: the second stage's first input. -/
theorem w5_agg : W5 m ρ c (Proc.devRef .tc main_v26) = hop (m ((c : Thread nD τ).loc main_arg1)) (tile0 (N := 100000) (K := 512) (F := 16) (m ((c : Thread nD τ).loc main_arg0)) (m ((c : Thread nD τ).loc main_arg2)) (dinvCol (m ((c : Thread nD τ).loc main_arg1)))) := by
  have h : W5 m ρ c (Proc.devRef .tc main_v26)
      = Host.scatterAdd (F := Ideal) scatter_S100000x16_S3300000x1_S3300000x16_1_0_0_1
          (broadcastInDim S100000x16 ![] Facts₀.bcast_S_S100000x16 (constant (F := Ideal) S_ .f32 0x00000000#32))
          (broadcastInDim S3300000x1 ![0] Facts₀.bcast_S3300000_S3300000x1_0 (W4 m ρ c (Proc.devRef .tc main_v6)))
          (Host.gather gather_S100000x16_S3300000x1_S3300000x16_1_0_n_n_0_1_116 (W4 m ρ c (Proc.devRef .tc main_v16) : FVec Ideal S100000x16 .f32)
            (broadcastInDim S3300000x1 ![0] Facts₀.bcast_S3300000_S3300000x1_0
              (select (cmpi .slt (W4 m ρ c (Proc.devRef .tc main_v5)) (broadcastInDim S3300000 ![] Facts₀.bcast_S_S3300000 (constantI S_ 32 0#32)))
                (addi (W4 m ρ c (Proc.devRef .tc main_v5)) (broadcastInDim S3300000 ![] Facts₀.bcast_S_S3300000 (constantI S_ 32 100000#32)))
                (W4 m ρ c (Proc.devRef .tc main_v5))))) := by
    show StableHlo.after (hostOps1 (F := Ideal)) (W4 m ρ c) (Proc.devRef .tc main_v26) = _
    after_results <;> rfl
  rw [h, w4_tgt, w4_out, w4_src]
  rfl

set_option maxHeartbeats 4000000 in
theorem w5_bias : W5 m ρ c (Proc.devRef .tc main_v27) = (shapeCast S1x16 (m ((c : Thread nD τ).loc main_arg3)) Facts₀.shapeCasts_S16_S1x16) := by
  have h : W5 m ρ c (Proc.devRef .tc main_v27) = shapeCast S1x16 (W4 m ρ c (Proc.devRef .tc main_arg3)) Facts₀.shapeCasts_S16_S1x16 := by
    show StableHlo.after (hostOps1 (F := Ideal)) (W4 m ρ c) (Proc.devRef .tc main_v27) = _
    after_results <;> rfl
  rw [h, w4_arg3]

set_option maxHeartbeats 4000000 in
theorem w5_dinv : W5 m ρ c (Proc.devRef .tc main_v15) = dinvCol (m ((c : Thread nD τ).loc main_arg1)) := by
  have h : W5 m ρ c (Proc.devRef .tc main_v15) = W4 m ρ c (Proc.devRef .tc main_v15) := by
    show StableHlo.after (hostOps1 (F := Ideal)) (W4 m ρ c) (Proc.devRef .tc main_v15) = _
    after_results <;> rfl
  rw [h]
  exact w4_dinv m ρ c

set_option maxHeartbeats 4000000 in
theorem w5_src : W5 m ρ c (Proc.devRef .tc main_v5) = srcWords (m ((c : Thread nD τ).loc main_arg1)) := by
  have h : W5 m ρ c (Proc.devRef .tc main_v5) = W4 m ρ c (Proc.devRef .tc main_v5) := by
    show StableHlo.after (hostOps1 (F := Ideal)) (W4 m ρ c) (Proc.devRef .tc main_v5) = _
    after_results <;> rfl
  rw [h]
  exact w4_src m ρ c

set_option maxHeartbeats 4000000 in
theorem w5_tgt : W5 m ρ c (Proc.devRef .tc main_v6) = tgtWords (m ((c : Thread nD τ).loc main_arg1)) := by
  have h : W5 m ρ c (Proc.devRef .tc main_v6) = W4 m ρ c (Proc.devRef .tc main_v6) := by
    show StableHlo.after (hostOps1 (F := Ideal)) (W4 m ρ c) (Proc.devRef .tc main_v6) = _
    after_results <;> rfl
  rw [h]
  exact w4_tgt m ρ c

set_option maxHeartbeats 4000000 in
theorem w5_arg4 : W5 m ρ c (Proc.devRef .tc main_arg4) = (m ((c : Thread nD τ).loc main_arg4)) := by
  have h : W5 m ρ c (Proc.devRef .tc main_arg4) = W4 m ρ c (Proc.devRef .tc main_arg4) := by
    show StableHlo.after (hostOps1 (F := Ideal)) (W4 m ρ c) (Proc.devRef .tc main_arg4) = _
    after_results <;> rfl
  rw [h]
  exact w4_arg4 m ρ c

set_option maxHeartbeats 4000000 in
theorem w5_arg5 : W5 m ρ c (Proc.devRef .tc main_arg5) = (m ((c : Thread nD τ).loc main_arg5)) := by
  have h : W5 m ρ c (Proc.devRef .tc main_arg5) = W4 m ρ c (Proc.devRef .tc main_arg5) := by
    show StableHlo.after (hostOps1 (F := Ideal)) (W4 m ρ c) (Proc.devRef .tc main_arg5) = _
    after_results <;> rfl
  rw [h]
  exact w4_arg5 m ρ c

/-! ## After the second stage, and the second hop -/

/-- The second stage's output array. -/
theorem w6_out : W6 m ρ c (Proc.devRef .tc main_v28) = tile1 (N := 100000) (F := 16) (hop (m ((c : Thread nD τ).loc main_arg1)) (tile0 (N := 100000) (K := 512) (F := 16) (m ((c : Thread nD τ).loc main_arg0)) (m ((c : Thread nD τ).loc main_arg2)) (dinvCol (m ((c : Thread nD τ).loc main_arg1))))) (dinvCol (m ((c : Thread nD τ).loc main_arg1))) (shapeCast S1x16 (m ((c : Thread nD τ).loc main_arg3)) Facts₀.shapeCasts_S16_S1x16) := by
  have h := (W6_arr m ρ c 3).trans (arr1 (V5 m ρ) c)
  rw [show V5 m ρ c (Pipeline.arrRef spec1 0) = hop (m ((c : Thread nD τ).loc main_arg1)) (tile0 (N := 100000) (K := 512) (F := 16) (m ((c : Thread nD τ).loc main_arg0)) (m ((c : Thread nD τ).loc main_arg2)) (dinvCol (m ((c : Thread nD τ).loc main_arg1)))) from w5_agg m ρ c,
    show V5 m ρ c (Pipeline.arrRef spec1 1) = dinvCol (m ((c : Thread nD τ).loc main_arg1)) from w5_dinv m ρ c,
    show V5 m ρ c (Pipeline.arrRef spec1 2) = (shapeCast S1x16 (m ((c : Thread nD τ).loc main_arg3)) Facts₀.shapeCasts_S16_S1x16) from w5_bias m ρ c] at h
  exact h

theorem w6_src : W6 m ρ c (Proc.devRef .tc main_v5) = srcWords (m ((c : Thread nD τ).loc main_arg1)) :=
  (W6_of_ne m ρ c main_v5 (by decide)).trans (w5_src m ρ c)

theorem w6_tgt : W6 m ρ c (Proc.devRef .tc main_v6) = tgtWords (m ((c : Thread nD τ).loc main_arg1)) :=
  (W6_of_ne m ρ c main_v6 (by decide)).trans (w5_tgt m ρ c)

theorem w6_arg4 : W6 m ρ c (Proc.devRef .tc main_arg4) = (m ((c : Thread nD τ).loc main_arg4)) :=
  (W6_of_ne m ρ c main_arg4 (by decide)).trans (w5_arg4 m ρ c)

theorem w6_arg5 : W6 m ρ c (Proc.devRef .tc main_arg5) = (m ((c : Thread nD τ).loc main_arg5)) :=
  (W6_of_ne m ρ c main_arg5 (by decide)).trans (w5_arg5 m ρ c)

theorem w6_dinv : W6 m ρ c (Proc.devRef .tc main_v15) = dinvCol (m ((c : Thread nD τ).loc main_arg1)) :=
  ((W6_arr m ρ c 1).trans (((dat1 (V5 m ρ) c).arrAt_in 1 rfl _).trans (A_eq1 (V5 m ρ) c 1))).trans (w5_dinv m ρ c)

set_option maxHeartbeats 4000000 in
theorem w7_agg : W7 m ρ c (Proc.devRef .tc main_v38) = hop (m ((c : Thread nD τ).loc main_arg1)) (tile1 (N := 100000) (F := 16) (hop (m ((c : Thread nD τ).loc main_arg1)) (tile0 (N := 100000) (K := 512) (F := 16) (m ((c : Thread nD τ).loc main_arg0)) (m ((c : Thread nD τ).loc main_arg2)) (dinvCol (m ((c : Thread nD τ).loc main_arg1))))) (dinvCol (m ((c : Thread nD τ).loc main_arg1))) (shapeCast S1x16 (m ((c : Thread nD τ).loc main_arg3)) Facts₀.shapeCasts_S16_S1x16)) := by
  have h : W7 m ρ c (Proc.devRef .tc main_v38)
      = Host.scatterAdd (F := Ideal) scatter_S100000x16_S3300000x1_S3300000x16_1_0_0_1
          (broadcastInDim S100000x16 ![] Facts₀.bcast_S_S100000x16 (constant (F := Ideal) S_ .f32 0x00000000#32))
          (broadcastInDim S3300000x1 ![0] Facts₀.bcast_S3300000_S3300000x1_0 (W6 m ρ c (Proc.devRef .tc main_v6)))
          (Host.gather gather_S100000x16_S3300000x1_S3300000x16_1_0_n_n_0_1_116 (W6 m ρ c (Proc.devRef .tc main_v28) : FVec Ideal S100000x16 .f32)
            (broadcastInDim S3300000x1 ![0] Facts₀.bcast_S3300000_S3300000x1_0
              (select (cmpi .slt (W6 m ρ c (Proc.devRef .tc main_v5)) (broadcastInDim S3300000 ![] Facts₀.bcast_S_S3300000 (constantI S_ 32 0#32)))
                (addi (W6 m ρ c (Proc.devRef .tc main_v5)) (broadcastInDim S3300000 ![] Facts₀.bcast_S_S3300000 (constantI S_ 32 100000#32)))
                (W6 m ρ c (Proc.devRef .tc main_v5))))) := by
    show StableHlo.after (hostOps2 (F := Ideal)) (W6 m ρ c) (Proc.devRef .tc main_v38) = _
    after_results <;> rfl
  rw [h, w6_tgt, w6_out, w6_src]
  rfl

set_option maxHeartbeats 4000000 in
theorem w7_dinv : W7 m ρ c (Proc.devRef .tc main_v15) = dinvCol (m ((c : Thread nD τ).loc main_arg1)) := by
  have h : W7 m ρ c (Proc.devRef .tc main_v15) = W6 m ρ c (Proc.devRef .tc main_v15) := by
    show StableHlo.after (hostOps2 (F := Ideal)) (W6 m ρ c) (Proc.devRef .tc main_v15) = _
    after_results <;> rfl
  rw [h]
  exact w6_dinv m ρ c

set_option maxHeartbeats 4000000 in
theorem w7_arg4 : W7 m ρ c (Proc.devRef .tc main_arg4) = (m ((c : Thread nD τ).loc main_arg4)) := by
  have h : W7 m ρ c (Proc.devRef .tc main_arg4) = W6 m ρ c (Proc.devRef .tc main_arg4) := by
    show StableHlo.after (hostOps2 (F := Ideal)) (W6 m ρ c) (Proc.devRef .tc main_arg4) = _
    after_results <;> rfl
  rw [h]
  exact w6_arg4 m ρ c

set_option maxHeartbeats 4000000 in
theorem w7_arg5 : W7 m ρ c (Proc.devRef .tc main_arg5) = (m ((c : Thread nD τ).loc main_arg5)) := by
  have h : W7 m ρ c (Proc.devRef .tc main_arg5) = W6 m ρ c (Proc.devRef .tc main_arg5) := by
    show StableHlo.after (hostOps2 (F := Ideal)) (W6 m ρ c) (Proc.devRef .tc main_arg5) = _
    after_results <;> rfl
  rw [h]
  exact w6_arg5 m ρ c

/-! ## After the third stage, and the last one -/

/-- The third stage's output array. -/
theorem w8_out : W8 m ρ c (Proc.devRef .tc main_v39) = tile2 (N := 100000) (K := 16) (J := 40) (hop (m ((c : Thread nD τ).loc main_arg1)) (tile1 (N := 100000) (F := 16) (hop (m ((c : Thread nD τ).loc main_arg1)) (tile0 (N := 100000) (K := 512) (F := 16) (m ((c : Thread nD τ).loc main_arg0)) (m ((c : Thread nD τ).loc main_arg2)) (dinvCol (m ((c : Thread nD τ).loc main_arg1))))) (dinvCol (m ((c : Thread nD τ).loc main_arg1))) (shapeCast S1x16 (m ((c : Thread nD τ).loc main_arg3)) Facts₀.shapeCasts_S16_S1x16))) (dinvCol (m ((c : Thread nD τ).loc main_arg1))) (m ((c : Thread nD τ).loc main_arg4)) := by
  have h := (W8_arr m ρ c 3).trans (arr2 (V7 m ρ) c)
  rw [show V7 m ρ c (Pipeline.arrRef spec2 0) = hop (m ((c : Thread nD τ).loc main_arg1)) (tile1 (N := 100000) (F := 16) (hop (m ((c : Thread nD τ).loc main_arg1)) (tile0 (N := 100000) (K := 512) (F := 16) (m ((c : Thread nD τ).loc main_arg0)) (m ((c : Thread nD τ).loc main_arg2)) (dinvCol (m ((c : Thread nD τ).loc main_arg1))))) (dinvCol (m ((c : Thread nD τ).loc main_arg1))) (shapeCast S1x16 (m ((c : Thread nD τ).loc main_arg3)) Facts₀.shapeCasts_S16_S1x16)) from w7_agg m ρ c,
    show V7 m ρ c (Pipeline.arrRef spec2 1) = dinvCol (m ((c : Thread nD τ).loc main_arg1)) from w7_dinv m ρ c,
    show V7 m ρ c (Pipeline.arrRef spec2 2) = (m ((c : Thread nD τ).loc main_arg4)) from w7_arg4 m ρ c] at h
  exact h

theorem w8_arg5 : W8 m ρ c (Proc.devRef .tc main_arg5) = (m ((c : Thread nD τ).loc main_arg5)) :=
  (W8_of_ne m ρ c main_arg5 (by decide)).trans (w7_arg5 m ρ c)

set_option maxHeartbeats 4000000 in
theorem w9_out : W9 m ρ c (Proc.devRef .tc main_v39) = tile2 (N := 100000) (K := 16) (J := 40) (hop (m ((c : Thread nD τ).loc main_arg1)) (tile1 (N := 100000) (F := 16) (hop (m ((c : Thread nD τ).loc main_arg1)) (tile0 (N := 100000) (K := 512) (F := 16) (m ((c : Thread nD τ).loc main_arg0)) (m ((c : Thread nD τ).loc main_arg2)) (dinvCol (m ((c : Thread nD τ).loc main_arg1))))) (dinvCol (m ((c : Thread nD τ).loc main_arg1))) (shapeCast S1x16 (m ((c : Thread nD τ).loc main_arg3)) Facts₀.shapeCasts_S16_S1x16))) (dinvCol (m ((c : Thread nD τ).loc main_arg1))) (m ((c : Thread nD τ).loc main_arg4)) := by
  have h : W9 m ρ c (Proc.devRef .tc main_v39) = W8 m ρ c (Proc.devRef .tc main_v39) := by
    show StableHlo.after (hostOps3 (F := Ideal)) (W8 m ρ c) (Proc.devRef .tc main_v39) = _
    after_results <;> rfl
  rw [h]
  exact w8_out m ρ c

set_option maxHeartbeats 4000000 in
theorem w9_bias : W9 m ρ c (Proc.devRef .tc main_v40) = (shapeCast S1x40 (m ((c : Thread nD τ).loc main_arg5)) Facts₀.shapeCasts_S40_S1x40) := by
  have h : W9 m ρ c (Proc.devRef .tc main_v40) = shapeCast S1x40 (W8 m ρ c (Proc.devRef .tc main_arg5)) Facts₀.shapeCasts_S40_S1x40 := by
    show StableHlo.after (hostOps3 (F := Ideal)) (W8 m ρ c) (Proc.devRef .tc main_v40) = _
    after_results <;> rfl
  rw [h, w8_arg5]

/-- THE RESULT BUFFER after the last stage: the four stages and the two hops composed, of the argument arrays. -/
theorem w10_out : W10 m ρ c (Proc.devRef .tc main_v41)
    = kernelOut (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  have h := (W10_arr m ρ c 2).trans (arr3 (V9 m ρ) c)
  rw [show V9 m ρ c (Pipeline.arrRef spec3 0) = tile2 (N := 100000) (K := 16) (J := 40) (hop (m ((c : Thread nD τ).loc main_arg1)) (tile1 (N := 100000) (F := 16) (hop (m ((c : Thread nD τ).loc main_arg1)) (tile0 (N := 100000) (K := 512) (F := 16) (m ((c : Thread nD τ).loc main_arg0)) (m ((c : Thread nD τ).loc main_arg2)) (dinvCol (m ((c : Thread nD τ).loc main_arg1))))) (dinvCol (m ((c : Thread nD τ).loc main_arg1))) (shapeCast S1x16 (m ((c : Thread nD τ).loc main_arg3)) Facts₀.shapeCasts_S16_S1x16))) (dinvCol (m ((c : Thread nD τ).loc main_arg1))) (m ((c : Thread nD τ).loc main_arg4)) from w9_out m ρ c,
    show V9 m ρ c (Pipeline.arrRef spec3 1) = (shapeCast S1x40 (m ((c : Thread nD τ).loc main_arg5)) Facts₀.shapeCasts_S40_S1x40) from w9_bias m ρ c] at h
  exact h

end Cert.KernelIdeal.Stage

end
-- ==== Proof.DinvReal.lean ====
/-
  The normalisation is a real number at every node.

  The in-degree of a node is a finite sum of ones added to zero: a real number, whatever the index words are (an edge whose
  target word names no node contributes nowhere). The normalisation is `deg^(−1/2)` where the degree is positive and `0`
  elsewhere: the reciprocal square root of a positive real is real, and so is `0`. So there is a real column `D` with the
  normalisation array equal to `D n` at every node `n`; the comparison of the two programs never needs its value.
-/
import proofs.«156424_j58969900974604_2_alg».proof.Proof.KernelTerms

noncomputable section

namespace Cert.KernelIdeal.Stage

open Cert.KernelIdeal Cert.KernelIdeal.Facts₀ Cert.KernelIdeal.Facts
open Idealize.ShloMosaic Idealize.ShloMosaic.ValueIdx Cert.Lib.RealSum Cert.Lib.Propagate Cert.Lib.NormHop

/-- The word `0x3F800000` (the float one) denotes a real number. -/
theorem isReal_one_word : IsReal (Ideal.ofBits .f32 0x3F800000#32) := by
  unfold Ideal.ofBits Ideal.ieee
  simp
  exact ⟨_, rfl⟩

/-- Every in-degree is a real number. -/
theorem degArr_real (e : IVec S2x3200000 32) (i : S100000.Idx) : IsReal (degArr e i) := by
  unfold degArr
  refine IsReal.host_scatterAdd _ _ _ _ (fun i => ?_) (fun j => ?_) i
  · rw [zeros_apply]; exact IsReal.zero
  · rw [broadcastInDim_apply _ bcast_S_S3300000 _ j ix0 (fun a => a.elim0)]
    exact isReal_one_word

/-- The normalisation is a real number at every node. -/
theorem dinvArr_real (e : IVec S2x3200000 32) (i : S100000.Idx) : IsReal (dinvArr e i) := by
  unfold dinvArr
  exact isReal_rsqrt_where_pos _ _ _ (degArr_real e) (fun i => zeros_apply _ i) (fun i => zeros_apply _ i) i

end Cert.KernelIdeal.Stage

end
-- ==== Proof.Finite.lean ====
/-
  Finite inputs are real numbers.

  The precondition of the claim is a printed predicate: for each of the five float arguments it compares the absolute
  value of every entry with the word of `+∞`, takes the conjunction over the whole array (`jnp.all`, a reduction by `and`
  from `1`), and joins the five results by `and`. Read at the ideal values, where a float is an extended real, an entry
  whose absolute value `max x (−x)` is below `+∞` is neither `+∞` nor `−∞`: it is a real number. So under the
  precondition every entry of every float argument is (the coercion of) a real, which is what lets products distribute
  over sums in the comparison of the two programs.
-/
import proofs.«156424_j58969900974604_2_alg».proof.Pre_finite_inputs
import proofs.«156424_j58969900974604_2_alg».proof.Proof.Gen.Pre_finite_inputs
import proofs.«156424_j58969900974604_2_alg».proof.Proof.LibRealSum
import Idealize.ShloMosaic.Lib.ReduceAll
import Idealize.ShloMosaic.Lib.ValueIdx
import Idealize.ShloMosaic.Lib.Pipeline.Value
import Idealize.ShloMosaic.PureOps.Ideal

noncomputable section

namespace Cert.Finite

open Idealize.ShloMosaic Idealize.ShloMosaic.ValueIdx Cert.Pre_finite_inputs Cert.Lib.RealSum

instance : Subsingleton S_.Idx := ⟨fun a b => funext fun d => d.elim0⟩

/-- The word `0x7F800000` denotes `+∞`. -/
theorem ofBits_top : Ideal.ofBits .f32 0x7F800000#32 = (⊤ : EReal) := by
  simp [Ideal.ofBits, Ideal.ieee]

/-- An extended real whose absolute value compares below `+∞` is a real number. -/
theorem isReal_of_abs_lt (x : EReal)
    (h : Ideal.cmp .olt (max x (-x)) (Ideal.ofBits .f32 0x7F800000#32) = 1#1) : IsReal x := by
  rw [ofBits_top] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x < ⊤ := lt_of_le_of_lt (le_max_left _ _) hlt
  have h2 : -x < ⊤ := lt_of_le_of_lt (le_max_right _ _) hlt
  have hb : x ≠ ⊥ := by
    rintro rfl
    exact absurd h2 (by simp)
  exact ⟨x.toReal, (EReal.coe_toReal h1.ne hb).symm⟩

/-- One argument's conjunct: if "every entry's absolute value is below `+∞`" reduces to `1`, every entry is real. -/
theorem all_real {s : Shape} {ax : List (Fin s.rank)} (a : FVec Ideal s .f32)
    (hb : S_.BroadcastsInDim s (![] : Fin 0 → Fin s.rank)) (hr : s.ReducesTo ax S_) (hu : 0 < S_.numel)
    (h : Host.reduce IntOp.andi (cmpf .olt (Host.absf a) (broadcastInDim s ![] hb (constant (F := Ideal) S_ .f32 0x7F800000#32)))
        (constantI S_ 1 1#1) hr hu ix0 = 1#1) (i : s.Idx) : IsReal (a i) := by
  have hi := Host.reduce_andi_all _ _ hr hu ix0 h i
  rw [cmpf_apply, broadcastInDim_apply _ hb _ i ix0 (fun d => d.elim0)] at hi
  exact isReal_of_abs_lt (a i) hi

/-- Under the precondition every entry of every float argument is a real number. -/
theorem reals_of_pre (a0 : FVec Ideal S100000x512 .f32) (a1 : IVec S2x3200000 32) (a2 : FVec Ideal S512x16 .f32)
    (a3 : FVec Ideal S16 .f32) (a4 : FVec Ideal S16x40 .f32) (a5 : FVec Ideal S40 .f32)
    (h : fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ix0
  dsimp only [fn, fn_part1] at h0
  simp only [andi, IntOp.andi_eq_one] at h0
  obtain ⟨⟨⟨⟨e0, e2⟩, e3⟩, e4⟩, e5⟩ := h0
  exact ⟨all_real a0 _ _ _ e0, all_real a2 _ _ _ e2, all_real a3 _ _ _ e3, all_real a4 _ _ _ e4, all_real a5 _ _ _ e5⟩

end Cert.Finite

end
-- ==== Proof.RefValue.lean ====
/-
  What the reference program computes on real inputs: the logarithm of the softmax along each row of the logits of a
  two-layer graph convolution with symmetric normalisation, in the plain arrangement of `LibTwoLayerGcn` (`lsmRows` of `preR`).

  The program's run ends with its result at ONE composed term of the six argument arrays: the features `x`, the edge
  array, two weight matrices, two bias rows. This module reads that term stage by stage. Each stage is named by a
  definition spelt exactly as the term spells it, so the term IS the last stage applied to the earlier ones (`res_eq`:
  both sides are the same term once the names are unfolded). The stages:

  * the index words. Row 0 of the edge array holds the sources, row 1 the targets; each is followed by the numbers
    `0, 1, …, N − 1`, one loop per node (`srcWords`, `tgtWords`). A word is READ as a row after being moved up by `N` if it
    is negative (`wrapWords`) and then clamped: as columns of index words these are `rowS` and `rowT`. The target words as
    they stand (`colT`) say where an edge LANDS; a word that is no row lands nowhere.
  * the degree, ones added up at the rows the edges land on (`degArr`), and the normalisation `deg ^ (-1/2)` where
    `deg > 0`, zero elsewhere (`dinvArr`). Nothing about its value is used: the theorem is stated for ANY real column
    `D` that the normalisation array equals.
  * the weight of edge `e`: the normalisation gathered at the row its source reads times the normalisation gathered at the
    row its target reads (`nrmArr`; stood up as a column, `nrmCol`). Where it is used it is spread along the features, and
    at `(e, f)` it is `D (source row) · D (target row)` for every `f` (`edgeWeight_apply`, `nrm16`, `nrm40`).
  * a propagation: gather the source rows, multiply row `e` by the weight of edge `e`, add the rows up where the edges land
    (`hop16` on 16 features, `hop40` on 40).
  * layer one, `max (propagate (x · W₁) + b₁, 0)` (`hidArr`); layer two, `propagate (h · W₂) + b₂` (`logitsArr`).
  * the logarithm of the softmax along each row (`maxB`, `shifted`, `tailArr`).

  Why the equation holds. Up to the logits every stage sends real arrays to real arrays, and on real entries each
  operation is its textbook one: the product of two real matrices is the real product; a propagation whose weights are
  real is, at `(n, f)`, the real sum over the edges landing on row `n` of the source row's entry times the weight;
  adding a bias row and cutting off the negative part act entry by entry, and the maximum of two reals taken among the
  extended reals is their real maximum. One layer of the program is therefore "propagate the real product, add the
  bias" (`hopDense_real`); layer one with the cut-off is `hidR` (`layer1`), and layer two on top of it is `preR`
  (`logits`). The last stage is read entry by entry for ANY array of logits (`hostLogSoftmax_apply`, `tail_eq`): a
  column spread back along the rows reads the column's entry of that row, the reduction along a row is the fold of `max`
  from the starting word's value, respectively that row's sum added to zero, and the second maximum the program takes
  with the starting word's value changes nothing because the fold already starts from it. That is `lsmRows`.

  Also here, for any edge array (`lands_reads`): an edge whose target word lands on row `n` reads row `n` as its target,
  because a word that lands is a row number: it is not negative, so it is not moved, and it is below `N`, so clamping
  leaves it alone. This is the condition under which the arrangement that scales rows agrees with the plain one.
-/
import proofs.«156424_j58969900974604_2_alg».proof.Proof.RefTerm
import proofs.«156424_j58969900974604_2_alg».proof.Proof.LibTwoLayerGcn

noncomputable section

open scoped BigOperators

namespace Cert.ReferenceIdeal.RefValue

open Cert.ReferenceIdeal Cert.ReferenceIdeal.Gen Cert.ReferenceIdeal.ValueP Idealize.ShloMosaic Idealize.ShloMosaic.ValueIdx
  Cert.Lib.RowOps Cert.Lib.RealSum Cert.Lib.Propagate Cert.Lib.Dense Cert.Lib.NormHop

/-! ## The stages of the composed term, spelt as the term spells them -/

/-- The source words: row 0 of the edge array, then one loop per node, `0, 1, …, N − 1`. -/
def srcWords (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The target words: row 1 of the edge array, then one loop per node, `0, 1, …, N − 1`. -/
def tgtWords (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A word prepared for reading: moved up by `N = 100000` if it is negative, left alone otherwise. -/
def wrapWords (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v

/-- The source words prepared for reading, as a column of index words: edge `e` reads the row this names, clamped. -/
def rowS (ei : IVec S2x3200000 32) : IVec S3300000x1 32 :=
  broadcastInDim S3300000x1 ![0] bcast_S3300000_S3300000x1_0 (wrapWords (srcWords ei))

/-- The target words prepared for reading, as a column of index words. -/
def rowT (ei : IVec S2x3200000 32) : IVec S3300000x1 32 :=
  broadcastInDim S3300000x1 ![0] bcast_S3300000_S3300000x1_0 (wrapWords (tgtWords ei))

/-- The target words as they stand, as a column of index words: edge `e` lands on the row this names, if it is a row. -/
def colT (ei : IVec S2x3200000 32) : IVec S3300000x1 32 :=
  broadcastInDim S3300000x1 ![0] bcast_S3300000_S3300000x1_0 (tgtWords ei)

/-- The degree: for each node, a one for every edge landing on it, added to zero. -/
def degArr (ei : IVec S2x3200000 32) : FVec Ideal S100000 .f32 :=
  Host.scatterAdd scatter_S100000_S3300000x1_S3300000_n_0_0_1 (broadcastInDim S100000 ![] bcast_S_S100000 (constant S_ .f32 0x00000000#32)) (colT ei) (broadcastInDim S3300000 ![] bcast_S_S3300000 (constant S_ .f32 0x3F800000#32))

/-- The normalisation: `deg ^ (-1/2)` where the degree is positive, zero elsewhere. -/
def dinvArr (ei : IVec S2x3200000 32) : FVec Ideal S100000 .f32 :=
  select (cmpf (F := Ideal) .ogt (degArr ei) (broadcastInDim S100000 ![] bcast_S_S100000 (constant S_ .f32 0x00000000#32))) (Host.rsqrt (degArr ei)) (broadcastInDim S100000 ![] bcast_S_S100000 (id (constant S_ .f32 0x00000000#32)))

/-- The edges' weights: the normalisation at the row the source reads times the normalisation at the row the target reads. -/
def nrmArr (ei : IVec S2x3200000 32) : FVec Ideal S3300000 .f32 :=
  mulf (Host.gather gather_S100000_S3300000x1_S3300000_n_0_n_n_0_1_1 (dinvArr ei) (rowS ei)) (Host.gather gather_S100000_S3300000x1_S3300000_n_0_n_n_0_1_1 (dinvArr ei) (rowT ei))

/-- The edges' weights stood up as a column. -/
def nrmCol (ei : IVec S2x3200000 32) : FVec Ideal S3300000x1 .f32 :=
  broadcastInDim S3300000x1 ![0] bcast_S3300000_S3300000x1_0 (nrmArr ei)

/-- One propagation on 16 features: source rows gathered, row `e` multiplied by the weight of edge `e`, rows added up
    where the edges land, starting from zero. -/
def hop16 (ei : IVec S2x3200000 32) (h : FVec Ideal S100000x16 .f32) : FVec Ideal S100000x16 .f32 :=
  Host.scatterAdd scatter_S100000x16_S3300000x1_S3300000x16_1_0_0_1 (broadcastInDim S100000x16 ![] bcast_S_S100000x16 (constant S_ .f32 0x00000000#32)) (colT ei) (mulf (Host.gather gather_S100000x16_S3300000x1_S3300000x16_1_0_n_n_0_1_116 h (rowS ei)) (broadcastInDim S3300000x16 ![0, 1] bcast_S3300000x1_S3300000x16_0_1 (nrmCol ei)))

/-- The same propagation on 40 features. -/
def hop40 (ei : IVec S2x3200000 32) (h : FVec Ideal S100000x40 .f32) : FVec Ideal S100000x40 .f32 :=
  Host.scatterAdd scatter_S100000x40_S3300000x1_S3300000x40_1_0_0_1 (broadcastInDim S100000x40 ![] bcast_S_S100000x40 (constant S_ .f32 0x00000000#32)) (colT ei) (mulf (Host.gather gather_S100000x40_S3300000x1_S3300000x40_1_0_n_n_0_1_140 h (rowS ei)) (broadcastInDim S3300000x40 ![0, 1] bcast_S3300000x1_S3300000x40_0_1 (nrmCol ei)))

/-- Layer one: the product `x · W₁` propagated, the bias row `b₁` added to every row, the negative part cut off. -/
def hidArr (x : FVec Ideal S100000x512 .f32) (ei : IVec S2x3200000 32) (w1 : FVec Ideal S512x16 .f32) (b1 : FVec Ideal S16 .f32) :
    FVec Ideal S100000x16 .f32 :=
  maximumf (addf (hop16 ei (Host.dotGeneral dot_S100000x512_S512x16_S100000x16_1_0_0_1_n_n none x w1)) (broadcastInDim S100000x16 ![0, 1] bcast_S1x16_S100000x16_0_1 (broadcastInDim S1x16 ![1] bcast_S16_S1x16_1 b1))) (broadcastInDim S100000x16 ![] bcast_S_S100000x16 (constant S_ .f32 0x00000000#32))

/-- Layer two, the logits: the product of the hidden layer with `W₂` propagated, the bias row `b₂` added to every row. -/
def logitsArr (x : FVec Ideal S100000x512 .f32) (ei : IVec S2x3200000 32) (w1 : FVec Ideal S512x16 .f32) (b1 : FVec Ideal S16 .f32)
    (w2 : FVec Ideal S16x40 .f32) (b2 : FVec Ideal S40 .f32) : FVec Ideal S100000x40 .f32 :=
  addf (hop40 ei (Host.dotGeneral dot_S100000x16_S16x40_S100000x40_1_0_0_1_n_n none (hidArr x ei w1 b1) w2)) (broadcastInDim S100000x40 ![0, 1] bcast_S1x40_S100000x40_0_1 (broadcastInDim S1x40 ![1] bcast_S40_S1x40_1 b2))

/-- Each row's maximum (a reduction from the starting word, then once more the maximum with that word's value),
    stood up as a column and spread back along the row. -/
def maxB (L : FVec Ideal S100000x40 .f32) : FVec Ideal S100000x40 .f32 :=
  broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x40_S100000_d1 h_S_)))

/-- The logits with each row's maximum subtracted. -/
def shifted (L : FVec Ideal S100000x40 .f32) : FVec Ideal S100000x40 .f32 :=
  subf L (maxB L)

/-- The last stage: from the shifted logits, the logarithm of each row's sum of exponentials, stood up as a column and
    spread back along the row, subtracted. -/
def tailArr (L : FVec Ideal S100000x40 .f32) : FVec Ideal S100000x40 .f32 :=
  subf (shifted L) (broadcastInDim S100000x40 ![0, 1] bcast_S100000x1_S100000x40_0_1 (Host.log (broadcastInDim S100000x1 ![0] bcast_S100000_S100000x1_0 (Host.reduceAdd (Host.exp (shifted L)) (constant S_ .f32 0x00000000#32) reducesTo_S100000x40_S100000_d1 h_S_))))

/-! ## General steps, for any extents -/

section General

variable {N E F K J A B : Nat}

/-- A column `[A, 1]` spread along the rows of `[A, B]` reads, at `(p, q)`, the column's entry of row `p`. -/
theorem colSpread_apply {α : Type} (hA : A ≠ 1)
    (h2 : (⟨2, ![A, 1]⟩ : Shape).BroadcastsInDim ⟨2, ![A, B]⟩ (![0, 1] : Fin 2 → Fin 2))
    (v : (⟨2, ![A, 1]⟩ : Shape).Idx → α) (p : Fin A) (q : Fin B) :
    broadcastInDim ⟨2, ![A, B]⟩ (![0, 1] : Fin 2 → Fin 2) h2 v (ix2 p q) = v (ix2 p (0 : Fin 1)) :=
  broadcastInDim_apply _ h2 _ (ix2 p q) (ix2 p (0 : Fin 1)) (fun a => match a with
    | ⟨0, _⟩ => by show p.val = if A = 1 then 0 else p.val; rw [if_neg hA]
    | ⟨1, _⟩ => by show 0 = if (1 : Nat) = 1 then 0 else q.val; rw [if_pos rfl])

/-- An `[A]` vector stood up as an `[A, 1]` column reads, at `(p, 0)`, the vector's entry `p`. -/
theorem colOf_apply {α : Type} (hA : A ≠ 1)
    (h1 : (⟨1, ![A]⟩ : Shape).BroadcastsInDim ⟨2, ![A, 1]⟩ (![0] : Fin 1 → Fin 2))
    (x : (⟨1, ![A]⟩ : Shape).Idx → α) (p : Fin A) :
    broadcastInDim ⟨2, ![A, 1]⟩ (![0] : Fin 1 → Fin 2) h1 x (ix2 p (0 : Fin 1)) = x (ix1 p) :=
  broadcastInDim_apply _ h1 _ (ix2 p (0 : Fin 1)) (ix1 p) (fun a => match a with
    | ⟨0, _⟩ => by show p.val = if A = 1 then 0 else p.val; rw [if_neg hA])

/-- A scalar spread over an `[A]` vector reads the scalar everywhere. -/
theorem scalarSpread_apply {α : Type}
    (h0 : (⟨0, ![]⟩ : Shape).BroadcastsInDim ⟨1, ![A]⟩ (![] : Fin 0 → Fin 1))
    (x : (⟨0, ![]⟩ : Shape).Idx → α) (p : Fin A) :
    broadcastInDim ⟨1, ![A]⟩ (![] : Fin 0 → Fin 1) h0 x (ix1 p) = x ix0 :=
  broadcastInDim_apply _ h0 _ (ix1 p) ix0 (fun a => a.elim0)

/-- The weight of an edge as the program computes it: the normalisation column gathered at the edge's source row and at
    its target row, the two multiplied, the product stood up as a column and spread along the features. At `(e, f)` that is
    `D (source row) · D (target row)`, whatever `f`. -/
theorem edgeWeight_apply (hN : 0 < N) (hE : E ≠ 1)
    (wf : GatherDims.WF ⟨1, ![N]⟩ ⟨2, ![E, 1]⟩ ⟨1, ![E]⟩ [] [0] [] [0] [] 1 ![1])
    (dg : GatherDims ⟨1, ![N]⟩ ⟨2, ![E, 1]⟩ ⟨1, ![E]⟩) (hdg : dg = flatGather N E wf)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (d : FVec Ideal ⟨1, ![N]⟩ .f32) (D : Fin N → ℝ) (hd : ∀ n, d (ix1 n) = ((D n : ℝ) : EReal))
    (rowS rowT : IVec ⟨2, ![E, 1]⟩ 32) (e : Fin E) (f : Fin F) :
    broadcastInDim ⟨2, ![E, F]⟩ (![0, 1] : Fin 2 → Fin 2) h2 (broadcastInDim ⟨2, ![E, 1]⟩ (![0] : Fin 1 → Fin 2) h1
        (mulf (Host.gather dg d rowS) (Host.gather dg d rowT))) (ix2 e f)
      = ((edgeCoef hN rowS rowT D e : ℝ) : EReal) := by
  subst hdg
  rw [rowBroadcast_apply hE h1 h2 _ e f, mulf_apply, flatGather_apply hN wf d rowS e, flatGather_apply hN wf d rowT e, hd, hd]
  exact (EReal.coe_mul _ _).symm

/-- Cutting off the negative part of a real array: the maximum with an array of zeros is the real maximum with `0`. -/
theorem relu_real {s : Shape} (r : s.Idx → ℝ) (z : FVec Ideal s .f32) (hz : ∀ i, z i = 0) :
    maximumf (fun y => ((r y : ℝ) : EReal) : FVec Ideal s .f32) z = fun y => ((max (r y) 0 : ℝ) : EReal) := by
  funext y
  rw [maximumf_apply, hz]
  exact (EReal.coe_strictMono.monotone.map_max (a := r y) (b := 0)).symm

/-- One layer as the program spells it — the product of two real arrays, propagated with the edges' weights, a bias row
    added to every row — is the real array "propagate the real product, add the bias". -/
theorem hopDense_real (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (dd : DotDims ⟨2, ![N, K]⟩ ⟨2, ![K, J]⟩ ⟨2, ![N, J]⟩) (hdd : Cert.PlainDot.IsPlain dd)
    (h1 : (⟨1, ![J]⟩ : Shape).BroadcastsInDim ⟨2, ![1, J]⟩ (![1] : Fin 1 → Fin 2))
    (h2 : (⟨2, ![1, J]⟩ : Shape).BroadcastsInDim ⟨2, ![N, J]⟩ (![0, 1] : Fin 2 → Fin 2))
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = ((ν e : ℝ) : EReal))
    (b : FVec Ideal ⟨1, ![J]⟩ .f32) (β : Fin J → ℝ) (hb : ∀ j, b (ix1 j) = ((β j : ℝ) : EReal))
    (r : (⟨2, ![N, K]⟩ : Shape).Idx → ℝ) (w : (⟨2, ![K, J]⟩ : Shape).Idx → ℝ) :
    addf (Host.scatterAdd ds zArr colI (mulf (Host.gather dg
          (Host.dotGeneral (F := Ideal) (φ₁ := .f32) (φ₂ := .f32) dd none (fun x => ((r x : ℝ) : EReal)) (fun x => ((w x : ℝ) : EReal))) rowI) nB))
        (broadcastInDim ⟨2, ![N, J]⟩ (![0, 1] : Fin 2 → Fin 2) h2 (broadcastInDim ⟨2, ![1, J]⟩ (![1] : Fin 1 → Fin 2) h1 b))
      = fun y => ((stepReal hN rowI colI ν (contract r w) y + β (⟨(y 1).val, idx2_lt1 y⟩ : Fin J) : ℝ) : EReal) := by
  rw [dotGeneral_real dd hdd r w, host_hop_real hN wfG wfS dg ds hdg hds rowI colI zArr nB hz ν hn (contract r w)]
  exact add_biasRows_real h1 h2 b β hb _

/-- The logarithm of the softmax along each row, as the program spells it on a whole array `L : [A, B]`: the row maximum
    (a reduction from the word `w`, then once more the maximum with `w`'s value, stood up as a column and spread back
    along the rows) subtracted; then the logarithm of the row sum of exponentials, likewise a column spread back,
    subtracted. Read at `(p, q)`, with `m` the fold of `max` over row `p` from `w`'s value: `(L (p, q) − m) − log ∑ₖ exp (L (p, k) − m)`.
    The second maximum with `w`'s value changes nothing: the fold already starts from it. -/
theorem hostLogSoftmax_apply (hA : A ≠ 1) (L : FVec Ideal ⟨2, ![A, B]⟩ .f32) (w : BitVec (FTy.bits .f32))
    (h0 : (⟨0, ![]⟩ : Shape).BroadcastsInDim ⟨1, ![A]⟩ (![] : Fin 0 → Fin 1))
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hr : (⟨2, ![A, B]⟩ : Shape).ReducesTo [1] ⟨1, ![A]⟩) (hu : 0 < (⟨0, ![]⟩ : Shape).numel) (p : Fin A) (q : Fin B) :
    subf (subf L (broadcastInDim ⟨2, ![A, B]⟩ (![0, 1] : Fin 2 → Fin 2) h2 (broadcastInDim ⟨2, ![A, 1]⟩ (![0] : Fin 1 → Fin 2) h1
          (maximumf (broadcastInDim ⟨1, ![A]⟩ (![] : Fin 0 → Fin 1) h0 (constant (F := Ideal) ⟨0, ![]⟩ .f32 w))
            (Host.reduce FloatOps.maximumf L (constant (F := Ideal) ⟨0, ![]⟩ .f32 w) hr hu)))))
        (broadcastInDim ⟨2, ![A, B]⟩ (![0, 1] : Fin 2 → Fin 2) h2 (Host.log (broadcastInDim ⟨2, ![A, 1]⟩ (![0] : Fin 1 → Fin 2) h1
          (Host.reduceAdd (Host.exp (subf L (broadcastInDim ⟨2, ![A, B]⟩ (![0, 1] : Fin 2 → Fin 2) h2
              (broadcastInDim ⟨2, ![A, 1]⟩ (![0] : Fin 1 → Fin 2) h1
                (maximumf (broadcastInDim ⟨1, ![A]⟩ (![] : Fin 0 → Fin 1) h0 (constant (F := Ideal) ⟨0, ![]⟩ .f32 w))
                  (Host.reduce FloatOps.maximumf L (constant (F := Ideal) ⟨0, ![]⟩ .f32 w) hr hu))))))
            (constant (F := Ideal) ⟨0, ![]⟩ .f32 0x00000000#32) hr hu)))) (ix2 p q)
      = (L (ix2 p q) - (Finset.univ : Finset (Fin B)).fold max (Ideal.ofBits .f32 w) (fun k => L (ix2 p k)))
        - Ideal.log (∑ k : Fin B, Ideal.exp (L (ix2 p k)
            - (Finset.univ : Finset (Fin B)).fold max (Ideal.ofBits .f32 w) (fun k => L (ix2 p k)))) := by
  have hR : (⟨2, ![A, B]⟩ : Shape).Reduces [1] ⟨1, ![A]⟩ := ⟨hr.1, Nat.one_pos, hr.2⟩
  -- the maximum column spread back, at any column of row p
  have hm : ∀ c : Fin B,
      broadcastInDim ⟨2, ![A, B]⟩ (![0, 1] : Fin 2 → Fin 2) h2 (broadcastInDim ⟨2, ![A, 1]⟩ (![0] : Fin 1 → Fin 2) h1
          (maximumf (broadcastInDim ⟨1, ![A]⟩ (![] : Fin 0 → Fin 1) h0 (constant (F := Ideal) ⟨0, ![]⟩ .f32 w))
            (Host.reduce FloatOps.maximumf L (constant (F := Ideal) ⟨0, ![]⟩ .f32 w) hr hu))) (ix2 p c)
        = (Finset.univ : Finset (Fin B)).fold max (Ideal.ofBits .f32 w) (fun k => L (ix2 p k)) := fun c => by
    rw [colSpread_apply hA h2 _ p c, colOf_apply hA h1 _ p, maximumf_apply, scalarSpread_apply h0 _ p,
      Cert.RowLayer.hostRowMax_apply L _ hr hR hu p]
    exact max_eq_right ((Finset.le_fold_max _).mpr (Or.inl le_rfl))
  -- the logarithm of the row's sum of exponentials, spread back
  have hs : broadcastInDim ⟨2, ![A, B]⟩ (![0, 1] : Fin 2 → Fin 2) h2 (Host.log (broadcastInDim ⟨2, ![A, 1]⟩ (![0] : Fin 1 → Fin 2) h1
          (Host.reduceAdd (Host.exp (subf L (broadcastInDim ⟨2, ![A, B]⟩ (![0, 1] : Fin 2 → Fin 2) h2
              (broadcastInDim ⟨2, ![A, 1]⟩ (![0] : Fin 1 → Fin 2) h1
                (maximumf (broadcastInDim ⟨1, ![A]⟩ (![] : Fin 0 → Fin 1) h0 (constant (F := Ideal) ⟨0, ![]⟩ .f32 w))
                  (Host.reduce FloatOps.maximumf L (constant (F := Ideal) ⟨0, ![]⟩ .f32 w) hr hu))))))
            (constant (F := Ideal) ⟨0, ![]⟩ .f32 0x00000000#32) hr hu))) (ix2 p q)
        = Ideal.log (∑ k : Fin B, Ideal.exp (L (ix2 p k)
            - (Finset.univ : Finset (Fin B)).fold max (Ideal.ofBits .f32 w) (fun k => L (ix2 p k)))) := by
    rw [colSpread_apply hA h2 _ p q]
    refine congrArg Ideal.log ?_
    rw [colOf_apply hA h1 _ p, Cert.RowLayer.hostRowSum_apply _ _ hr hR hu p]
    show Ideal.ofBits .f32 0x00000000#32 + _ = _
    rw [Ideal.ofBits_zero_f32, zero_add]
    exact Finset.sum_congr rfl fun k _ => congrArg (fun m => Ideal.exp (L (ix2 p k) - m)) (hm k)
  show (L (ix2 p q) - _) - _ = _
  rw [hm q, hs]

end General

/-! ## The reference program's stages, at its own shapes -/

theorem h100000 : 0 < 100000 := by norm_num

/-- An edge whose target word lands on row `n` reads row `n`: the word that lands is a row number, so it is not negative
    (moving it up if negative leaves it alone) and clamping leaves it alone. -/
theorem lands_reads (ei : IVec S2x3200000 32) (e : Fin 3300000) (n : Fin 100000)
    (hl : ((colT ei) (ix2 e 0)).toInt = (n.val : Int)) : clampRow h100000 (rowT ei) e = n :=
  clampRow_wrapped_of_lands h100000 bcast_S_S3300000 bcast_S3300000_S3300000x1_0 (tgtWords ei) 100000#32 e n hl

/-- The edges' weights spread along 16 features: `D (source row) · D (target row)` at every feature. -/
theorem nrm16 (ei : IVec S2x3200000 32) (D : Fin 100000 → ℝ)
    (hD : ∀ n : Fin 100000, dinvArr ei (ix1 n) = ((D n : ℝ) : EReal)) (e : Fin 3300000) (f : Fin 16) :
    broadcastInDim S3300000x16 ![0, 1] bcast_S3300000x1_S3300000x16_0_1 (nrmCol ei) (ix2 e f)
      = ((edgeCoef h100000 (rowS ei) (rowT ei) D e : ℝ) : EReal) :=
  edgeWeight_apply h100000 (by norm_num) gather_S100000_S3300000x1_S3300000_n_0_n_n_0_1_1_wf gather_S100000_S3300000x1_S3300000_n_0_n_n_0_1_1 rfl bcast_S3300000_S3300000x1_0 bcast_S3300000x1_S3300000x16_0_1
    (dinvArr ei) D hD (rowS ei) (rowT ei) e f

/-- The same weights spread along 40 features. -/
theorem nrm40 (ei : IVec S2x3200000 32) (D : Fin 100000 → ℝ)
    (hD : ∀ n : Fin 100000, dinvArr ei (ix1 n) = ((D n : ℝ) : EReal)) (e : Fin 3300000) (f : Fin 40) :
    broadcastInDim S3300000x40 ![0, 1] bcast_S3300000x1_S3300000x40_0_1 (nrmCol ei) (ix2 e f)
      = ((edgeCoef h100000 (rowS ei) (rowT ei) D e : ℝ) : EReal) :=
  edgeWeight_apply h100000 (by norm_num) gather_S100000_S3300000x1_S3300000_n_0_n_n_0_1_1_wf gather_S100000_S3300000x1_S3300000_n_0_n_n_0_1_1 rfl bcast_S3300000_S3300000x1_0 bcast_S3300000x1_S3300000x40_0_1
    (dinvArr ei) D hD (rowS ei) (rowT ei) e f

/-- The hidden layer of the program on real inputs is the plain arrangement's hidden layer. -/
theorem layer1 (ei : IVec S2x3200000 32) (D : Fin 100000 → ℝ)
    (hD : ∀ n : Fin 100000, dinvArr ei (ix1 n) = ((D n : ℝ) : EReal))
    (xr : (⟨2, ![100000, 512]⟩ : Shape).Idx → ℝ) (w1 : (⟨2, ![512, 16]⟩ : Shape).Idx → ℝ) (β1 : Fin 16 → ℝ)
    (b1 : FVec Ideal S16 .f32) (hb1 : ∀ j : Fin 16, b1 (ix1 j) = ((β1 j : ℝ) : EReal)) :
    hidArr (fun i => ((xr i : ℝ) : EReal)) ei (fun i => ((w1 i : ℝ) : EReal)) b1
      = fun y => ((Cert.Gcn2.hidR h100000 (rowS ei) (rowT ei) (colT ei) D xr w1 β1 y : ℝ) : EReal) := by
  have h := hopDense_real h100000 gather_S100000x16_S3300000x1_S3300000x16_1_0_n_n_0_1_116_wf scatter_S100000x16_S3300000x1_S3300000x16_1_0_0_1_wf gather_S100000x16_S3300000x1_S3300000x16_1_0_n_n_0_1_116 scatter_S100000x16_S3300000x1_S3300000x16_1_0_0_1 rfl rfl dot_S100000x512_S512x16_S100000x16_1_0_0_1_n_n ⟨rfl, rfl, rfl, rfl, rfl, rfl⟩
    bcast_S16_S1x16_1 bcast_S1x16_S100000x16_0_1 (rowS ei) (colT ei) _ _
    (zeros_apply bcast_S_S100000x16) (edgeCoef h100000 (rowS ei) (rowT ei) D) (nrm16 ei D hD) b1 β1 hb1 xr w1
  unfold hidArr hop16
  rw [h]
  exact relu_real _ _ (zeros_apply bcast_S_S100000x16)

/-- The logits of the program on real inputs are the plain arrangement's logits. -/
theorem logits (ei : IVec S2x3200000 32) (D : Fin 100000 → ℝ)
    (hD : ∀ n : Fin 100000, dinvArr ei (ix1 n) = ((D n : ℝ) : EReal))
    (xr : (⟨2, ![100000, 512]⟩ : Shape).Idx → ℝ) (w1 : (⟨2, ![512, 16]⟩ : Shape).Idx → ℝ) (β1 : Fin 16 → ℝ)
    (w2 : (⟨2, ![16, 40]⟩ : Shape).Idx → ℝ) (β2 : Fin 40 → ℝ)
    (b1 : FVec Ideal S16 .f32) (hb1 : ∀ j : Fin 16, b1 (ix1 j) = ((β1 j : ℝ) : EReal))
    (b2 : FVec Ideal S40 .f32) (hb2 : ∀ j : Fin 40, b2 (ix1 j) = ((β2 j : ℝ) : EReal)) :
    logitsArr (fun i => ((xr i : ℝ) : EReal)) ei (fun i => ((w1 i : ℝ) : EReal)) b1 (fun i => ((w2 i : ℝ) : EReal)) b2
      = fun y => ((Cert.Gcn2.preR h100000 (rowS ei) (rowT ei) (colT ei) D xr w1 β1 w2 β2 y : ℝ) : EReal) := by
  unfold logitsArr hop40
  rw [layer1 ei D hD xr w1 β1 b1 hb1]
  exact hopDense_real h100000 gather_S100000x40_S3300000x1_S3300000x40_1_0_n_n_0_1_140_wf scatter_S100000x40_S3300000x1_S3300000x40_1_0_0_1_wf gather_S100000x40_S3300000x1_S3300000x40_1_0_n_n_0_1_140 scatter_S100000x40_S3300000x1_S3300000x40_1_0_0_1 rfl rfl dot_S100000x16_S16x40_S100000x40_1_0_0_1_n_n ⟨rfl, rfl, rfl, rfl, rfl, rfl⟩
    bcast_S40_S1x40_1 bcast_S1x40_S100000x40_0_1 (rowS ei) (colT ei) _ _
    (zeros_apply bcast_S_S100000x40) (edgeCoef h100000 (rowS ei) (rowT ei) D) (nrm40 ei D hD) b2 β2 hb2
    (Cert.Gcn2.hidR h100000 (rowS ei) (rowT ei) (colT ei) D xr w1 β1) w2

/-- The program's last stage on any logits is the logarithm of the softmax along each row. -/
theorem tail_eq (L : FVec Ideal S100000x40 .f32) :
    tailArr L = Cert.Gcn2.lsmRows (Ideal.ofBits .f32 0xFF800000#32) L := by
  funext y
  obtain ⟨p, q, rfl⟩ : ∃ (p : Fin 100000) (q : Fin 40), y = ix2 p q := ⟨y 0, y 1, eq_ix2 y⟩
  exact hostLogSoftmax_apply (by norm_num) L 0xFF800000#32 bcast_S_S100000 bcast_S100000_S100000x1_0
    bcast_S100000x1_S100000x40_0_1 reducesTo_S100000x40_S100000_d1 h_S_ p q

/-! ## The result of the run -/

set_option maxRecDepth 8192 in
/-- The composed term the run ends at is the last stage applied to the logits stage of the six argument arrays: the two
    sides are the same term once the stages' names are unfolded. -/
theorem res_eq (m : (ℓ : Loc nD τ sig) → Buf (Elt Ideal) ℓ) (c : Dev nD) :
    res_main_v91 (F := Ideal) m c
      = tailArr (logitsArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := rfl

/-- THE VALUE OF THE REFERENCE PROGRAM on real inputs: the logarithm of the softmax along each row of the plain
    arrangement's logits, for any real column `D` the normalisation array equals. -/
theorem ref_value (m : (ℓ : Loc nD τ sig) → Buf (Elt Ideal) ℓ) (c : Dev nD)
    (xr : (⟨2, ![100000, 512]⟩ : Shape).Idx → ℝ) (w1 : (⟨2, ![512, 16]⟩ : Shape).Idx → ℝ) (β1 : Fin 16 → ℝ)
    (w2 : (⟨2, ![16, 40]⟩ : Shape).Idx → ℝ) (β2 : Fin 40 → ℝ) (D : Fin 100000 → ℝ)
    (hx : m ((c.tc : Thread nD τ).loc main_arg0) = fun i => ((xr i : ℝ) : EReal))
    (hw1 : m ((c.tc : Thread nD τ).loc main_arg2) = fun i => ((w1 i : ℝ) : EReal))
    (hb1 : ∀ j : Fin 16, m ((c.tc : Thread nD τ).loc main_arg3) (ix1 j) = ((β1 j : ℝ) : EReal))
    (hw2 : m ((c.tc : Thread nD τ).loc main_arg4) = fun i => ((w2 i : ℝ) : EReal))
    (hb2 : ∀ j : Fin 40, m ((c.tc : Thread nD τ).loc main_arg5) (ix1 j) = ((β2 j : ℝ) : EReal))
    (hD : ∀ n : Fin 100000, dinvArr (m ((c.tc : Thread nD τ).loc main_arg1)) (ix1 n) = ((D n : ℝ) : EReal)) :
    res_main_v91 (F := Ideal) m c
      = Cert.Gcn2.lsmRows (Ideal.ofBits .f32 0xFF800000#32)
          (fun y => ((Cert.Gcn2.preR h100000 (rowS (m ((c.tc : Thread nD τ).loc main_arg1)))
            (rowT (m ((c.tc : Thread nD τ).loc main_arg1))) (colT (m ((c.tc : Thread nD τ).loc main_arg1)))
            D xr w1 β1 w2 β2 y : ℝ) : EReal)) := by
  have hL : logitsArr (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
      = fun y => ((Cert.Gcn2.preR h100000 (rowS (m ((c.tc : Thread nD τ).loc main_arg1)))
            (rowT (m ((c.tc : Thread nD τ).loc main_arg1))) (colT (m ((c.tc : Thread nD τ).loc main_arg1)))
            D xr w1 β1 w2 β2 y : ℝ) : EReal) := by
    rw [hx, hw1, hw2]
    exact logits (m ((c.tc : Thread nD τ).loc main_arg1)) D hD xr w1 β1 w2 β2
      (m ((c.tc : Thread nD τ).loc main_arg3)) hb1 (m ((c.tc : Thread nD τ).loc main_arg5)) hb2
  rw [res_eq, hL]
  exact tail_eq _

end Cert.ReferenceIdeal.RefValue

end
-- ==== Proof.Bridge.lean ====
/-
  The two idealized programs compute the same array.

  Under the precondition every float argument holds real numbers (the module Finite), and the normalisation column is real
  at every node (DinvReal). On real entries the idealized kernel's result is the logarithm of the softmax, along each row,
  of the TILED arrangement's logits (KernelStages, KernelReal), and the idealized reference's result is the same function of
  the PLAIN arrangement's logits (RefValue). The two arrangements are equal (LibTwoLayerGcn, `preK_eq_preR`): the factor `D n` common
  to the edges landing on row `n` comes out of that row's sum — an edge that lands on row `n` reads row `n` as its target —
  and a propagation commutes with the product by the second weight matrix. Both programs build their index columns from the
  edge array by the same operations, so the columns are the same arrays.
-/
import proofs.«156424_j58969900974604_2_alg».proof.Defs
import proofs.«156424_j58969900974604_2_alg».proof.Proof.KernelRun
import proofs.«156424_j58969900974604_2_alg».proof.Proof.KernelStages
import proofs.«156424_j58969900974604_2_alg».proof.Proof.DinvReal
import proofs.«156424_j58969900974604_2_alg».proof.Proof.Finite
import proofs.«156424_j58969900974604_2_alg».proof.Proof.RefValue

noncomputable section

namespace Cert.Proof.Bridge

open Idealize.ShloMosaic Idealize.ShloMosaic.ValueIdx Idealize.SL.Sem Cert.Lib.RealSum

/-- An array of real entries is the coercion of a real array. -/
theorem coe_of_isReal {ι : Type} (a : ι → EReal) (h : ∀ i, IsReal (a i)) : ∃ r : ι → ℝ, a = fun i => ((r i : ℝ) : EReal) :=
  ⟨fun i => (h i).choose, funext fun i => (h i).choose_spec⟩

/-- THE VALUES AGREE: from memories that agree on the arguments, under the precondition, the reference's composed result term
    is the array the kernel's run leaves in its result buffer. -/
theorem values_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) :
    Cert.ReferenceIdeal.ValueP.res_main_v91 (F := Ideal) m' c
      = Cert.KernelIdeal.Gen.W10 m ρ c (Proc.devRef .tc Cert.KernelIdeal.main_v41) := by
  obtain ⟨r0, r2, r3, r4, r5⟩ := Cert.Finite.reals_of_pre _ _ _ _ _ _ hpre
  obtain ⟨xr, hx⟩ := coe_of_isReal _ r0
  obtain ⟨w1, hw1⟩ := coe_of_isReal _ r2
  obtain ⟨b1r, hb1⟩ := coe_of_isReal _ r3
  obtain ⟨w2, hw2⟩ := coe_of_isReal _ r4
  obtain ⟨b2r, hb2⟩ := coe_of_isReal _ r5
  obtain ⟨Dr, hDr⟩ := coe_of_isReal _ (Cert.KernelIdeal.Stage.dinvArr_real (m ((c.tc : Thread Cert.KernelIdeal.nD Cert.KernelIdeal.τ).loc Cert.KernelIdeal.main_arg1)))
  have hK := Cert.KernelIdeal.Stage.w10_out m ρ c
  rw [hx, hw1, hw2,
    Cert.KernelIdeal.Stage.kernelOut_real _ xr w1 (fun j => b1r (ix1 j)) w2 (fun j => b2r (ix1 j)) (fun n => Dr (ix1 n))
      (fun n => congrFun hDr (ix1 n)) _ (fun j => congrFun hb1 (ix1 j)) _ (fun j => congrFun hb2 (ix1 j))] at hK
  rw [hK,
    Cert.ReferenceIdeal.RefValue.ref_value m' c xr w1 (fun j => b1r (ix1 j)) w2 (fun j => b2r (ix1 j)) (fun n => Dr (ix1 n))
      (h0.trans hx) (h2.trans hw1) (fun j => (congrFun h3 (ix1 j)).trans (congrFun hb1 (ix1 j))) (h4.trans hw2)
      (fun j => (congrFun h5 (ix1 j)).trans (congrFun hb2 (ix1 j)))
      (fun n => by rw [h1]; exact congrFun hDr (ix1 n)),
    h1,
    ← Cert.Gcn2.preK_eq_preR Cert.KernelIdeal.Stage.h100000 (Cert.ReferenceIdeal.RefValue.rowS (m ((c.tc : Thread Cert.KernelIdeal.nD Cert.KernelIdeal.τ).loc Cert.KernelIdeal.main_arg1)))
      (Cert.ReferenceIdeal.RefValue.rowT (m ((c.tc : Thread Cert.KernelIdeal.nD Cert.KernelIdeal.τ).loc Cert.KernelIdeal.main_arg1))) (Cert.ReferenceIdeal.RefValue.colT (m ((c.tc : Thread Cert.KernelIdeal.nD Cert.KernelIdeal.τ).loc Cert.KernelIdeal.main_arg1)))
      (fun n => Dr (ix1 n)) xr w1 (fun j => b1r (ix1 j)) w2 (fun j => b2r (ix1 j))
      (fun e n hl => Cert.ReferenceIdeal.RefValue.lands_reads (m ((c.tc : Thread Cert.KernelIdeal.nD Cert.KernelIdeal.τ).loc Cert.KernelIdeal.main_arg1)) e n hl)]
  rfl

end Cert.Proof.Bridge

end
-- ==== Proof.RefRunA.lean ====
/-
  The first half of the reference program's run, read back.

  The reference program is a straight line of 134 array operations. Its first 64 operations compute the layer-2 product
  `H₁ · W₂`, where `H₁` is the rectified hidden layer: the product `x · W₁` gathered along the edges' source rows,
  weighted edge by edge with the product of the two ends' normalising factors, summed into the edges' target rows, a bias
  added, the negative part cut off. The remaining 70 operations read, of what came before, only the two rows of the edge
  array (reshaped to vectors), that product, and the last bias.

  Here: the line cut after operation 63 (`ops = opsA ++ opsB`); a fold over a concatenation is the fold over the second
  part from the fold over the first (`after_append`); and what the first part leaves in the buffers the second part
  reads — each as ONE term of the argument arrays —, the argument arrays themselves unchanged. The first part is read in
  three stretches, each for an arbitrary valuation at its entry, so that the stretches compose by substitution:
  operations 0–21 (the edge rows, the first product, the degree normalisation), 22–40 (the edge weights), 41–63 (gather,
  weight, scatter, bias, cut, product).
-/
import proofs.«156424_j58969900974604_2_alg».proof.Proof.RefRunBase

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold from the first line's. -/
theorem after_append (a b : List (HloOp τ sig (Elt F))) (V : Valuation τ sig (Elt F)) :
    after (a ++ b) V = after b (after a V) := by
  induction a generalizing V with
  | nil => rfl
  | cons op a ih => exact ih (op.result V)

/-- Operations 0–63 of @main: up to the layer-2 product. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg2 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v4 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- Operations 64–133 of @main: the second propagation, the last bias, the logarithm of the softmax. -/
abbrev opsB : List (HloOp τ sig (Elt F)) :=
  [ nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v50 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v50 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v67 (broadcastInDim S3300000 ![] bcast_S_S3300000 : (⟨S_, .i32⟩ : BufTy).Contents (Elt F) → (⟨S3300000, .i32⟩ : BufTy).Contents (Elt F)),
    binary main_v51 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v69 (broadcastInDim S3300000 ![] bcast_S_S3300000 : (⟨S_, .i32⟩ : BufTy).Contents (Elt F) → (⟨S3300000, .i32⟩ : BufTy).Contents (Elt F)),
    binary main_v51 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v66 main_v73 main_v74 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v50 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v50 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v48 main_v80 main_v81 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v74 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x40 ![0, 1] bcast_S3300000x1_S3300000x40_0_1 : (⟨S3300000x1, .f32⟩ : BufTy).Contents (Elt F) → (⟨S3300000x40, .f32⟩ : BufTy).Contents (Elt F)),
    binary main_v81 main_v83 main_v84 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v85 (broadcastInDim S100000x40 ![] bcast_S_S100000x40 : (⟨S_, .f32⟩ : BufTy).Contents (Elt F) → (⟨S100000x40, .f32⟩ : BufTy).Contents (Elt F)),
    unary main_v51 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S100000x40 ![0, 1] bcast_S1x40_S100000x40_0_1 : (⟨S1x40, .f32⟩ : BufTy).Contents (Elt F) → (⟨S100000x40, .f32⟩ : BufTy).Contents (Elt F)),
    binary main_v87 main_v89 main_v90 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v90) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v90) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v91) subf ]

set_option maxRecDepth 8192 in
/-- @main's line is the two parts in order. -/
theorem ops_split : (ops : List (HloOp τ sig (Elt F))) = opsA ++ opsB := rfl

set_option maxRecDepth 8192 in
/-- The layer-2 product `H₁ · W₂` as one term of the argument arrays. -/
def v48Term (m : (ℓ : Loc nD τ sig) → Buf (Elt F) ℓ) (c : Dev nD) : Buf (Elt F) ((c.tc : Thread nD τ).loc main_v48) :=
  Host.dotGeneral dot_S100000x16_S16x40_S100000x40_1_0_0_1_n_n none (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (Host.gather gather_S100000x16_S3300000x1_S3300000x16_1_0_n_n_0_1_116 (Host.dotGeneral dot_S100000x512_S512x16_S100000x16_1_0_0_1_n_n none (m ((c.tc : Thread nD τ).loc main_arg0)) (m ((c.tc : Thread nD τ).loc main_arg2))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant S_ .f32 0x00000000#32))) (m ((c.tc : Thread nD τ).loc main_arg4))

/-! ## The three stretches of the first part -/

/-- Operations 0–21: the edge array's two rows as vectors, each with the nodes' own indices appended (a self-loop per
    node); the first product `x · W₁`; the nodes' degrees summed over the target row, and the normalising factor, their
    inverse square root where the degree is positive and 0 elsewhere. -/
abbrev opsA1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg2 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 22–40: the weight of every edge, the product of its two ends' normalising factors (each end's index
    moved up by the node count when negative, then looked up). -/
abbrev opsA2 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Operations 41–63: the rows of the first product gathered along the edges' source ends, weighted, summed into the
    target ends' rows; the bias added; the negative part cut off; the product with `W₂`. -/
abbrev opsA3 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v4 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

set_option maxRecDepth 8192 in
/-- The first part is the three stretches in order. -/
theorem opsA_split : (opsA : List (HloOp τ sig (Elt F))) = opsA1 ++ (opsA2 ++ opsA3) := rfl

set_option maxHeartbeats 4000000 in
/-- The first stretch leaves the first product `x · W₁` in `main_v4`. -/
theorem A1_v4 (W : Valuation τ sig (Elt F)) :
    after opsA1 W (Proc.devRef .tc main_v4)
      = Host.dotGeneral dot_S100000x512_S512x16_S100000x16_1_0_0_1_n_n none (W (Proc.devRef .tc main_arg0)) (W (Proc.devRef .tc main_arg2)) := by
  after_results <;> rfl

set_option maxHeartbeats 4000000 in
/-- The first stretch leaves the edges' first ends, the nodes' own indices appended, in `main_v6`. -/
theorem A1_v6 (W : Valuation τ sig (Elt F)) :
    after opsA1 W (Proc.devRef .tc main_v6)
      = concatenate S3300000 0 [⟨S3200000, (shapeCast _ (extractStridedSlice S1x3200000 ![0, 0] (W (Proc.devRef .tc main_arg1)) slices_S2x3200000_S1x3200000_0_0) shapeCasts_S1x3200000_S3200000)⟩, ⟨S100000, (iotaInDim S100000 32 0)⟩] concatenates_S3200000_S100000_S3300000_d0 := by
  after_results <;> rfl

set_option maxHeartbeats 4000000 in
/-- The first stretch leaves the edges' second ends, the nodes' own indices appended, in `main_v7`. -/
theorem A1_v7 (W : Valuation τ sig (Elt F)) :
    after opsA1 W (Proc.devRef .tc main_v7)
      = concatenate S3300000 0 [⟨S3200000, (shapeCast _ (extractStridedSlice S1x3200000 ![1, 0] (W (Proc.devRef .tc main_arg1)) slices_S2x3200000_S1x3200000_1_0) shapeCasts_S1x3200000_S3200000)⟩, ⟨S100000, (iotaInDim S100000 32 0)⟩] concatenates_S3200000_S100000_S3300000_d0 := by
  after_results <;> rfl

set_option maxHeartbeats 4000000 in
/-- The first stretch leaves the nodes' normalising factors in `main_v15`: the inverse square root of the degree (the count of
    second ends equal to the node) where that is positive, 0 elsewhere. -/
theorem A1_v15 (W : Valuation τ sig (Elt F)) :
    after opsA1 W (Proc.devRef .tc main_v15)
      = select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (W (Proc.devRef .tc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (W (Proc.devRef .tc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32))) := by
  after_results <;> rfl

set_option maxHeartbeats 4000000 in
/-- The first stretch does not write the first bias. -/
theorem A1_arg3 (W : Valuation τ sig (Elt F)) :
    after opsA1 W (Proc.devRef .tc main_arg3) = W (Proc.devRef .tc main_arg3) := by
  after_results <;> rfl

set_option maxHeartbeats 4000000 in
/-- The first stretch does not write `W₂`. -/
theorem A1_arg4 (W : Valuation τ sig (Elt F)) :
    after opsA1 W (Proc.devRef .tc main_arg4) = W (Proc.devRef .tc main_arg4) := by
  after_results <;> rfl

set_option maxHeartbeats 4000000 in
/-- The second stretch leaves the edges' weights in `main_v30`: for each edge the product of the normalising factors looked up at
    its two ends. -/
theorem A2_v30 (W : Valuation τ sig (Elt F)) :
    after opsA2 W (Proc.devRef .tc main_v30)
      = mulf (Host.gather gather_S100000_S3300000x1_S3300000_n_0_n_n_0_1_1 (W (Proc.devRef .tc main_v15)) (broadcastInDim S3300000x1 ![0] bcast_S3300000_S3300000x1_0 (select (cmpi .slt (W (Proc.devRef .tc main_v6)) (broadcastInDim S3300000 ![] bcast_S_S3300000 (constantI S_ 32 0#32))) (addi (W (Proc.devRef .tc main_v6)) (broadcastInDim S3300000 ![] bcast_S_S3300000 (constantI S_ 32 100000#32))) (W (Proc.devRef .tc main_v6))))) (Host.gather gather_S100000_S3300000x1_S3300000_n_0_n_n_0_1_1 (W (Proc.devRef .tc main_v15)) (broadcastInDim S3300000x1 ![0] bcast_S3300000_S3300000x1_0 (select (cmpi .slt (W (Proc.devRef .tc main_v7)) (broadcastInDim S3300000 ![] bcast_S_S3300000 (constantI S_ 32 0#32))) (addi (W (Proc.devRef .tc main_v7)) (broadcastInDim S3300000 ![] bcast_S_S3300000 (constantI S_ 32 100000#32))) (W (Proc.devRef .tc main_v7))))) := by
  after_results <;> rfl

set_option maxHeartbeats 4000000 in
/-- The second stretch does not write the first product. -/
theorem A2_v4 (W : Valuation τ sig (Elt F)) :
    after opsA2 W (Proc.devRef .tc main_v4) = W (Proc.devRef .tc main_v4) := by
  after_results <;> rfl

set_option maxHeartbeats 4000000 in
/-- The second stretch does not write the edges' first ends. -/
theorem A2_v6 (W : Valuation τ sig (Elt F)) :
    after opsA2 W (Proc.devRef .tc main_v6) = W (Proc.devRef .tc main_v6) := by
  after_results <;> rfl

set_option maxHeartbeats 4000000 in
/-- The second stretch does not write the edges' second ends. -/
theorem A2_v7 (W : Valuation τ sig (Elt F)) :
    after opsA2 W (Proc.devRef .tc main_v7) = W (Proc.devRef .tc main_v7) := by
  after_results <;> rfl

set_option maxHeartbeats 4000000 in
/-- The second stretch does not write the first bias. -/
theorem A2_arg3 (W : Valuation τ sig (Elt F)) :
    after opsA2 W (Proc.devRef .tc main_arg3) = W (Proc.devRef .tc main_arg3) := by
  after_results <;> rfl

set_option maxHeartbeats 4000000 in
/-- The second stretch does not write `W₂`. -/
theorem A2_arg4 (W : Valuation τ sig (Elt F)) :
    after opsA2 W (Proc.devRef .tc main_arg4) = W (Proc.devRef .tc main_arg4) := by
  after_results <;> rfl

set_option maxHeartbeats 4000000 in
/-- The third stretch leaves the layer-2 product in `main_v48`: the first product's rows gathered at the edges' first ends,
    each scaled by its edge's weight, summed into the rows the second ends name; the bias added to every row; the negative
    part cut off; the result multiplied by `W₂`. -/
theorem A3_v48 (W : Valuation τ sig (Elt F)) :
    after opsA3 W (Proc.devRef .tc main_v48)
      = Host.dotGeneral dot_S100000x16_S16x40_S100000x40_1_0_0_1_n_n none (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (W (Proc.devRef .tc main_v7))) (mulf (Host.gather gather_S100000x16_S3300000x1_S3300000x16_1_0_n_n_0_1_116 (W (Proc.devRef .tc main_v4)) (broadcastInDim S3300000x1 ![0] bcast_S3300000_S3300000x1_0 (select (cmpi .slt (W (Proc.devRef .tc main_v6)) (broadcastInDim S3300000 ![] bcast_S_S3300000 (constantI S_ 32 0#32))) (addi (W (Proc.devRef .tc main_v6)) (broadcastInDim S3300000 ![] bcast_S_S3300000 (constantI S_ 32 100000#32))) (W (Proc.devRef .tc main_v6))))) (broadcastInDim S3300000x16 ![0, 1] bcast_S3300000x1_S3300000x16_0_1 (broadcastInDim S3300000x1 ![0] bcast_S3300000_S3300000x1_0 (W (Proc.devRef .tc main_v30)))))) (broadcastInDim S100000x16 ![0, 1] bcast_S1x16_S100000x16_0_1 (broadcastInDim S1x16 ![1] bcast_S16_S1x16_1 (W (Proc.devRef .tc main_arg3))))) (broadcastInDim S100000x16 ![] bcast_S_S100000x16 (constant S_ .f32 0x00000000#32))) (W (Proc.devRef .tc main_arg4)) := by
  after_results <;> rfl

/-! ## What the first part leaves for the second -/

set_option maxHeartbeats 4000000 in
/-- After the first part the first row of the edge array stands reshaped to a vector in `main_v1`: operations 0 and 1
    write it there and no later operation of the first part writes `main_v1`. -/
theorem cut_v1 (m : (ℓ : Loc nD τ sig) → Buf (Elt F) ℓ) (c : Dev nD) :
    after opsA (launchContents m c) (Proc.devRef .tc main_v1)
      = shapeCast _ (extractStridedSlice S1x3200000 ![0, 0] (m ((c.tc : Thread nD τ).loc main_arg1)) slices_S2x3200000_S1x3200000_0_0) shapeCasts_S1x3200000_S3200000 := by
  after_results_simp <;> rfl

set_option maxHeartbeats 4000000 in
/-- After the first part the second row of the edge array stands reshaped to a vector in `main_v3`. -/
theorem cut_v3 (m : (ℓ : Loc nD τ sig) → Buf (Elt F) ℓ) (c : Dev nD) :
    after opsA (launchContents m c) (Proc.devRef .tc main_v3)
      = shapeCast _ (extractStridedSlice S1x3200000 ![1, 0] (m ((c.tc : Thread nD τ).loc main_arg1)) slices_S2x3200000_S1x3200000_1_0) shapeCasts_S1x3200000_S3200000 := by
  after_results_simp <;> rfl

set_option maxRecDepth 8192 in
/-- After the first part `main_v48` holds the layer-2 product: the third stretch's term, with what it reads replaced by
    the second stretch's term and what that leaves alone, and those in turn by the first stretch's terms of the arguments. -/
theorem cut_v48 (m : (ℓ : Loc nD τ sig) → Buf (Elt F) ℓ) (c : Dev nD) :
    after opsA (launchContents m c) (Proc.devRef .tc main_v48) = v48Term m c := by
  rw [opsA_split, after_append, after_append, A3_v48]
  rw [A2_v30, A2_v4, A2_v6, A2_v7, A2_arg3, A2_arg4]
  rw [A1_v4, A1_v6, A1_v7, A1_v15, A1_arg3, A1_arg4]
  unfold v48Term
  rfl

set_option maxHeartbeats 4000000 in
/-- No operation of the first part writes argument 0. -/
theorem cut_arg0 (m : (ℓ : Loc nD τ sig) → Buf (Elt F) ℓ) (c : Dev nD) :
    after opsA (launchContents m c) (Proc.devRef .tc main_arg0) = m ((c.tc : Thread nD τ).loc main_arg0) := by
  after_results_simp <;> rfl

set_option maxHeartbeats 4000000 in
/-- No operation of the first part writes argument 1. -/
theorem cut_arg1 (m : (ℓ : Loc nD τ sig) → Buf (Elt F) ℓ) (c : Dev nD) :
    after opsA (launchContents m c) (Proc.devRef .tc main_arg1) = m ((c.tc : Thread nD τ).loc main_arg1) := by
  after_results_simp <;> rfl

set_option maxHeartbeats 4000000 in
/-- No operation of the first part writes argument 2. -/
theorem cut_arg2 (m : (ℓ : Loc nD τ sig) → Buf (Elt F) ℓ) (c : Dev nD) :
    after opsA (launchContents m c) (Proc.devRef .tc main_arg2) = m ((c.tc : Thread nD τ).loc main_arg2) := by
  after_results_simp <;> rfl

set_option maxHeartbeats 4000000 in
/-- No operation of the first part writes argument 3. -/
theorem cut_arg3 (m : (ℓ : Loc nD τ sig) → Buf (Elt F) ℓ) (c : Dev nD) :
    after opsA (launchContents m c) (Proc.devRef .tc main_arg3) = m ((c.tc : Thread nD τ).loc main_arg3) := by
  after_results_simp <;> rfl

set_option maxHeartbeats 4000000 in
/-- No operation of the first part writes argument 4. -/
theorem cut_arg4 (m : (ℓ : Loc nD τ sig) → Buf (Elt F) ℓ) (c : Dev nD) :
    after opsA (launchContents m c) (Proc.devRef .tc main_arg4) = m ((c.tc : Thread nD τ).loc main_arg4) := by
  after_results_simp <;> rfl

set_option maxHeartbeats 4000000 in
/-- No operation of the first part writes argument 5. -/
theorem cut_arg5 (m : (ℓ : Loc nD τ sig) → Buf (Elt F) ℓ) (c : Dev nD) :
    after opsA (launchContents m c) (Proc.devRef .tc main_arg5) = m ((c.tc : Thread nD τ).loc main_arg5) := by
  after_results_simp <;> rfl

end Cert.ReferenceIdeal.ValueP

end
-- ==== Proof.RefRun.lean ====
/-
  The reference program's run, read back.

  The reference program is a straight line of 134 array operations, so the contents of every buffer after the run are a
  fold: each operation rewrites the buffer it writes, as a function of the buffers it reads, and leaves the rest. A fold
  over a line cut in two is the fold over the second part started from the fold over the first. The line is cut after
  operation 63; what the first part leaves is read back in its own module. Here the second part, operations 64–133: the
  two edge rows extended by one self-loop per node, the normalising column (one over the square root of the number of
  edges landing on each node), the weight of every edge (the column at its source times the column at its target), the
  rows of the layer-2 product gathered along the edges, weighted and added up at the edges' targets, the last bias added
  to every row, and the logarithm of the softmax along each row.

  The second part reads, of what came before it, only four values: the two edge rows, the layer-2 product and the last
  bias. It is read back in four pieces, each for ARBITRARY contents at its entry, each piece's result a named term of the
  values the piece reads (`t50` … `t91`); a value that a later piece reads passes unchanged through the pieces that do
  not write it. Substituting piece into piece gives the second part's result as one term `tailTerm` of the four values
  (`tail_eq`); substituting what the first part left for them gives the whole program's composed term (`result_eq`).
  No operation writes an argument array, so the arguments end as they were launched (`arg0_eq` … `arg5_eq`). The run
  of a straight line ends with every buffer at its fold (the library's theorem for such programs): `run`.
-/
import proofs.«156424_j58969900974604_2_alg».proof.Proof.RefRunA

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## A value carried to a buffer's own type and back -/

/-- A value of type T written to a buffer whose type is T and read back is the value. -/
theorem ofBuf_toBuf {Val : EltTy → Type} {T : BufTy} (x : TRef sig T) (v : T.Contents Val) : x.ofBuf (x.toBuf v) = v := by
  obtain ⟨r, h, h2, h3⟩ := x
  subst h
  rfl

/-- A value of type T written to a buffer whose type is T is that value. -/
theorem toBuf_eq {Val : EltTy → Type} {T : BufTy} (x : TRef sig T) (v : T.Contents Val) (w : x.ref.ty.Contents Val)
    (h : HEq v w) : x.toBuf v = w := by
  obtain ⟨r, hty, h2, h3⟩ := x
  subst hty
  exact eq_of_heq h

/-! ## The terms -/

/-- The edge sources (or targets) followed by one self-loop per node. -/
def t50 (a1 : (⟨S3200000, .i32⟩ : BufTy).Contents (Elt F)) : (⟨S3300000, .i32⟩ : BufTy).Contents (Elt F) :=
  concatenate S3300000 0 [⟨S3200000, a1⟩, ⟨S100000, (iotaInDim S100000 32 0)⟩] concatenates_S3200000_S100000_S3300000_d0

/-- The same for the other row of the edge array. -/
def t51 (a3 : (⟨S3200000, .i32⟩ : BufTy).Contents (Elt F)) : (⟨S3300000, .i32⟩ : BufTy).Contents (Elt F) :=
  concatenate S3300000 0 [⟨S3200000, a3⟩, ⟨S100000, (iotaInDim S100000 32 0)⟩] concatenates_S3200000_S100000_S3300000_d0

/-- The normalising column: one over the square root of the number of edges landing on each node, zero where none lands. -/
def t59 (x51 : (⟨S3300000, .i32⟩ : BufTy).Contents (Elt F)) : (⟨S100000, .f32⟩ : BufTy).Contents (Elt F) :=
  select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 x51) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 x51) (broadcastInDim S3300000 ![] bcast_S_S3300000 (constant S_ .f32 0x3F800000#32)))) (broadcastInDim S100000 ![] bcast_S_S100000 (id (constant S_ .f32 0x00000000#32)))

/-- The weight of every edge: the column's entry at its source times the column's entry at its target (an index below zero
    counted from the end). -/
def t74 (x50 x51 : (⟨S3300000, .i32⟩ : BufTy).Contents (Elt F)) (x59 : (⟨S100000, .f32⟩ : BufTy).Contents (Elt F)) : (⟨S3300000, .f32⟩ : BufTy).Contents (Elt F) :=
  mulf (Host.gather gather_S100000_S3300000x1_S3300000_n_0_n_n_0_1_1 x59 (broadcastInDim S3300000x1 ![0] bcast_S3300000_S3300000x1_0 (select (cmpi .slt x50 (broadcastInDim S3300000 ![] bcast_S_S3300000 (constantI S_ 32 0#32))) (addi x50 (broadcastInDim S3300000 ![] bcast_S_S3300000 (constantI S_ 32 100000#32))) x50))) (Host.gather gather_S100000_S3300000x1_S3300000_n_0_n_n_0_1_1 x59 (broadcastInDim S3300000x1 ![0] bcast_S3300000_S3300000x1_0 (select (cmpi .slt x51 (broadcastInDim S3300000 ![] bcast_S_S3300000 (constantI S_ 32 0#32))) (addi x51 (broadcastInDim S3300000 ![] bcast_S_S3300000 (constantI S_ 32 100000#32))) x51)))

/-- The logits: the rows of the second product gathered along the edges, weighted, added up at the edges' targets, plus the bias row. -/
def t90 (x50 x51 : (⟨S3300000, .i32⟩ : BufTy).Contents (Elt F)) (a48 : (⟨S100000x40, .f32⟩ : BufTy).Contents (Elt F)) (x74 : (⟨S3300000, .f32⟩ : BufTy).Contents (Elt F))
    (a5 : (⟨S40, .f32⟩ : BufTy).Contents (Elt F)) : (⟨S100000x40, .f32⟩ : BufTy).Contents (Elt F) :=
  addf (Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 x51) (mulf (Host.gather gather_S100000x40_S3300000x1_S3300000x40_1_0_n_n_0_1_140 a48 (broadcastInDim S3300000x1 ![0] bcast_S3300000_S3300000x1_0 (select (cmpi .slt x50 (broadcastInDim S3300000 ![] bcast_S_S3300000 (constantI S_ 32 0#32))) (addi x50 (broadcastInDim S3300000 ![] bcast_S_S3300000 (constantI S_ 32 100000#32))) x50))) (broadcastInDim S3300000x40 ![0, 1] bcast_S3300000x1_S3300000x40_0_1 (broadcastInDim S3300000x1 ![0] bcast_S3300000_S3300000x1_0 x74)))) (broadcastInDim S100000x40 ![0, 1] bcast_S1x40_S100000x40_0_1 (broadcastInDim S1x40 ![1] bcast_S40_S1x40_1 a5))

/-- The logarithm of the softmax along each row. -/
def t91 (x90 : (⟨S100000x40, .f32⟩ : BufTy).Contents (Elt F)) : (⟨S100000x40, .f32⟩ : BufTy).Contents (Elt F) :=
  subf (subf x90 (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf x90 (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf x90 (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf x90 (constant S_ .f32 0xFF800000#32) reducesTo_S100000x40_S100000_d1 h_S_)))))) (constant S_ .f32 0x00000000#32) reducesTo_S100000x40_S100000_d1 h_S_))))

/-- The second half of the program as one term of the four values it reads. -/
def tailTerm (a1 a3 : (⟨S3200000, .i32⟩ : BufTy).Contents (Elt F)) (a48 : (⟨S100000x40, .f32⟩ : BufTy).Contents (Elt F)) (a5 : (⟨S40, .f32⟩ : BufTy).Contents (Elt F)) :
    (⟨S100000x40, .f32⟩ : BufTy).Contents (Elt F) :=
  t91 (t90 (t50 a1) (t51 a3) a48 (t74 (t50 a1) (t51 a3) (t59 (t51 a3))) a5)

/-! ## The second half of the line, in four pieces -/

/-- Operations 64–80: the edge rows with the self-loops appended, and the normalising column. -/
abbrev tail1 : List (HloOp τ sig (Elt F)) :=
  [ nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select ]

/-- Operations 81–99: the weight of every edge. -/
abbrev tail2 : List (HloOp τ sig (Elt F)) :=
  [ nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v50 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v50 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v67 (broadcastInDim S3300000 ![] bcast_S_S3300000 : (⟨S_, .i32⟩ : BufTy).Contents (Elt F) → (⟨S3300000, .i32⟩ : BufTy).Contents (Elt F)),
    binary main_v51 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v69 (broadcastInDim S3300000 ![] bcast_S_S3300000 : (⟨S_, .i32⟩ : BufTy).Contents (Elt F) → (⟨S3300000, .i32⟩ : BufTy).Contents (Elt F)),
    binary main_v51 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v66 main_v73 main_v74 (mulf : (⟨S3300000, .f32⟩ : BufTy).Contents (Elt F) → (⟨S3300000, .f32⟩ : BufTy).Contents (Elt F) → (⟨S3300000, .f32⟩ : BufTy).Contents (Elt F)) ]

/-- Operations 100–118: the second propagation and the bias, the logits. -/
abbrev tail3 : List (HloOp τ sig (Elt F)) :=
  [ nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v50 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v50 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v48 main_v80 main_v81 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v74 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x40 ![0, 1] bcast_S3300000x1_S3300000x40_0_1 : (⟨S3300000x1, .f32⟩ : BufTy).Contents (Elt F) → (⟨S3300000x40, .f32⟩ : BufTy).Contents (Elt F)),
    binary main_v81 main_v83 main_v84 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v85 (broadcastInDim S100000x40 ![] bcast_S_S100000x40 : (⟨S_, .f32⟩ : BufTy).Contents (Elt F) → (⟨S100000x40, .f32⟩ : BufTy).Contents (Elt F)),
    unary main_v51 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S100000x40 ![0, 1] bcast_S1x40_S100000x40_0_1 : (⟨S1x40, .f32⟩ : BufTy).Contents (Elt F) → (⟨S100000x40, .f32⟩ : BufTy).Contents (Elt F)),
    binary main_v87 main_v89 main_v90 (addf : (⟨S100000x40, .f32⟩ : BufTy).Contents (Elt F) → (⟨S100000x40, .f32⟩ : BufTy).Contents (Elt F) → (⟨S100000x40, .f32⟩ : BufTy).Contents (Elt F)) ]

/-- Operations 119–133: the logarithm of the softmax. -/
abbrev tail4 : List (HloOp τ sig (Elt F)) :=
  [ TRef.nullary (TRef.of (T := ⟨S_, .f32⟩) main_call3_cst) (constant S_ .f32 0xFF800000#32),
    TRef.binary (TRef.of (T := ⟨S100000x40, .f32⟩) main_v90) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v90) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v91) subf ]

/-! ## Each piece read back, from any contents at its entry -/

set_option maxHeartbeats 4000000 in
/-- The first piece leaves the first edge row with the self-loops appended in `main_v50`. -/
theorem p1_v50 (W : Valuation τ sig (Elt F)) :
    after tail1 W (Proc.devRef .tc main_v50) = t50 (W (Proc.devRef .tc main_v1)) := by
  after_results
  all_goals rfl

set_option maxHeartbeats 4000000 in
/-- The first piece leaves the second edge row with the self-loops appended in `main_v51`. -/
theorem p1_v51 (W : Valuation τ sig (Elt F)) :
    after tail1 W (Proc.devRef .tc main_v51) = t51 (W (Proc.devRef .tc main_v3)) := by
  after_results
  all_goals rfl

set_option maxHeartbeats 4000000 in
/-- The first piece leaves the normalising column in `main_v59`. -/
theorem p1_v59 (W : Valuation τ sig (Elt F)) :
    after tail1 W (Proc.devRef .tc main_v59) = t59 (t51 (W (Proc.devRef .tc main_v3))) := by
  after_results
  all_goals rfl

set_option maxHeartbeats 4000000 in
/-- The first piece does not write the layer-2 product. -/
theorem p1_v48 (W : Valuation τ sig (Elt F)) :
    after tail1 W (Proc.devRef .tc main_v48) = W (Proc.devRef .tc main_v48) := by
  after_results

set_option maxHeartbeats 4000000 in
/-- The first piece does not write the last bias. -/
theorem p1_arg5 (W : Valuation τ sig (Elt F)) :
    after tail1 W (Proc.devRef .tc main_arg5) = W (Proc.devRef .tc main_arg5) := by
  after_results

set_option maxHeartbeats 4000000 in
/-- The second piece leaves the edges' weights in `main_v74`. -/
theorem p2_v74 (W : Valuation τ sig (Elt F)) :
    after tail2 W (Proc.devRef .tc main_v74) = t74 (W (Proc.devRef .tc main_v50)) (W (Proc.devRef .tc main_v51)) (W (Proc.devRef .tc main_v59)) := by
  after_results
  all_goals rfl

set_option maxHeartbeats 4000000 in
/-- The second piece does not write the first extended edge row. -/
theorem p2_v50 (W : Valuation τ sig (Elt F)) :
    after tail2 W (Proc.devRef .tc main_v50) = W (Proc.devRef .tc main_v50) := by
  after_results

set_option maxHeartbeats 4000000 in
/-- The second piece does not write the second extended edge row. -/
theorem p2_v51 (W : Valuation τ sig (Elt F)) :
    after tail2 W (Proc.devRef .tc main_v51) = W (Proc.devRef .tc main_v51) := by
  after_results

set_option maxHeartbeats 4000000 in
/-- The second piece does not write the layer-2 product. -/
theorem p2_v48 (W : Valuation τ sig (Elt F)) :
    after tail2 W (Proc.devRef .tc main_v48) = W (Proc.devRef .tc main_v48) := by
  after_results

set_option maxHeartbeats 4000000 in
/-- The second piece does not write the last bias. -/
theorem p2_arg5 (W : Valuation τ sig (Elt F)) :
    after tail2 W (Proc.devRef .tc main_arg5) = W (Proc.devRef .tc main_arg5) := by
  after_results

set_option maxHeartbeats 4000000 in
/-- The third piece leaves the logits in `main_v90`. -/
theorem p3_v90 (W : Valuation τ sig (Elt F)) :
    after tail3 W (Proc.devRef .tc main_v90) = t90 (W (Proc.devRef .tc main_v50)) (W (Proc.devRef .tc main_v51)) (W (Proc.devRef .tc main_v48)) (W (Proc.devRef .tc main_v74)) (W (Proc.devRef .tc main_arg5)) := by
  after_results
  all_goals rfl

/-- The fourth piece leaves the logarithm of the softmax of the logits in the result buffer. Its operations are a called
    function's: each carries its value to its buffer's own type and back, which is the identity. -/
theorem p4_v91 (W : Valuation τ sig (Elt F)) :
    after tail4 W (Proc.devRef .tc main_v91) = t91 (W (Proc.devRef .tc main_v90)) := by
  after_results
  simp only [ofBuf_toBuf]
  refine toBuf_eq _ _ _ (heq_of_eq ?_)
  rfl

/-! ## The second part as a whole -/

set_option maxRecDepth 8192 in
/-- The second part of the line is the four pieces in order. -/
theorem opsB_split : (opsB : List (HloOp τ sig (Elt F))) = tail1 ++ tail2 ++ tail3 ++ tail4 := rfl

/-- THE SECOND PART READ BACK, from any contents at its entry: the result buffer ends at one term of the four values the
    part reads — the two edge rows, the layer-2 product and the last bias. Each piece's contents are the next piece's
    entry contents; a value a later piece reads passes through the pieces that do not write it. -/
theorem tail_eq (W : Valuation τ sig (Elt F)) :
    after opsB W (Proc.devRef .tc main_v91)
      = tailTerm (W (Proc.devRef .tc main_v1)) (W (Proc.devRef .tc main_v3)) (W (Proc.devRef .tc main_v48)) (W (Proc.devRef .tc main_arg5)) := by
  rw [opsB_split, after_append, after_append, after_append, p4_v91, p3_v90, p2_v74, p2_v50, p2_v51, p2_v48, p2_arg5,
    p1_v50, p1_v51, p1_v59, p1_v48, p1_arg5]
  rfl

set_option maxHeartbeats 4000000 in
/-- The second part leaves argument 0 as it was. -/
theorem tail_arg0 (W : Valuation τ sig (Elt F)) : after opsB W (Proc.devRef .tc main_arg0) = W (Proc.devRef .tc main_arg0) := by
  after_results

set_option maxHeartbeats 4000000 in
/-- The second part leaves argument 1 as it was. -/
theorem tail_arg1 (W : Valuation τ sig (Elt F)) : after opsB W (Proc.devRef .tc main_arg1) = W (Proc.devRef .tc main_arg1) := by
  after_results

set_option maxHeartbeats 4000000 in
/-- The second part leaves argument 2 as it was. -/
theorem tail_arg2 (W : Valuation τ sig (Elt F)) : after opsB W (Proc.devRef .tc main_arg2) = W (Proc.devRef .tc main_arg2) := by
  after_results

set_option maxHeartbeats 4000000 in
/-- The second part leaves argument 3 as it was. -/
theorem tail_arg3 (W : Valuation τ sig (Elt F)) : after opsB W (Proc.devRef .tc main_arg3) = W (Proc.devRef .tc main_arg3) := by
  after_results

set_option maxHeartbeats 4000000 in
/-- The second part leaves argument 4 as it was. -/
theorem tail_arg4 (W : Valuation τ sig (Elt F)) : after opsB W (Proc.devRef .tc main_arg4) = W (Proc.devRef .tc main_arg4) := by
  after_results

set_option maxHeartbeats 4000000 in
/-- The second part leaves argument 5 as it was. -/
theorem tail_arg5 (W : Valuation τ sig (Elt F)) : after opsB W (Proc.devRef .tc main_arg5) = W (Proc.devRef .tc main_arg5) := by
  after_results

/-! ## The whole line -/

set_option maxRecDepth 8192 in
/-- THE RESULT OF THE WHOLE LINE: the contents after the first part are the entry contents of the second, whose four
    reads the first part left at their terms of the argument arrays; substituted, the term is the composed term of the
    whole program. -/
theorem result_eq (m : (ℓ : Loc nD τ sig) → Buf (Elt F) ℓ) (c : Dev nD) :
    after ops (launchContents m c) (Proc.devRef .tc main_v91) = res_main_v91 m c := by
  rw [ops_split, after_append, tail_eq, cut_v1, cut_v3, cut_v48, cut_arg5]
  unfold res_main_v91 v48Term tailTerm t91 t90 t74 t59 t51 t50
  rfl

/-- The whole line leaves argument 0 as it was. -/
theorem arg0_eq (m : (ℓ : Loc nD τ sig) → Buf (Elt F) ℓ) (c : Dev nD) :
    after ops (launchContents m c) (Proc.devRef .tc main_arg0) = m ((c.tc : Thread nD τ).loc main_arg0) := by
  rw [ops_split, after_append, tail_arg0, cut_arg0]

/-- The whole line leaves argument 1 as it was. -/
theorem arg1_eq (m : (ℓ : Loc nD τ sig) → Buf (Elt F) ℓ) (c : Dev nD) :
    after ops (launchContents m c) (Proc.devRef .tc main_arg1) = m ((c.tc : Thread nD τ).loc main_arg1) := by
  rw [ops_split, after_append, tail_arg1, cut_arg1]

/-- The whole line leaves argument 2 as it was. -/
theorem arg2_eq (m : (ℓ : Loc nD τ sig) → Buf (Elt F) ℓ) (c : Dev nD) :
    after ops (launchContents m c) (Proc.devRef .tc main_arg2) = m ((c.tc : Thread nD τ).loc main_arg2) := by
  rw [ops_split, after_append, tail_arg2, cut_arg2]

/-- The whole line leaves argument 3 as it was. -/
theorem arg3_eq (m : (ℓ : Loc nD τ sig) → Buf (Elt F) ℓ) (c : Dev nD) :
    after ops (launchContents m c) (Proc.devRef .tc main_arg3) = m ((c.tc : Thread nD τ).loc main_arg3) := by
  rw [ops_split, after_append, tail_arg3, cut_arg3]

/-- The whole line leaves argument 4 as it was. -/
theorem arg4_eq (m : (ℓ : Loc nD τ sig) → Buf (Elt F) ℓ) (c : Dev nD) :
    after ops (launchContents m c) (Proc.devRef .tc main_arg4) = m ((c.tc : Thread nD τ).loc main_arg4) := by
  rw [ops_split, after_append, tail_arg4, cut_arg4]

/-- The whole line leaves argument 5 as it was. -/
theorem arg5_eq (m : (ℓ : Loc nD τ sig) → Buf (Elt F) ℓ) (c : Dev nD) :
    after ops (launchContents m c) (Proc.devRef .tc main_arg5) = m ((c.tc : Thread nD τ).loc main_arg5) := by
  rw [ops_split, after_append, tail_arg5, cut_arg5]

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = res_main_v91 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c)⟩)
    (run_seq scopedRefs_eq scopedSems_eq defs main (fun _ => ops) main_eq (fun _ => ops_sub) m ρ)

end Cert.ReferenceIdeal.ValueP

end
-- ==== Proof.lean ====
/-
  The proof of `Cert.Claim`: a two-layer graph convolution with symmetric normalisation, computed by four tiled stages with
  the edge weights factored into per-node scalings and the second layer's aggregation done before its matrix product, agrees
  at the ideal values with the plain `jnp` computation that weights every edge.

  The kernel's frames are the generated frame certificates; the reference's frame is its run with the result forgotten;
  no operation of the kernel was rewritten for the idealized program, so `preserves` is trivial. For `algebraic`, the
  kernel's run leaves in its result buffer the array at the last boundary of the generated fold (KernelRun), the reference's
  run its composed term (RefRun), and the two are one array under the precondition (Bridge, `values_eq`: real entries, the
  tiled arrangement against the plain one, LibTwoLayerGcn `preK_eq_preR`).
-/
import proofs.«156424_j58969900974604_2_alg».proof.Defs
import proofs.«156424_j58969900974604_2_alg».proof.Proof.Gen.Kernel
import proofs.«156424_j58969900974604_2_alg».proof.Proof.Gen.Kernel.Frame
import proofs.«156424_j58969900974604_2_alg».proof.Proof.Gen.KernelIdeal
import proofs.«156424_j58969900974604_2_alg».proof.Proof.Gen.KernelIdeal.Frame
import proofs.«156424_j58969900974604_2_alg».proof.Proof.Gen.ReferenceIdeal
import proofs.«156424_j58969900974604_2_alg».proof.Proof.Gen.Pre_finite_inputs
import proofs.«156424_j58969900974604_2_alg».proof.Proof.Bridge
import proofs.«156424_j58969900974604_2_alg».proof.Proof.RefRun
import proofs.«156424_j58969900974604_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs run, and end with equal results: the kernel's result buffer at the last boundary's contents, the
    reference's at its composed term, which is the same array. -/
theorem algebraic : Cert.algebraic_KernelIdeal_ReferenceIdeal := by
  intro m ρ m' ρ' hpre hagree
  refine ⟨fun c => Cert.KernelIdeal.Gen.W10 m ρ c (Proc.devRef .tc Cert.KernelIdeal.main_v41),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact Bridge.values_eq m ρ m' c (hpre c) h0 h1 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
